-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x32x256x128 : Shape := ⟨4, ![4, 32, 256, 128]⟩
abbrev S4x32x1 : Shape := ⟨3, ![4, 32, 1]⟩
abbrev S4x1x1x1x1 : Shape := ⟨5, ![4, 1, 1, 1, 1]⟩
abbrev S_ : Shape := ⟨0, ![]⟩

class Facts : Prop where
  bcast_S_S4x32x256x128 : S_.BroadcastsInDim S4x32x256x128 (![] : Fin 0 → Fin S4x32x256x128.rank)
  reducesTo_S4x32x256x128_S_d0_1_2_3 : S4x32x256x128.ReducesTo [0, 1, 2, 3] S_
  h_S_ : 0 < S_.numel
  bcast_S_S4x1x1x1x1 : S_.BroadcastsInDim S4x1x1x1x1 (![] : Fin 0 → Fin S4x1x1x1x1.rank)
  reducesTo_S4x1x1x1x1_S_d0_1_2_3_4 : S4x1x1x1x1.ReducesTo [0, 1, 2, 3, 4] S_
  reducesTo_S_S_d : S_.ReducesTo [] S_
  bcast_S_S4x32x1 : S_.BroadcastsInDim S4x32x1 (![] : Fin 0 → Fin S4x32x1.rank)
  reducesTo_S4x32x1_S_d0_1_2 : S4x32x1.ReducesTo [0, 1, 2] S_

variable [Facts]

def fn_part1 {F : FTy → Type} [FloatOps F] (main_arg1 : IVec S4x32x1 32) (main_v12 : IVec S_ 1) (main_v15 : IVec S_ 1) : IVec S_ 1 :=
  let main_v16 : IVec S_ 1 := andi main_v12 main_v15
  let main_c_6 : IVec S_ 32 := constantI S_ 32 32#32
  let main_v17 : IVec S4x32x1 32 := broadcastInDim S4x32x1 ![] bcast_S_S4x32x1 main_c_6
  let main_v18 : IVec S4x32x1 1 := cmpi .slt main_arg1 main_v17
  let main_c_7 : IVec S_ 1 := constantI S_ 1 1#1
  let main_v19 : IVec S_ 1 := (fun x v => Host.reduce IntOp.andi x v reducesTo_S4x32x1_S_d0_1_2 h_S_) main_v18 main_c_7
  let main_v20 : IVec S_ 1 := andi main_v16 main_v19
  main_v20

def fn {F : FTy → Type} [FloatOps F] (main_arg0 : FVec F S4x32x256x128 .f32) (main_arg1 : IVec S4x32x1 32) (main_arg2 : FVec F S4x1x1x1x1 .f32) (main_arg3 : FVec F S_ .f32) : IVec S_ 1 :=
  let main_v0 : FVec F S4x32x256x128 .f32 := Host.absf main_arg0
  let main_cst : FVec F S_ .f32 := constant S_ .f32 0x7F800000#32
  let main_v1 : FVec F S4x32x256x128 .f32 := broadcastInDim S4x32x256x128 ![] bcast_S_S4x32x256x128 main_cst
  let main_v2 : IVec S4x32x256x128 1 := cmpf .olt main_v0 main_v1
  let main_c : IVec S_ 1 := constantI S_ 1 1#1
  let main_v3 : IVec S_ 1 := (fun x v => Host.reduce IntOp.andi x v reducesTo_S4x32x256x128_S_d0_1_2_3 h_S_) main_v2 main_c
  let main_v4 : FVec F S4x1x1x1x1 .f32 := Host.absf main_arg2
  let main_cst_0 : FVec F S_ .f32 := constant S_ .f32 0x7F800000#32
  let main_v5 : FVec F S4x1x1x1x1 .f32 := broadcastInDim S4x1x1x1x1 ![] bcast_S_S4x1x1x1x1 main_cst_0
  let main_v6 : IVec S4x1x1x1x1 1 := cmpf .olt main_v4 main_v5
  let main_c_1 : IVec S_ 1 := constantI S_ 1 1#1
  let main_v7 : IVec S_ 1 := (fun x v => Host.reduce IntOp.andi x v reducesTo_S4x1x1x1x1_S_d0_1_2_3_4 h_S_) main_v6 main_c_1
  let main_v8 : IVec S_ 1 := andi main_v3 main_v7
  let main_v9 : FVec F S_ .f32 := Host.absf main_arg3
  let main_cst_2 : FVec F S_ .f32 := constant S_ .f32 0x7F800000#32
  let main_v10 : IVec S_ 1 := cmpf .olt main_v9 main_cst_2
  let main_c_3 : IVec S_ 1 := constantI S_ 1 1#1
  let main_v11 : IVec S_ 1 := (fun x v => Host.reduce IntOp.andi x v reducesTo_S_S_d h_S_) main_v10 main_c_3
  let main_v12 : IVec S_ 1 := andi main_v8 main_v11
  let main_c_4 : IVec S_ 32 := constantI S_ 32 0#32
  let main_v13 : IVec S4x32x1 32 := broadcastInDim S4x32x1 ![] bcast_S_S4x32x1 main_c_4
  let main_v14 : IVec S4x32x1 1 := cmpi .sge main_arg1 main_v13
  let main_c_5 : IVec S_ 1 := constantI S_ 1 1#1
  let main_v15 : IVec S_ 1 := (fun x v => Host.reduce IntOp.andi x v reducesTo_S4x32x1_S_d0_1_2 h_S_) main_v14 main_c_5
  fn_part1 (F := F) main_arg1 main_v12 main_v15
-- ==== Kernel.lean ====
abbrev S4x32x256x128 : Shape := ⟨4, ![4, 32, 256, 128]⟩
abbrev S4x32x1 : Shape := ⟨3, ![4, 32, 1]⟩
abbrev S4x1x1x1x1 : Shape := ⟨5, ![4, 1, 1, 1, 1]⟩
abbrev S_ : Shape := ⟨0, ![]⟩
abbrev S4x32x32768 : Shape := ⟨3, ![4, 32, 32768]⟩
abbrev S1x4x32 : Shape := ⟨3, ![1, 4, 32]⟩
abbrev S1x4x1 : Shape := ⟨3, ![1, 4, 1]⟩
abbrev S1x1 : Shape := ⟨2, ![1, 1]⟩
abbrev S1x32x4096 : Shape := ⟨3, ![1, 32, 4096]⟩
abbrev S4x32 : Shape := ⟨2, ![4, 32]⟩
abbrev S4x32x32 : Shape := ⟨3, ![4, 32, 32]⟩
abbrev S4x1 : Shape := ⟨2, ![4, 1]⟩
abbrev S4x1x1 : Shape := ⟨3, ![4, 1, 1]⟩
abbrev S32x32 : Shape := ⟨2, ![32, 32]⟩
abbrev S32x4096 : Shape := ⟨2, ![32, 4096]⟩

abbrev nBuf : Space → Nat
  | .hbm => 10
  | .vmem => 7
  | .smem => 0
  | _ => 0

abbrev bufTy : (tb : Table) → Fin (tcTables nBuf tb) → BufTy
  | .hbm, ⟨0, _⟩ => ⟨S4x32x256x128, .f32⟩
  | .hbm, ⟨1, _⟩ => ⟨S4x32x1, .i32⟩
  | .hbm, ⟨2, _⟩ => ⟨S4x1x1x1x1, .f32⟩
  | .hbm, ⟨3, _⟩ => ⟨S_, .f32⟩
  | .hbm, ⟨4, _⟩ => ⟨S4x32x32768, .f32⟩
  | .hbm, ⟨5, _⟩ => ⟨S1x4x32, .i32⟩
  | .hbm, ⟨6, _⟩ => ⟨S1x4x1, .f32⟩
  | .hbm, ⟨7, _⟩ => ⟨S1x1, .f32⟩
  | .hbm, ⟨8, _⟩ => ⟨S4x32x32768, .f32⟩
  | .hbm, ⟨9, _⟩ => ⟨S4x32x256x128, .f32⟩
  | .local _ .vmem, ⟨0, _⟩ => ⟨S1x4x32, .i32⟩
  | .local _ .vmem, ⟨1, _⟩ => ⟨S1x4x1, .f32⟩
  | .local _ .vmem, ⟨2, _⟩ => ⟨S1x1, .f32⟩
  | .local _ .vmem, ⟨3, _⟩ => ⟨S1x32x4096, .f32⟩
  | .local _ .vmem, ⟨4, _⟩ => ⟨S1x32x4096, .f32⟩
  | .local _ .vmem, ⟨5, _⟩ => ⟨S1x32x4096, .f32⟩
  | .local _ .vmem, ⟨6, _⟩ => ⟨S1x32x4096, .f32⟩
  | _, _ => ⟨S4x32x256x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S1x4x32 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S1x4x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x32x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x32x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  shapeCasts_S4x32x256x128_S4x32x32768 : S4x32x256x128.ShapeCasts S4x32x32768
  shapeCasts_S4x32x1_S1x4x32 : S4x32x1.ShapeCasts S1x4x32
  shapeCasts_S4x1x1x1x1_S1x4x1 : S4x1x1x1x1.ShapeCasts S1x4x1
  shapeCasts_S_S1x1 : S_.ShapeCasts S1x1
  inb_S1x4x32_S1x4x32_0_0_0 : ∀ a, (![0, 0, 0] : Fin 3 → Nat) a + S1x4x32.size a ≤ S1x4x32.size a
  h_S1x4x32 : 0 < S1x4x32.numel
  shapeCasts_S1x4x32_S4x32 : S1x4x32.ShapeCasts S4x32
  iota_S4x32x32_d2_w32 : S4x32x32.Iotas .tc 32 [2]
  shapeCasts_S4x32_S4x32x1 : S4x32.ShapeCasts S4x32x1
  broadcasts_S4x32x1_S4x32x32 : S4x32x1.Broadcasts S4x32x32
  natLt_1_32 : 1 < 32
  inb_S1x4x1_S1x4x1_0_0_0 : ∀ a, (![0, 0, 0] : Fin 3 → Nat) a + S1x4x1.size a ≤ S1x4x1.size a
  h_S1x4x1 : 0 < S1x4x1.numel
  shapeCasts_S1x4x1_S4x1 : S1x4x1.ShapeCasts S4x1
  shapeCasts_S4x1_S4x1x1 : S4x1.ShapeCasts S4x1x1
  broadcasts_S4x1x1_S4x32x32 : S4x1x1.Broadcasts S4x32x32
  reduces_S4x32x32_S32x32 : S4x32x32.Reduces [0] S32x32
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  inb_S1x32x4096_S1x32x4096_0_0_0 : ∀ a, (![0, 0, 0] : Fin 3 → Nat) a + S1x32x4096.size a ≤ S1x32x4096.size a
  h_S1x32x4096 : 0 < S1x32x4096.numel
  shapeCasts_S1x32x4096_S32x4096 : S1x32x4096.ShapeCasts S32x4096
  shapeCasts_S32x4096_S1x32x4096 : S32x4096.ShapeCasts S1x32x4096
  shapeCasts_S4x32x32768_S4x32x256x128 : S4x32x32768.ShapeCasts S4x32x256x128
  dot_S32x32_S32x32_S32x32_1_0_0_1_n_n_wf : DotDims.WF S32x32 S32x32 S32x32 [1] [0] [0] [1] [] []
  dot_S32x32_S32x4096_S32x4096_1_0_0_1_n_n_wf : DotDims.WF S32x32 S32x4096 S32x4096 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1x4x32.size a ≤ S1x4x32.size a
  hwx0_0 : ∀ i : grid0.Coords, EltTy.bits .i32 = 32 ∨ (Rect.block (s := S1x4x32) S1x4x32.size (cc0_transform_0 i) (hinb0_0 i)).WholeWords (EltTy.packing .i32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x4x1.size a ≤ S1x4x1.size a
  hwx0_1 : ∀ i : grid0.Coords, EltTy.bits .f32 = 32 ∨ (Rect.block (s := S1x4x1) S1x4x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x32x4096.size a ≤ S4x32x32768.size a
  hwx0_3 : ∀ i : grid0.Coords, EltTy.bits .f32 = 32 ∨ (Rect.block (s := S4x32x32768) S1x32x4096.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x32x4096.size a ≤ S4x32x32768.size a
  hwx0_4 : ∀ i : grid0.Coords, EltTy.bits .f32 = 32 ∨ (Rect.block (s := S4x32x32768) S1x32x4096.size (cc0_transform_4 i) (hinb0_4 i)).WholeWords (EltTy.packing .f32)

variable [Facts₀]

def dot_S32x32_S32x32_S32x32_1_0_0_1_n_n : DotDims S32x32 S32x32 S32x32 where
  lhsContracting := [1]
  rhsContracting := [0]
  lhsNonContracting := [0]
  rhsNonContracting := [1]
  lhsBatch := []
  rhsBatch := []
  wf := dot_S32x32_S32x32_S32x32_1_0_0_1_n_n_wf
def dot_S32x32_S32x4096_S32x4096_1_0_0_1_n_n : DotDims S32x32 S32x4096 S32x4096 where
  lhsContracting := [1]
  rhsContracting := [0]
  lhsNonContracting := [0]
  rhsNonContracting := [1]
  lhsBatch := []
  rhsBatch := []
  wf := dot_S32x32_S32x4096_S32x4096_1_0_0_1_n_n_wf

abbrev win0_0 : Pipeline.Window sig grid0 :=
  Pipeline.Window.ofSpec (Memref.whole main_v1) S1x4x32.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1x4x1.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x32x4096.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1x32x4096.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4x32x256x128 : Shape := ⟨4, ![4, 32, 256, 128]⟩
abbrev S4x32x1 : Shape := ⟨3, ![4, 32, 1]⟩
abbrev S4x1x1x1x1 : Shape := ⟨5, ![4, 1, 1, 1, 1]⟩
abbrev S_ : Shape := ⟨0, ![]⟩
abbrev S4x32 : Shape := ⟨2, ![4, 32]⟩
abbrev S32x256x128x4 : Shape := ⟨4, ![32, 256, 128, 4]⟩
abbrev S1 : Shape := ⟨1, ![1]⟩
abbrev S1x1x1 : Shape := ⟨3, ![1, 1, 1]⟩
abbrev S4x32x256x128x4 : Shape := ⟨5, ![4, 32, 256, 128, 4]⟩

abbrev nBuf : Space → Nat
  | .hbm => 175
  | .vmem => 0
  | .smem => 0
  | _ => 0

abbrev hbmTy0_0 (i : Nat) : BufTy := match i % 128 with
  | 0 => ⟨S4x32x256x128, .f32⟩
  | 1 => ⟨S4x32x1, .i32⟩
  | 2 => ⟨S4x1x1x1x1, .f32⟩
  | 3 => ⟨S_, .f32⟩
  | 4 => ⟨S4x32, .i32⟩
  | 5 => ⟨S32x256x128x4, .f32⟩
  | 6 => ⟨S_, .f32⟩
  | 7 => ⟨S32x256x128x4, .f32⟩
  | 8 => ⟨S32x256x128x4, .f32⟩
  | 9 => ⟨S_, .i32⟩
  | 10 => ⟨S4x32, .i32⟩
  | 11 => ⟨S4x32, .i1⟩
  | 12 => ⟨S_, .i32⟩
  | 13 => ⟨S4x32, .i32⟩
  | 14 => ⟨S4x32, .i32⟩
  | 15 => ⟨S4x32, .i32⟩
  | 16 => ⟨S4x32x1, .i32⟩
  | 17 => ⟨S1, .i32⟩
  | 18 => ⟨S_, .i32⟩
  | 19 => ⟨S4x32x1, .i32⟩
  | 20 => ⟨S4x32x1, .i1⟩
  | 21 => ⟨S1x1x1, .i32⟩
  | 22 => ⟨S4x32x1, .i32⟩
  | 23 => ⟨S4x32x1, .i1⟩
  | 24 => ⟨S4x32x1, .i1⟩
  | 25 => ⟨S_, .i1⟩
  | 26 => ⟨S4x32, .i1⟩
  | 27 => ⟨S4x32x256x128x4, .f32⟩
  | 28 => ⟨S4x32x256x128x4, .i1⟩
  | 29 => ⟨S_, .f32⟩
  | 30 => ⟨S4x32x256x128x4, .f32⟩
  | 31 => ⟨S4x32x256x128x4, .f32⟩
  | 32 => ⟨S4x32x256x128x4, .f32⟩
  | 33 => ⟨S4x32x256x128x4, .f32⟩
  | 34 => ⟨S_, .f32⟩
  | 35 => ⟨S32x256x128x4, .f32⟩
  | 36 => ⟨S4x32x256x128, .f32⟩
  | 37 => ⟨S4x32x256x128, .f32⟩
  | 38 => ⟨S4x32x256x128, .f32⟩
  | 39 => ⟨S32x256x128x4, .f32⟩
  | 40 => ⟨S_, .f32⟩
  | 41 => ⟨S32x256x128x4, .f32⟩
  | 42 => ⟨S32x256x128x4, .f32⟩
  | 43 => ⟨S_, .i32⟩
  | 44 => ⟨S4x32, .i32⟩
  | 45 => ⟨S4x32, .i1⟩
  | 46 => ⟨S_, .i32⟩
  | 47 => ⟨S4x32, .i32⟩
  | 48 => ⟨S4x32, .i32⟩
  | 49 => ⟨S4x32, .i32⟩
  | 50 => ⟨S4x32x1, .i32⟩
  | 51 => ⟨S1, .i32⟩
  | 52 => ⟨S_, .i32⟩
  | 53 => ⟨S4x32x1, .i32⟩
  | 54 => ⟨S4x32x1, .i1⟩
  | 55 => ⟨S1x1x1, .i32⟩
  | 56 => ⟨S4x32x1, .i32⟩
  | 57 => ⟨S4x32x1, .i1⟩
  | 58 => ⟨S4x32x1, .i1⟩
  | 59 => ⟨S_, .i1⟩
  | 60 => ⟨S4x32, .i1⟩
  | 61 => ⟨S4x32x256x128x4, .f32⟩
  | 62 => ⟨S4x32x256x128x4, .i1⟩
  | 63 => ⟨S_, .f32⟩
  | 64 => ⟨S4x32x256x128x4, .f32⟩
  | 65 => ⟨S4x32x256x128x4, .f32⟩
  | 66 => ⟨S4x32x256x128x4, .f32⟩
  | 67 => ⟨S4x32x256x128x4, .f32⟩
  | 68 => ⟨S_, .f32⟩
  | 69 => ⟨S32x256x128x4, .f32⟩
  | 70 => ⟨S4x32x256x128, .f32⟩
  | 71 => ⟨S4x32x256x128, .f32⟩
  | 72 => ⟨S4x32x256x128, .f32⟩
  | 73 => ⟨S32x256x128x4, .f32⟩
  | 74 => ⟨S_, .f32⟩
  | 75 => ⟨S32x256x128x4, .f32⟩
  | 76 => ⟨S32x256x128x4, .f32⟩
  | 77 => ⟨S_, .i32⟩
  | 78 => ⟨S4x32, .i32⟩
  | 79 => ⟨S4x32, .i1⟩
  | 80 => ⟨S_, .i32⟩
  | 81 => ⟨S4x32, .i32⟩
  | 82 => ⟨S4x32, .i32⟩
  | 83 => ⟨S4x32, .i32⟩
  | 84 => ⟨S4x32x1, .i32⟩
  | 85 => ⟨S1, .i32⟩
  | 86 => ⟨S_, .i32⟩
  | 87 => ⟨S4x32x1, .i32⟩
  | 88 => ⟨S4x32x1, .i1⟩
  | 89 => ⟨S1x1x1, .i32⟩
  | 90 => ⟨S4x32x1, .i32⟩
  | 91 => ⟨S4x32x1, .i1⟩
  | 92 => ⟨S4x32x1, .i1⟩
  | 93 => ⟨S_, .i1⟩
  | 94 => ⟨S4x32, .i1⟩
  | 95 => ⟨S4x32x256x128x4, .f32⟩
  | 96 => ⟨S4x32x256x128x4, .i1⟩
  | 97 => ⟨S_, .f32⟩
  | 98 => ⟨S4x32x256x128x4, .f32⟩
  | 99 => ⟨S4x32x256x128x4, .f32⟩
  | 100 => ⟨S4x32x256x128x4, .f32⟩
  | 101 => ⟨S4x32x256x128x4, .f32⟩
  | 102 => ⟨S_, .f32⟩
  | 103 => ⟨S32x256x128x4, .f32⟩
  | 104 => ⟨S4x32x256x128, .f32⟩
  | 105 => ⟨S4x32x256x128, .f32⟩
  | 106 => ⟨S4x32x256x128, .f32⟩
  | 107 => ⟨S32x256x128x4, .f32⟩
  | 108 => ⟨S_, .f32⟩
  | 109 => ⟨S32x256x128x4, .f32⟩
  | 110 => ⟨S32x256x128x4, .f32⟩
  | 111 => ⟨S_, .i32⟩
  | 112 => ⟨S4x32, .i32⟩
  | 113 => ⟨S4x32, .i1⟩
  | 114 => ⟨S_, .i32⟩
  | 115 => ⟨S4x32, .i32⟩
  | 116 => ⟨S4x32, .i32⟩
  | 117 => ⟨S4x32, .i32⟩
  | 118 => ⟨S4x32x1, .i32⟩
  | 119 => ⟨S1, .i32⟩
  | 120 => ⟨S_, .i32⟩
  | 121 => ⟨S4x32x1, .i32⟩
  | 122 => ⟨S4x32x1, .i1⟩
  | 123 => ⟨S1x1x1, .i32⟩
  | 124 => ⟨S4x32x1, .i32⟩
  | 125 => ⟨S4x32x1, .i1⟩
  | 126 => ⟨S4x32x1, .i1⟩
  | 127 => ⟨S_, .i1⟩
  | _ => ⟨S4x32x256x128, .f32⟩

abbrev hbmTy0_1 (i : Nat) : BufTy := match i % 128 with
  | 0 => ⟨S4x32, .i1⟩
  | 1 => ⟨S4x32x256x128x4, .f32⟩
  | 2 => ⟨S4x32x256x128x4, .i1⟩
  | 3 => ⟨S_, .f32⟩
  | 4 => ⟨S4x32x256x128x4, .f32⟩
  | 5 => ⟨S4x32x256x128x4, .f32⟩
  | 6 => ⟨S4x32x256x128x4, .f32⟩
  | 7 => ⟨S4x32x256x128x4, .f32⟩
  | 8 => ⟨S_, .f32⟩
  | 9 => ⟨S32x256x128x4, .f32⟩
  | 10 => ⟨S4x32x256x128, .f32⟩
  | 11 => ⟨S4x32x256x128, .f32⟩
  | 12 => ⟨S4x32x256x128, .f32⟩
  | 13 => ⟨S32x256x128x4, .f32⟩
  | 14 => ⟨S_, .f32⟩
  | 15 => ⟨S32x256x128x4, .f32⟩
  | 16 => ⟨S32x256x128x4, .f32⟩
  | 17 => ⟨S_, .i32⟩
  | 18 => ⟨S4x32, .i32⟩
  | 19 => ⟨S4x32, .i1⟩
  | 20 => ⟨S_, .i32⟩
  | 21 => ⟨S4x32, .i32⟩
  | 22 => ⟨S4x32, .i32⟩
  | 23 => ⟨S4x32, .i32⟩
  | 24 => ⟨S4x32x1, .i32⟩
  | 25 => ⟨S1, .i32⟩
  | 26 => ⟨S_, .i32⟩
  | 27 => ⟨S4x32x1, .i32⟩
  | 28 => ⟨S4x32x1, .i1⟩
  | 29 => ⟨S1x1x1, .i32⟩
  | 30 => ⟨S4x32x1, .i32⟩
  | 31 => ⟨S4x32x1, .i1⟩
  | 32 => ⟨S4x32x1, .i1⟩
  | 33 => ⟨S_, .i1⟩
  | 34 => ⟨S4x32, .i1⟩
  | 35 => ⟨S4x32x256x128x4, .f32⟩
  | 36 => ⟨S4x32x256x128x4, .i1⟩
  | 37 => ⟨S_, .f32⟩
  | 38 => ⟨S4x32x256x128x4, .f32⟩
  | 39 => ⟨S4x32x256x128x4, .f32⟩
  | 40 => ⟨S4x32x256x128x4, .f32⟩
  | 41 => ⟨S4x32x256x128x4, .f32⟩
  | 42 => ⟨S_, .f32⟩
  | 43 => ⟨S32x256x128x4, .f32⟩
  | 44 => ⟨S4x32x256x128, .f32⟩
  | 45 => ⟨S4x32x256x128, .f32⟩
  | 46 => ⟨S4x32x256x128, .f32⟩
  | _ => ⟨S4x32x256x128, .f32⟩

abbrev hbmTy (i : Nat) : BufTy := match i / 128 with
  | 0 => hbmTy0_0 i
  | 1 => hbmTy0_1 i
  | _ => ⟨S4x32x256x128, .f32⟩

abbrev bufTy : (tb : Table) → Fin (tcTables nBuf tb) → BufTy
  | .hbm, ⟨i, _⟩ => hbmTy i
  | _, _ => ⟨S4x32x256x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_call0_c : Ref sig .tc := ⟨.hbm, 9, rfl⟩
abbrev main_call0_v0 : Ref sig .tc := ⟨.hbm, 10, rfl⟩
abbrev main_call0_v1 : Ref sig .tc := ⟨.hbm, 11, rfl⟩
abbrev main_call0_c_0 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_c_1 : Ref sig .tc := ⟨.hbm, 17, rfl⟩
abbrev main_call0_c_2 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_c_3 : Ref sig .tc := ⟨.hbm, 25, rfl⟩
abbrev main_call0_v12 : Ref sig .tc := ⟨.hbm, 26, rfl⟩
abbrev main_call0_v13 : Ref sig .tc := ⟨.hbm, 27, rfl⟩
abbrev main_call0_v14 : Ref sig .tc := ⟨.hbm, 28, rfl⟩
abbrev main_call0_cst : Ref sig .tc := ⟨.hbm, 29, rfl⟩
abbrev main_call0_v15 : Ref sig .tc := ⟨.hbm, 30, rfl⟩
abbrev main_v4 : Ref sig .tc := ⟨.hbm, 31, rfl⟩
abbrev main_v5 : Ref sig .tc := ⟨.hbm, 32, rfl⟩
abbrev main_v6 : Ref sig .tc := ⟨.hbm, 33, rfl⟩
abbrev main_cst_0 : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩
abbrev main_cst_1 : Ref sig .tc := ⟨.hbm, 40, rfl⟩
abbrev main_v12 : Ref sig .tc := ⟨.hbm, 41, rfl⟩
abbrev main_v13 : Ref sig .tc := ⟨.hbm, 42, rfl⟩
abbrev main_call1_c : Ref sig .tc := ⟨.hbm, 43, rfl⟩
abbrev main_call1_v0 : Ref sig .tc := ⟨.hbm, 44, rfl⟩
abbrev main_call1_v1 : Ref sig .tc := ⟨.hbm, 45, rfl⟩
abbrev main_call1_c_0 : Ref sig .tc := ⟨.hbm, 46, rfl⟩
abbrev main_call1_v2 : Ref sig .tc := ⟨.hbm, 47, rfl⟩
abbrev main_call1_v3 : Ref sig .tc := ⟨.hbm, 48, rfl⟩
abbrev main_call1_v4 : Ref sig .tc := ⟨.hbm, 49, rfl⟩
abbrev main_call1_v5 : Ref sig .tc := ⟨.hbm, 50, rfl⟩
abbrev main_call1_c_1 : Ref sig .tc := ⟨.hbm, 51, rfl⟩
abbrev main_call1_c_2 : Ref sig .tc := ⟨.hbm, 52, rfl⟩
abbrev main_call1_v6 : Ref sig .tc := ⟨.hbm, 53, rfl⟩
abbrev main_call1_v7 : Ref sig .tc := ⟨.hbm, 54, rfl⟩
abbrev main_call1_v8 : Ref sig .tc := ⟨.hbm, 55, rfl⟩
abbrev main_call1_v9 : Ref sig .tc := ⟨.hbm, 56, rfl⟩
abbrev main_call1_v10 : Ref sig .tc := ⟨.hbm, 57, rfl⟩
abbrev main_call1_v11 : Ref sig .tc := ⟨.hbm, 58, rfl⟩
abbrev main_call1_c_3 : Ref sig .tc := ⟨.hbm, 59, rfl⟩
abbrev main_call1_v12 : Ref sig .tc := ⟨.hbm, 60, rfl⟩
abbrev main_call1_v13 : Ref sig .tc := ⟨.hbm, 61, rfl⟩
abbrev main_call1_v14 : Ref sig .tc := ⟨.hbm, 62, rfl⟩
abbrev main_call1_cst : Ref sig .tc := ⟨.hbm, 63, rfl⟩
abbrev main_call1_v15 : Ref sig .tc := ⟨.hbm, 64, rfl⟩
abbrev main_v14 : Ref sig .tc := ⟨.hbm, 65, rfl⟩
abbrev main_v15 : Ref sig .tc := ⟨.hbm, 66, rfl⟩
abbrev main_v16 : Ref sig .tc := ⟨.hbm, 67, rfl⟩
abbrev main_cst_2 : Ref sig .tc := ⟨.hbm, 68, rfl⟩
abbrev main_v17 : Ref sig .tc := ⟨.hbm, 69, rfl⟩
abbrev main_v18 : Ref sig .tc := ⟨.hbm, 70, rfl⟩
abbrev main_v19 : Ref sig .tc := ⟨.hbm, 71, rfl⟩
abbrev main_v20 : Ref sig .tc := ⟨.hbm, 72, rfl⟩
abbrev main_v21 : Ref sig .tc := ⟨.hbm, 73, rfl⟩
abbrev main_cst_3 : Ref sig .tc := ⟨.hbm, 74, rfl⟩
abbrev main_v22 : Ref sig .tc := ⟨.hbm, 75, rfl⟩
abbrev main_v23 : Ref sig .tc := ⟨.hbm, 76, rfl⟩
abbrev main_call2_c : Ref sig .tc := ⟨.hbm, 77, rfl⟩
abbrev main_call2_v0 : Ref sig .tc := ⟨.hbm, 78, rfl⟩
abbrev main_call2_v1 : Ref sig .tc := ⟨.hbm, 79, rfl⟩
abbrev main_call2_c_0 : Ref sig .tc := ⟨.hbm, 80, rfl⟩
abbrev main_call2_v2 : Ref sig .tc := ⟨.hbm, 81, rfl⟩
abbrev main_call2_v3 : Ref sig .tc := ⟨.hbm, 82, rfl⟩
abbrev main_call2_v4 : Ref sig .tc := ⟨.hbm, 83, rfl⟩
abbrev main_call2_v5 : Ref sig .tc := ⟨.hbm, 84, rfl⟩
abbrev main_call2_c_1 : Ref sig .tc := ⟨.hbm, 85, rfl⟩
abbrev main_call2_c_2 : Ref sig .tc := ⟨.hbm, 86, rfl⟩
abbrev main_call2_v6 : Ref sig .tc := ⟨.hbm, 87, rfl⟩
abbrev main_call2_v7 : Ref sig .tc := ⟨.hbm, 88, rfl⟩
abbrev main_call2_v8 : Ref sig .tc := ⟨.hbm, 89, rfl⟩
abbrev main_call2_v9 : Ref sig .tc := ⟨.hbm, 90, rfl⟩
abbrev main_call2_v10 : Ref sig .tc := ⟨.hbm, 91, rfl⟩
abbrev main_call2_v11 : Ref sig .tc := ⟨.hbm, 92, rfl⟩
abbrev main_call2_c_3 : Ref sig .tc := ⟨.hbm, 93, rfl⟩
abbrev main_call2_v12 : Ref sig .tc := ⟨.hbm, 94, rfl⟩
abbrev main_call2_v13 : Ref sig .tc := ⟨.hbm, 95, rfl⟩
abbrev main_call2_v14 : Ref sig .tc := ⟨.hbm, 96, rfl⟩
abbrev main_call2_cst : Ref sig .tc := ⟨.hbm, 97, rfl⟩
abbrev main_call2_v15 : Ref sig .tc := ⟨.hbm, 98, rfl⟩
abbrev main_v24 : Ref sig .tc := ⟨.hbm, 99, rfl⟩
abbrev main_v25 : Ref sig .tc := ⟨.hbm, 100, rfl⟩
abbrev main_v26 : Ref sig .tc := ⟨.hbm, 101, rfl⟩
abbrev main_cst_4 : Ref sig .tc := ⟨.hbm, 102, rfl⟩
abbrev main_v27 : Ref sig .tc := ⟨.hbm, 103, rfl⟩
abbrev main_v28 : Ref sig .tc := ⟨.hbm, 104, rfl⟩
abbrev main_v29 : Ref sig .tc := ⟨.hbm, 105, rfl⟩
abbrev main_v30 : Ref sig .tc := ⟨.hbm, 106, rfl⟩
abbrev main_v31 : Ref sig .tc := ⟨.hbm, 107, rfl⟩
abbrev main_cst_5 : Ref sig .tc := ⟨.hbm, 108, rfl⟩
abbrev main_v32 : Ref sig .tc := ⟨.hbm, 109, rfl⟩
abbrev main_v33 : Ref sig .tc := ⟨.hbm, 110, rfl⟩
abbrev main_call3_c : Ref sig .tc := ⟨.hbm, 111, rfl⟩
abbrev main_call3_v0 : Ref sig .tc := ⟨.hbm, 112, rfl⟩
abbrev main_call3_v1 : Ref sig .tc := ⟨.hbm, 113, rfl⟩
abbrev main_call3_c_0 : Ref sig .tc := ⟨.hbm, 114, rfl⟩
abbrev main_call3_v2 : Ref sig .tc := ⟨.hbm, 115, rfl⟩
abbrev main_call3_v3 : Ref sig .tc := ⟨.hbm, 116, rfl⟩
abbrev main_call3_v4 : Ref sig .tc := ⟨.hbm, 117, rfl⟩
abbrev main_call3_v5 : Ref sig .tc := ⟨.hbm, 118, rfl⟩
abbrev main_call3_c_1 : Ref sig .tc := ⟨.hbm, 119, rfl⟩
abbrev main_call3_c_2 : Ref sig .tc := ⟨.hbm, 120, rfl⟩
abbrev main_call3_v6 : Ref sig .tc := ⟨.hbm, 121, rfl⟩
abbrev main_call3_v7 : Ref sig .tc := ⟨.hbm, 122, rfl⟩
abbrev main_call3_v8 : Ref sig .tc := ⟨.hbm, 123, rfl⟩
abbrev main_call3_v9 : Ref sig .tc := ⟨.hbm, 124, rfl⟩
abbrev main_call3_v10 : Ref sig .tc := ⟨.hbm, 125, rfl⟩
abbrev main_call3_v11 : Ref sig .tc := ⟨.hbm, 126, rfl⟩
abbrev main_call3_c_3 : Ref sig .tc := ⟨.hbm, 127, rfl⟩
abbrev main_call3_v12 : Ref sig .tc := ⟨.hbm, 128, rfl⟩
abbrev main_call3_v13 : Ref sig .tc := ⟨.hbm, 129, rfl⟩
abbrev main_call3_v14 : Ref sig .tc := ⟨.hbm, 130, rfl⟩
abbrev main_call3_cst : Ref sig .tc := ⟨.hbm, 131, rfl⟩
abbrev main_call3_v15 : Ref sig .tc := ⟨.hbm, 132, rfl⟩
abbrev main_v34 : Ref sig .tc := ⟨.hbm, 133, rfl⟩
abbrev main_v35 : Ref sig .tc := ⟨.hbm, 134, rfl⟩
abbrev main_v36 : Ref sig .tc := ⟨.hbm, 135, rfl⟩
abbrev main_cst_6 : Ref sig .tc := ⟨.hbm, 136, rfl⟩
abbrev main_v37 : Ref sig .tc := ⟨.hbm, 137, rfl⟩
abbrev main_v38 : Ref sig .tc := ⟨.hbm, 138, rfl⟩
abbrev main_v39 : Ref sig .tc := ⟨.hbm, 139, rfl⟩
abbrev main_v40 : Ref sig .tc := ⟨.hbm, 140, rfl⟩
abbrev main_v41 : Ref sig .tc := ⟨.hbm, 141, rfl⟩
abbrev main_cst_7 : Ref sig .tc := ⟨.hbm, 142, rfl⟩
abbrev main_v42 : Ref sig .tc := ⟨.hbm, 143, rfl⟩
abbrev main_v43 : Ref sig .tc := ⟨.hbm, 144, rfl⟩
abbrev main_call4_c : Ref sig .tc := ⟨.hbm, 145, rfl⟩
abbrev main_call4_v0 : Ref sig .tc := ⟨.hbm, 146, rfl⟩
abbrev main_call4_v1 : Ref sig .tc := ⟨.hbm, 147, rfl⟩
abbrev main_call4_c_0 : Ref sig .tc := ⟨.hbm, 148, rfl⟩
abbrev main_call4_v2 : Ref sig .tc := ⟨.hbm, 149, rfl⟩
abbrev main_call4_v3 : Ref sig .tc := ⟨.hbm, 150, rfl⟩
abbrev main_call4_v4 : Ref sig .tc := ⟨.hbm, 151, rfl⟩
abbrev main_call4_v5 : Ref sig .tc := ⟨.hbm, 152, rfl⟩
abbrev main_call4_c_1 : Ref sig .tc := ⟨.hbm, 153, rfl⟩
abbrev main_call4_c_2 : Ref sig .tc := ⟨.hbm, 154, rfl⟩
abbrev main_call4_v6 : Ref sig .tc := ⟨.hbm, 155, rfl⟩
abbrev main_call4_v7 : Ref sig .tc := ⟨.hbm, 156, rfl⟩
abbrev main_call4_v8 : Ref sig .tc := ⟨.hbm, 157, rfl⟩
abbrev main_call4_v9 : Ref sig .tc := ⟨.hbm, 158, rfl⟩
abbrev main_call4_v10 : Ref sig .tc := ⟨.hbm, 159, rfl⟩
abbrev main_call4_v11 : Ref sig .tc := ⟨.hbm, 160, rfl⟩
abbrev main_call4_c_3 : Ref sig .tc := ⟨.hbm, 161, rfl⟩
abbrev main_call4_v12 : Ref sig .tc := ⟨.hbm, 162, rfl⟩
abbrev main_call4_v13 : Ref sig .tc := ⟨.hbm, 163, rfl⟩
abbrev main_call4_v14 : Ref sig .tc := ⟨.hbm, 164, rfl⟩
abbrev main_call4_cst : Ref sig .tc := ⟨.hbm, 165, rfl⟩
abbrev main_call4_v15 : Ref sig .tc := ⟨.hbm, 166, rfl⟩
abbrev main_v44 : Ref sig .tc := ⟨.hbm, 167, rfl⟩
abbrev main_v45 : Ref sig .tc := ⟨.hbm, 168, rfl⟩
abbrev main_v46 : Ref sig .tc := ⟨.hbm, 169, rfl⟩
abbrev main_cst_8 : Ref sig .tc := ⟨.hbm, 170, rfl⟩
abbrev main_v47 : Ref sig .tc := ⟨.hbm, 171, rfl⟩
abbrev main_v48 : Ref sig .tc := ⟨.hbm, 172, rfl⟩
abbrev main_v49 : Ref sig .tc := ⟨.hbm, 173, rfl⟩
abbrev main_v50 : Ref sig .tc := ⟨.hbm, 174, rfl⟩

abbrev nD : Nat := 1
abbrev τ : Topo := Topo.v7x

variable {F : FTy → Type} [FloatOps F]

class Facts₀ : Prop where
  shapeCasts_S4x32x1_S4x32 : S4x32x1.ShapeCasts S4x32
  transposes_S4x32x256x128_S32x256x128x4_1_2_3_0 : S4x32x256x128.Transposes [1, 2, 3, 0] S32x256x128x4
  bcast_S_S32x256x128x4 : S_.BroadcastsInDim S32x256x128x4 (![] : Fin 0 → Fin S32x256x128x4.rank)
  bcast_S_S4x32 : S_.BroadcastsInDim S4x32 (![] : Fin 0 → Fin S4x32.rank)
  bcast_S4x32_S4x32x1_0_1 : S4x32.BroadcastsInDim S4x32x1 (![0, 1] : Fin 2 → Fin S4x32x1.rank)
  bcast_S_S4x32x1 : S_.BroadcastsInDim S4x32x1 (![] : Fin 0 → Fin S4x32x1.rank)
  bcast_S1_S1x1x1_2 : S1.BroadcastsInDim S1x1x1 (![2] : Fin 1 → Fin S1x1x1.rank)
  bcast_S1x1x1_S4x32x1_0_1_2 : S1x1x1.BroadcastsInDim S4x32x1 (![0, 1, 2] : Fin 3 → Fin S4x32x1.rank)
  reducesTo_S4x32x1_S4x32_d2 : S4x32x1.ReducesTo [2] S4x32
  h_S_ : 0 < S_.numel
  bcast_S4x32_S4x32x256x128x4_0_1 : S4x32.BroadcastsInDim S4x32x256x128x4 (![0, 1] : Fin 2 → Fin S4x32x256x128x4.rank)
  bcast_S_S4x32x256x128x4 : S_.BroadcastsInDim S4x32x256x128x4 (![] : Fin 0 → Fin S4x32x256x128x4.rank)
  bcast_S4x1x1x1x1_S4x32x256x128x4_0_1_2_3_4 : S4x1x1x1x1.BroadcastsInDim S4x32x256x128x4 (![0, 1, 2, 3, 4] : Fin 5 → Fin S4x32x256x128x4.rank)
  reducesTo_S4x32x256x128x4_S32x256x128x4_d0 : S4x32x256x128x4.ReducesTo [0] S32x256x128x4
  transposes_S32x256x128x4_S4x32x256x128_3_0_1_2 : S32x256x128x4.Transposes [3, 0, 1, 2] S4x32x256x128
  bcast_S_S4x32x256x128 : S_.BroadcastsInDim S4x32x256x128 (![] : Fin 0 → Fin S4x32x256x128.rank)
  gather_S32x256x128x4_S4x32x1_S4x32x256x128x4_234_0_n_n_0_2_12561284_wf : GatherDims.WF S32x256x128x4 S4x32x1 S4x32x256x128x4 [2, 3, 4] [0] [] [0] [] 2 ![1, 256, 128, 4]

variable [Facts₀]

def gather_S32x256x128x4_S4x32x1_S4x32x256x128x4_234_0_n_n_0_2_12561284 : GatherDims S32x256x128x4 S4x32x1 S4x32x256x128x4 where
  offsetDims := [2, 3, 4]
  collapsedSliceDims := [0]
  operandBatchingDims := []
  startIndicesBatchingDims := []
  startIndexMap := [0]
  indexVectorDim := 2
  sliceSizes := ![1, 256, 128, 4]
  wf := gather_S32x256x128x4_S4x32x1_S4x32x256x128x4_234_0_n_n_0_2_12561284_wf

class Facts : Prop extends Facts₀ where

variable [Facts]
-- ==== Proof.Spec.lean ====
/-
  Mixing the rows of a [4, 32, 256, 128] array along its second axis by four index-selected taps.

  An index array holds, for each of four taps k and each of the 32 rows h, the word of a source row; a weight array holds one
  weight per tap; a scalar holds a common factor lam. One ROUND replaces every row h of every [32]-column (fixed batch b and
  trailing coordinates p, q) by  lam · ∑ k, y(source row of tap k at h) · weight k.  The round is linear in the column: it is
  the product with the 32 × 32 matrix  mix(h, h') = (∑ k, [h' is tap k's source row at h] · weight k) · lam.  Five rounds are
  therefore the product with the fifth power of that matrix, which is how `kerOut` is written: the matrix, four matrix
  products, one product with the column. `refOut` is the five rounds one after the other.
-/
import Idealize.ShloMosaic.Lib.ValueIdx

noncomputable section

open scoped BigOperators

namespace Cert.TapMix

open Idealize.ShloMosaic Idealize.ShloMosaic.ValueIdx

/-- The data array, [4, 32, 256, 128]. -/
abbrev Arr : Type := (⟨4, ![4, 32, 256, 128]⟩ : Shape).Idx → EReal
/-- The index array, [4, 32, 1], of 32-bit words. -/
abbrev IdxArr : Type := (⟨3, ![4, 32, 1]⟩ : Shape).Idx → BitVec 32
/-- The weight array, [4, 1, 1, 1, 1]. -/
abbrev WArr : Type := (⟨5, ![4, 1, 1, 1, 1]⟩ : Shape).Idx → EReal
/-- The scalar factor, rank 0. -/
abbrev Scal : Type := (⟨0, ![]⟩ : Shape).Idx → EReal

/-- The word the index array holds for tap `k` at row `h`. -/
def tapWord (idx : IdxArr) (k : Fin 4) (h : Fin 32) : BitVec 32 := idx (ix3 k h (0 : Fin 1))

/-- Tap `k`'s source row at row `h` (the word's value; total by reduction mod 32, which changes nothing in range). -/
def tapRow (idx : IdxArr) (k : Fin 4) (h : Fin 32) : Fin 32 :=
  ⟨(tapWord idx k h).toNat % 32, Nat.mod_lt _ (by norm_num)⟩

/-- Tap `k`'s weight. -/
def tapW (w : WArr) (k : Fin 4) : EReal := w (ix5 k (0 : Fin 1) (0 : Fin 1) (0 : Fin 1) (0 : Fin 1))

/-- Every index word, read as a signed integer, names a row: it lies in [0, 32). -/
def InRange (idx : IdxArr) : Prop := ∀ (k : Fin 4) (h : Fin 32), 0 ≤ (tapWord idx k h).toInt ∧ (tapWord idx k h).toInt < 32

/-- The coordinates of an index of the data array, typed by the extents. -/
abbrev cB (i : (⟨4, ![4, 32, 256, 128]⟩ : Shape).Idx) : Fin 4 := ⟨(i 0).val, (i 0).isLt⟩
abbrev cH (i : (⟨4, ![4, 32, 256, 128]⟩ : Shape).Idx) : Fin 32 := ⟨(i 1).val, (i 1).isLt⟩
abbrev cP (i : (⟨4, ![4, 32, 256, 128]⟩ : Shape).Idx) : Fin 256 := ⟨(i 2).val, (i 2).isLt⟩
abbrev cQ (i : (⟨4, ![4, 32, 256, 128]⟩ : Shape).Idx) : Fin 128 := ⟨(i 3).val, (i 3).isLt⟩

/-! ## The product with the fifth power of the mixing matrix -/

/-- 1 where column `h'`, as a 32-bit word, IS the word of tap `k` at row `h`; 0 elsewhere. -/
def hot (idx : IdxArr) (k : Fin 4) (h h' : Fin 32) : EReal :=
  if BitVec.ofNat 32 h'.val = tapWord idx k h then 1 else 0

/-- The mixing matrix: entry (h, h') is the summed weight of the taps that read row h' for row h, times the factor. -/
def mix (idx : IdxArr) (w : WArr) (lam : Scal) (h h' : Fin 32) : EReal :=
  (∑ k : Fin 4, hot idx k h h' * tapW w k) * lam ix0

/-- The product of two 32 × 32 matrices. -/
def mmul (a b : Fin 32 → Fin 32 → EReal) (h h' : Fin 32) : EReal := ∑ j : Fin 32, a h j * b j h'

/-- The fifth power, associated to the left: ((((M·M)·M)·M)·M). -/
def mix5 (idx : IdxArr) (w : WArr) (lam : Scal) : Fin 32 → Fin 32 → EReal :=
  mmul (mmul (mmul (mmul (mix idx w lam) (mix idx w lam)) (mix idx w lam)) (mix idx w lam)) (mix idx w lam)

/-- Every [32]-column of the data multiplied by the fifth power of the mixing matrix. -/
def kerOut (x : Arr) (idx : IdxArr) (w : WArr) (lam : Scal) : Arr :=
  fun i => ∑ h' : Fin 32, mix5 idx w lam (cH i) h' * x (ix4 (cB i) h' (cP i) (cQ i))

theorem kerOut_apply (x : Arr) (idx : IdxArr) (w : WArr) (lam : Scal) (b : Fin 4) (h : Fin 32) (p : Fin 256) (q : Fin 128) :
    kerOut x idx w lam (ix4 b h p q) = ∑ h' : Fin 32, mix5 idx w lam h h' * x (ix4 b h' p q) := rfl

/-! ## Five rounds -/

/-- One round: row h becomes the factor times the weighted sum of the taps' source rows. -/
def round (idx : IdxArr) (w : WArr) (lam : Scal) (y : Arr) : Arr :=
  fun i => lam ix0 * ∑ k : Fin 4, y (ix4 (cB i) (tapRow idx k (cH i)) (cP i) (cQ i)) * tapW w k

theorem round_apply (idx : IdxArr) (w : WArr) (lam : Scal) (y : Arr) (b : Fin 4) (h : Fin 32) (p : Fin 256) (q : Fin 128) :
    round idx w lam y (ix4 b h p q) = lam ix0 * ∑ k : Fin 4, y (ix4 b (tapRow idx k h) p q) * tapW w k := rfl

/-- Five rounds, one after the other. -/
def refOut (x : Arr) (idx : IdxArr) (w : WArr) (lam : Scal) : Arr :=
  round idx w lam (round idx w lam (round idx w lam (round idx w lam (round idx w lam x))))

end Cert.TapMix

end
-- ==== Proof.LibDense.lean ====
/-
  Dense layers on the extended reals, over rank-2 arrays of any extents.

  `mm A B` is the matrix product, `(A B)(p, q) = ∑ k, A(p, k) · B(k, q)`; `act A S b` is the rectified affine layer
  `max (A S + b, 0)` with the bias `b` a one-row array added to every row; `row b` is a vector laid out as that one row.
  A dot product whose dimension numbers contract the left operand's columns with the right operand's rows, with no batch
  axis, read at an output index `(p, q)` sums over the contraction index; that index set is in bijection with the
  contracted extent, so the sum is `mm` at `(p, q)` — for the vector unit's matmul into a zero accumulator and for the
  host's dot product alike. The remaining lemmas read the layout operations that carry a bias (a vector cast or broadcast
  to one row, a row broadcast to all rows, a scalar zero broadcast everywhere) at an index.
-/
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.Dense

open Idealize.ShloMosaic Idealize.ShloMosaic.ValueIdx

/-- A rank-2 array of extended reals. -/
abbrev Mat (a b : ℕ) : Type := (⟨2, ![a, b]⟩ : Shape).Idx → EReal
/-- A rank-1 array of extended reals. -/
abbrev Row (a : ℕ) : Type := (⟨1, ![a]⟩ : Shape).Idx → EReal

/-- The first coordinate of a rank-2 index, typed by the extent itself. -/
abbrev c0 {a b : ℕ} (i : (⟨2, ![a, b]⟩ : Shape).Idx) : Fin a := ⟨(i 0).val, idx2_lt0 i⟩
/-- The second coordinate of a rank-2 index, typed by the extent itself. -/
abbrev c1 {a b : ℕ} (i : (⟨2, ![a, b]⟩ : Shape).Idx) : Fin b := ⟨(i 1).val, idx2_lt1 i⟩

/-- The matrix product on the extended reals. -/
def mm {M K N : ℕ} (A : Mat M K) (B : Mat K N) : Mat M N :=
  fun i => ∑ k : Fin K, A (ix2 (c0 i) k) * B (ix2 k (c1 i))

theorem mm_apply {M K N : ℕ} (A : Mat M K) (B : Mat K N) (p : Fin M) (q : Fin N) :
    mm A B (ix2 p q) = ∑ k : Fin K, A (ix2 p k) * B (ix2 k q) := rfl

/-- The rectified affine layer `max (A S + b, 0)`, the one-row bias `b` added to every row. -/
def act {M K N : ℕ} (A : Mat M K) (S : Mat K N) (b : Mat 1 N) : Mat M N :=
  fun i => max (mm A S i + b (ix2 (0 : Fin 1) (c1 i))) 0

theorem act_apply {M K N : ℕ} (A : Mat M K) (S : Mat K N) (b : Mat 1 N) (p : Fin M) (q : Fin N) :
    act A S b (ix2 p q) = max ((∑ k : Fin K, A (ix2 p k) * S (ix2 k q)) + b (ix2 (0 : Fin 1) q)) 0 := rfl

/-- A vector laid out as a one-row array. -/
def row {N : ℕ} (b : Row N) : Mat 1 N := fun i => b (ix1 (c1 i))

theorem row_apply {N : ℕ} (b : Row N) (u : Fin 1) (q : Fin N) : row b (ix2 u q) = b (ix1 q) := rfl

/-- A plain product's contraction sum at `(p, q)` is the sum over the contracted extent of `l(p, k) · r(k, q)`. -/
theorem plain_sum {M K N : ℕ} (D : DotDims ⟨2, ![M, K]⟩ ⟨2, ![K, N]⟩ ⟨2, ![M, N]⟩)
    (h1 : D.lhsContracting = [1]) (h2 : D.rhsContracting = [0]) (h3 : D.lhsNonContracting = [0])
    (h4 : D.rhsNonContracting = [1]) (h5 : D.lhsBatch = []) (h6 : D.rhsBatch = [])
    (l : Mat M K) (r : Mat K N) (p : Fin M) (q : Fin N) :
    ∑ k : D.contr.Idx, l (D.lhsIdx (ix2 p q) k) * r (D.rhsIdx (ix2 p q) k) = ∑ k : Fin K, l (ix2 p k) * r (ix2 k q) := by
  obtain ⟨lc, rc, ln, rn, lb, rb, wf⟩ := D
  dsimp only at h1 h2 h3 h4 h5 h6
  subst h1 h2 h3 h4 h5 h6
  generalize hD : (⟨[1], [0], [0], [1], [], [], wf⟩ : DotDims ⟨2, ![M, K]⟩ ⟨2, ![K, N]⟩ ⟨2, ![M, N]⟩) = D
  have hr : D.contr.rank = 1 := by subst hD; rfl
  have hs : D.contr.size ⟨0, by omega⟩ = K := by subst hD; rfl
  rw [← Equiv.sum_comp (contrEquiv1 D K hr hs).symm]
  refine Finset.sum_congr rfl fun k _ => ?_
  have hk := contrEquiv1_symm_val D K hr hs k
  have hlc : D.lhsContracting = [1] := by subst hD; rfl
  have hrc : D.rhsContracting = [0] := by subst hD; rfl
  have el : D.lhsIdx (ix2 p q) ((contrEquiv1 D K hr hs).symm k) = ix2 p k := funext fun a => Fin.ext (by
    match a with
    | ⟨0, _⟩ =>
      subst hD
      rfl
    | ⟨1, _⟩ => exact (D.lhsIdx_val_of_single hlc _ _).trans hk)
  have er : D.rhsIdx (ix2 p q) ((contrEquiv1 D K hr hs).symm k) = ix2 k q := funext fun a => Fin.ext (by
    match a with
    | ⟨0, _⟩ => exact (D.rhsIdx_val_of_single hrc _ _).trans hk
    | ⟨1, _⟩ =>
      subst hD
      rfl)
  rw [el, er]

/-- The host's plain dot product is the matrix product. -/
theorem hostDot_eq_mm {M K N : ℕ} {φ₁ φ₂ : FTy} (D : DotDims ⟨2, ![M, K]⟩ ⟨2, ![K, N]⟩ ⟨2, ![M, N]⟩)
    (h1 : D.lhsContracting = [1]) (h2 : D.rhsContracting = [0]) (h3 : D.lhsNonContracting = [0])
    (h4 : D.rhsNonContracting = [1]) (h5 : D.lhsBatch = []) (h6 : D.rhsBatch = [])
    (prec : Option ContractPrecision) (l : FVec Ideal ⟨2, ![M, K]⟩ φ₁) (r : FVec Ideal ⟨2, ![K, N]⟩ φ₂) :
    Host.dotGeneral (F := Ideal) D prec l r = mm l r := by
  funext i
  obtain ⟨p, q, rfl⟩ : ∃ (p : Fin M) (q : Fin N), i = ix2 p q := ⟨i 0, i 1, eq_ix2 i⟩
  exact (Ideal.dotGeneral_apply D prec .single l r (ix2 p q)).trans (plain_sum D h1 h2 h3 h4 h5 h6 l r p q)

/-- The vector unit's plain matmul into a zero accumulator is the matrix product. -/
theorem matmul_zero_eq_mm {M K N : ℕ} {φ₁ φ₂ : FTy} (D : DotDims ⟨2, ![M, K]⟩ ⟨2, ![K, N]⟩ ⟨2, ![M, N]⟩)
    (h1 : D.lhsContracting = [1]) (h2 : D.rhsContracting = [0]) (h3 : D.lhsNonContracting = [0])
    (h4 : D.rhsNonContracting = [1]) (h5 : D.lhsBatch = []) (h6 : D.rhsBatch = [])
    (prec : Option ContractPrecision) (l : FVec Ideal ⟨2, ![M, K]⟩ φ₁) (r : FVec Ideal ⟨2, ![K, N]⟩ φ₂) :
    matmul (F := Ideal) D prec l r (constant ⟨2, ![M, N]⟩ .f32 0x00000000#32) = mm l r := by
  funext i
  obtain ⟨p, q, rfl⟩ : ∃ (p : Fin M) (q : Fin N), i = ix2 p q := ⟨i 0, i 1, eq_ix2 i⟩
  exact (Ideal.matmul_constant_zero_apply D prec l r (ix2 p q)).trans (plain_sum D h1 h2 h3 h4 h5 h6 l r p q)

/-- A one-row bias added to every row, then rectified. -/
def reluBias {M N : ℕ} (X : Mat M N) (b : Mat 1 N) : Mat M N := fun i => max (X i + b (ix2 (0 : Fin 1) (c1 i))) 0

theorem act_eq {M K N : ℕ} (A : Mat M K) (S : Mat K N) (b : Mat 1 N) : act A S b = reluBias (mm A S) b := rfl

/-- The vector unit's form: the row broadcast to every row, added, and the maximum with a zero splat. -/
theorem vecReluBias {M N : ℕ} (X : FVec Ideal ⟨2, ![M, N]⟩ .f32) (b : FVec Ideal ⟨2, ![1, N]⟩ .f32)
    (h : (⟨2, ![1, N]⟩ : Shape).Broadcasts ⟨2, ![M, N]⟩) :
    maximumf (addf X (broadcastTo ⟨2, ![M, N]⟩ b h)) (broadcast ⟨2, ![M, N]⟩ (Scalar.ofBits (F := Ideal) .f32 0x00000000#32))
      = reluBias X b := by
  funext i
  obtain ⟨p, q, rfl⟩ : ∃ (p : Fin M) (q : Fin N), i = ix2 p q := ⟨i 0, i 1, eq_ix2 i⟩
  show max (X (ix2 p q) + broadcastTo ⟨2, ![M, N]⟩ b h (ix2 p q)) (Ideal.ofBits .f32 0x00000000#32) = _
  rw [broadcastTo_1b_ab_apply, Ideal.ofBits_zero_f32]
  rfl

/-- The host's form: the vector broadcast to one row, that row to every row, added, and the maximum with a broadcast
    scalar zero. -/
theorem hostReluBias {M N : ℕ} (X : FVec Ideal ⟨2, ![M, N]⟩ .f32) (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1])
    (h0 : (⟨0, ![]⟩ : Shape).BroadcastsInDim ⟨2, ![M, N]⟩ ![]) :
    maximumf (addf X (broadcastInDim ⟨2, ![M, N]⟩ ![0, 1] h2 (broadcastInDim ⟨2, ![1, N]⟩ ![1] h1 b)))
        (broadcastInDim ⟨2, ![M, N]⟩ ![] h0 (constant (F := Ideal) ⟨0, ![]⟩ .f32 0x00000000#32))
      = reluBias X (row b) := by
  funext i
  obtain ⟨p, q, rfl⟩ : ∃ (p : Fin M) (q : Fin N), i = ix2 p q := ⟨i 0, i 1, eq_ix2 i⟩
  show max (X (ix2 p q) + broadcastInDim ⟨2, ![M, N]⟩ ![0, 1] h2 (broadcastInDim ⟨2, ![1, N]⟩ ![1] h1 b) (ix2 p q))
      (broadcastInDim ⟨2, ![M, N]⟩ ![] h0 (constant (F := Ideal) ⟨0, ![]⟩ .f32 0x00000000#32) (ix2 p q)) = _
  rw [broadcastInDim_apply ![0, 1] h2 _ (ix2 p q) (ix2 (0 : Fin 1) q) (fun a => by
        match a with
        | ⟨0, _⟩ => rfl
        | ⟨1, _⟩ =>
          show q.val = if N = 1 then 0 else q.val
          split
          · have := q.isLt; omega
          · rfl),
    broadcastInDim_apply ![1] h1 b (ix2 (0 : Fin 1) q) (ix1 q) (fun a => by
        match a with
        | ⟨0, _⟩ =>
          show q.val = if N = 1 then 0 else q.val
          split
          · have := q.isLt; omega
          · rfl),
    broadcastInDim_apply ![] h0 _ (ix2 p q) ix0 (fun a => a.elim0)]
  show max (X (ix2 p q) + b (ix1 q)) (Ideal.ofBits .f32 0x00000000#32) = _
  rw [Ideal.ofBits_zero_f32]
  rfl

/-- A vector cast to one row is that row. -/
theorem shapeCast_row {N : ℕ} (b : Row N) (h : (⟨1, ![N]⟩ : Shape).ShapeCasts ⟨2, ![1, N]⟩) :
    shapeCast ⟨2, ![1, N]⟩ b h = row b := by
  funext i
  obtain ⟨u, q, rfl⟩ : ∃ (u : Fin 1) (q : Fin N), i = ix2 u q := ⟨i 0, i 1, eq_ix2 i⟩
  exact shapeCast_a_1a_apply b h u q

/-- Rows of the layer's output depend on the same rows of the left operand only. -/
theorem mm_act_rows {M M' K N P : ℕ} (A : Mat M K) (A' : Mat M' K) (S : Mat K N) (b : Mat 1 N) (W : Mat N P)
    (p : Fin M) (p' : Fin M') (hA : ∀ k, A' (ix2 p' k) = A (ix2 p k)) (q : Fin P) :
    mm (act A' S b) W (ix2 p' q) = mm (act A S b) W (ix2 p q) := by
  simp only [mm_apply, act_apply, hA]

theorem act_rows {M M' K N : ℕ} (A : Mat M K) (A' : Mat M' K) (S : Mat K N) (b : Mat 1 N)
    (p : Fin M) (p' : Fin M') (hA : ∀ k, A' (ix2 p' k) = A (ix2 p k)) (q : Fin N) :
    act A' S b (ix2 p' q) = act A S b (ix2 p q) := by
  simp only [act_apply, hA]

theorem mm_rows {M M' K N : ℕ} (A : Mat M K) (A' : Mat M' K) (B : Mat K N)
    (p : Fin M) (p' : Fin M') (hA : ∀ k, A' (ix2 p' k) = A (ix2 p k)) (q : Fin N) :
    mm A' B (ix2 p' q) = mm A B (ix2 p q) := by
  simp only [mm_apply, hA]

end Cert.Dense

end
-- ==== Proof.KerPayload.lean ====
/-
  The body's stored value read at an index: row h, lane n of the stored [1, 32, 4096] block is the product of the fifth power
  of the mixing matrix (built from the index block, the weight block and the factor block) with the lane's [32]-column of the
  data block.

  The stored value is cut into named pieces: the one-hot array `hotV` (an iota along the last axis compared with the index
  words, widened and converted), the spread weights `wV`, the mixing matrix `mixV` (their product summed over the taps, times
  the factor) and the data block without its unit axis `datV`. Each piece is read at an index; the four square products and
  the product with the data, each into a zero accumulator, are matrix products; the two casts move a leading unit axis.
-/
import proofs.«171374_g11879879543385_cont_main2_343_2_alg».proof.Proof.Gen.KernelIdeal.Skeleton
import proofs.«171374_g11879879543385_cont_main2_343_2_alg».proof.Proof.Spec
import proofs.«171374_g11879879543385_cont_main2_343_2_alg».proof.Proof.LibDense
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.KernelIdeal.KerPayload

open Idealize.ShloMosaic Idealize.ShloMosaic.ValueIdx Cert.KernelIdeal
open Cert.KernelIdeal.Facts₀ Cert.KernelIdeal.Facts

variable [Cert.KernelIdeal.Facts]

/-- The one-hot array: entry (k, h, h') is the indicator that column h', as a word, is the index word at (k, h). -/
def hotV (v0 : Vec Ideal S1x4x32 .i32) : FVec Ideal S4x32x32 .f32 :=
  sitofp .f32 (extui 32 (cmpi .eq (iota .tc S4x32x32 32 [2] iota_S4x32x32_d2_w32)
    (broadcastTo S4x32x32 (shapeCast S4x32x1 (shapeCast S4x32 v0 shapeCasts_S1x4x32_S4x32) shapeCasts_S4x32_S4x32x1)
      broadcasts_S4x32x1_S4x32x32)) natLt_1_32)

/-- The weight array spread over rows and columns: entry (k, h, h') is weight k. -/
def wV (v8 : Vec Ideal S1x4x1 .f32) : FVec Ideal S4x32x32 .f32 :=
  broadcastTo S4x32x32 (shapeCast S4x1x1 (shapeCast S4x1 v8 shapeCasts_S1x4x1_S4x1) shapeCasts_S4x1_S4x1x1)
    broadcasts_S4x1x1_S4x32x32

/-- The mixing matrix as the body computes it. -/
def mixV (v0 : Vec Ideal S1x4x32 .i32) (v8 : Vec Ideal S1x4x1 .f32) (v14 : Vec Ideal S1x1 .f32) : FVec Ideal S32x32 .f32 :=
  mulf (multiReduction .add [0] S32x32 (mulf (hotV v0) (wV v8)) 0x00000000#32 reduces_S4x32x32_S32x32 (.inl rfl) rfl)
    (broadcast S32x32 (extractAt ![0, 0] v14 inpos_S1x1_p0_0))

/-- The data block with its leading unit axis dropped. -/
def datV (v22 : Vec Ideal S1x32x4096 .f32) : FVec Ideal S32x4096 .f32 :=
  shapeCast S32x4096 v22 shapeCasts_S1x32x4096_S32x4096

theorem pay_eq (v0 : Vec Ideal S1x4x32 .i32) (v8 : Vec Ideal S1x4x1 .f32) (v14 : Vec Ideal S1x1 .f32) (v22 : Vec Ideal S1x32x4096 .f32) :
    Cert.KernelIdeal.Gen.k0_pay1 (F := Ideal) v0 v8 v14 v22
      = shapeCast S1x32x4096
          (matmul dot_S32x32_S32x4096_S32x4096_1_0_0_1_n_n (some .fp32)
            (matmul dot_S32x32_S32x32_S32x32_1_0_0_1_n_n (some .fp32)
              (matmul dot_S32x32_S32x32_S32x32_1_0_0_1_n_n (some .fp32)
                (matmul dot_S32x32_S32x32_S32x32_1_0_0_1_n_n (some .fp32)
                  (matmul dot_S32x32_S32x32_S32x32_1_0_0_1_n_n (some .fp32) (mixV v0 v8 v14) (mixV v0 v8 v14)
                    (constant S32x32 .f32 0x00000000#32))
                  (mixV v0 v8 v14) (constant S32x32 .f32 0x00000000#32))
                (mixV v0 v8 v14) (constant S32x32 .f32 0x00000000#32))
              (mixV v0 v8 v14) (constant S32x32 .f32 0x00000000#32))
            (datV v22) (constant S32x4096 .f32 0x00000000#32))
          shapeCasts_S32x4096_S1x32x4096 := rfl

/-- An entry of the one-hot array. -/
theorem hotV_apply (v0 : Vec Ideal S1x4x32 .i32) (k : Fin 4) (h h' : Fin 32) :
    hotV v0 (ix3 k h h') = if BitVec.ofNat 32 h'.val = v0 (ix3 (0 : Fin 1) k h) then (1 : EReal) else 0 := by
  have e2 : iota .tc S4x32x32 32 [2] iota_S4x32x32_d2_w32 (ix3 k h h') = BitVec.ofNat 32 h'.val :=
    iota_single_apply .tc S4x32x32 32 2 iota_S4x32x32_d2_w32 (ix3 k h h')
  have e4 : broadcastTo S4x32x32 (shapeCast S4x32x1 (shapeCast S4x32 v0 shapeCasts_S1x4x32_S4x32) shapeCasts_S4x32_S4x32x1)
      broadcasts_S4x32x1_S4x32x32 (ix3 k h h') = v0 (ix3 (0 : Fin 1) k h) := by
    refine (broadcastTo_apply _ _ (ix3 k h h') (ix3 k h (0 : Fin 1)) ?_).trans ?_
    · intro a
      match a with
      | ⟨0, _⟩ => rfl
      | ⟨1, _⟩ => rfl
      | ⟨2, _⟩ => rfl
    refine (shapeCast_apply _ _ (ix3 k h (0 : Fin 1)) (ix2 k h) ?_).trans ?_
    · rw [Shape.rowMajor_val_three, Shape.rowMajor_val_two]
      show k.val * 32 + h.val = (k.val * 32 + h.val) * 1 + 0
      omega
    exact shapeCast_1ab_ab_apply v0 _ k h
  have e : hotV v0 (ix3 k h h')
      = ((((IntOp.cmpi .eq (iota .tc S4x32x32 32 [2] iota_S4x32x32_d2_w32 (ix3 k h h'))
          (broadcastTo S4x32x32 (shapeCast S4x32x1 (shapeCast S4x32 v0 shapeCasts_S1x4x32_S4x32) shapeCasts_S4x32_S4x32x1)
            broadcasts_S4x32x1_S4x32x32 (ix3 k h h'))).setWidth 32).toInt : ℝ) : EReal) := rfl
  rw [e, e2, e4]
  by_cases hc : BitVec.ofNat 32 h'.val = v0 (ix3 (0 : Fin 1) k h)
  · rw [if_pos hc, hc]
    have h1 : IntOp.cmpi .eq (v0 (ix3 (0 : Fin 1) k h)) (v0 (ix3 (0 : Fin 1) k h)) = 1#1 := by
      simp [IntOp.cmpi]
    rw [h1]
    have h2 : ((1#1 : BitVec 1).setWidth 32).toInt = 1 := by decide
    rw [h2]
    norm_num
  · rw [if_neg hc]
    have hb : (BitVec.ofNat 32 h'.val == (v0 (ix3 (0 : Fin 1) k h) : BitVec 32)) = false := beq_eq_false_iff_ne.2 hc
    have h1 : IntOp.cmpi .eq (BitVec.ofNat 32 h'.val) (v0 (ix3 (0 : Fin 1) k h)) = 0#1 := by
      show BitVec.ofBool (BitVec.ofNat 32 h'.val == (v0 (ix3 (0 : Fin 1) k h) : BitVec 32)) = 0#1
      rw [hb]
      rfl
    rw [h1]
    have h2 : ((0#1 : BitVec 1).setWidth 32).toInt = 0 := by decide
    rw [h2]
    norm_num

/-- An entry of the spread weight array. -/
theorem wV_apply (v8 : Vec Ideal S1x4x1 .f32) (k : Fin 4) (h h' : Fin 32) :
    wV v8 (ix3 k h h') = v8 (ix3 (0 : Fin 1) k (0 : Fin 1)) := by
  unfold wV
  refine (broadcastTo_apply _ _ (ix3 k h h') (ix3 k (0 : Fin 1) (0 : Fin 1)) ?_).trans ?_
  · intro a
    match a with
    | ⟨0, _⟩ => rfl
    | ⟨1, _⟩ => rfl
    | ⟨2, _⟩ => rfl
  refine (shapeCast_apply _ _ (ix3 k (0 : Fin 1) (0 : Fin 1)) (ix2 k (0 : Fin 1)) ?_).trans ?_
  · rw [Shape.rowMajor_val_three, Shape.rowMajor_val_two]
    show k.val * 1 + 0 = (k.val * 1 + 0) * 1 + 0
    omega
  exact shapeCast_1ab_ab_apply v8 _ k (0 : Fin 1)

/-- An entry of the mixing matrix as the body computes it. -/
theorem mixV_apply (v0 : Vec Ideal S1x4x32 .i32) (v8 : Vec Ideal S1x4x1 .f32) (v14 : Vec Ideal S1x1 .f32) (h h' : Fin 32) :
    mixV v0 v8 v14 (ix2 h h')
      = (∑ k : Fin 4, hotV v0 (ix3 k h h') * wV v8 (ix3 k h h')) * v14 (ix2 (0 : Fin 1) (0 : Fin 1)) := by
  have e : mixV v0 v8 v14 (ix2 h h')
      = multiReduction .add [0] S32x32 (mulf (hotV v0) (wV v8)) 0x00000000#32 reduces_S4x32x32_S32x32 (.inl rfl) rfl (ix2 h h')
        * extractAt ![0, 0] v14 inpos_S1x1_p0_0 := rfl
  have e15 : extractAt ![0, 0] v14 inpos_S1x1_p0_0 = v14 (ix2 (0 : Fin 1) (0 : Fin 1)) :=
    congrArg v14 (funext fun a => Fin.ext (by
      match a with
      | ⟨0, _⟩ => rfl
      | ⟨1, _⟩ => rfl))
  have e13 : multiReduction .add [0] S32x32 (mulf (hotV v0) (wV v8)) 0x00000000#32 reduces_S4x32x32_S32x32 (.inl rfl) rfl (ix2 h h')
      = ∑ k : Fin 4, hotV v0 (ix3 k h h') * wV v8 (ix3 k h h') := by
    refine (Ideal.multiReduction_add_single (mulf (hotV v0) (wV v8)) 0x00000000#32 reduces_S4x32x32_S32x32 (.inl rfl) rfl
      (ix2 h h')).trans ?_
    refine Finset.sum_congr rfl fun k _ => ?_
    have el : reduces_S4x32x32_S32x32.lift (ix2 h h') k = ix3 k h h' := funext fun a => Fin.ext (by
      match a with
      | ⟨0, _⟩ => rfl
      | ⟨1, _⟩ => rfl
      | ⟨2, _⟩ => rfl)
    rw [el]
    rfl
  rw [e, e13, e15]

/-- A square product into a zero accumulator is the matrix product. -/
theorem mmS (l r : FVec Ideal S32x32 .f32) :
    matmul dot_S32x32_S32x32_S32x32_1_0_0_1_n_n (some .fp32) l r (constant S32x32 .f32 0x00000000#32) = Cert.Dense.mm l r :=
  Cert.Dense.matmul_zero_eq_mm dot_S32x32_S32x32_S32x32_1_0_0_1_n_n rfl rfl rfl rfl rfl rfl (some .fp32) l r

/-- The product with the data block into a zero accumulator is the matrix product. -/
theorem mmD (l : FVec Ideal S32x32 .f32) (r : FVec Ideal S32x4096 .f32) :
    matmul dot_S32x32_S32x4096_S32x4096_1_0_0_1_n_n (some .fp32) l r (constant S32x4096 .f32 0x00000000#32) = Cert.Dense.mm l r :=
  Cert.Dense.matmul_zero_eq_mm dot_S32x32_S32x4096_S32x4096_1_0_0_1_n_n rfl rfl rfl rfl rfl rfl (some .fp32) l r

/-- The matrix product of two arrays with known entries has the product's entries. -/
theorem mm_entry {A B : Cert.Dense.Mat 32 32} {f g : Fin 32 → Fin 32 → EReal}
    (hA : ∀ a b, A (ix2 a b) = f a b) (hB : ∀ a b, B (ix2 a b) = g a b) (a b : Fin 32) :
    Cert.Dense.mm A B (ix2 a b) = Cert.TapMix.mmul f g a b := by
  rw [Cert.Dense.mm_apply]
  unfold Cert.TapMix.mmul
  simp only [hA, hB]

/-- The stored block at (0, h, n), for blocks that hold the index words, the weights and the factor of arrays `idx`, `w`, `lam`. -/
theorem pay_apply (idx : Cert.TapMix.IdxArr) (w : Cert.TapMix.WArr) (lam : Cert.TapMix.Scal)
    (v0 : Vec Ideal S1x4x32 .i32) (v8 : Vec Ideal S1x4x1 .f32) (v14 : Vec Ideal S1x1 .f32) (v22 : Vec Ideal S1x32x4096 .f32)
    (h0 : ∀ (k : Fin 4) (h : Fin 32), v0 (ix3 (0 : Fin 1) k h) = Cert.TapMix.tapWord idx k h)
    (h1 : ∀ k : Fin 4, v8 (ix3 (0 : Fin 1) k (0 : Fin 1)) = Cert.TapMix.tapW w k)
    (h2 : v14 (ix2 (0 : Fin 1) (0 : Fin 1)) = lam ix0)
    (h : Fin 32) (n : Fin 4096) :
    Cert.KernelIdeal.Gen.k0_pay1 (F := Ideal) v0 v8 v14 v22 (ix3 (0 : Fin 1) h n)
      = ∑ h' : Fin 32, Cert.TapMix.mix5 idx w lam h h' * v22 (ix3 (0 : Fin 1) h' n) := by
  have hM : ∀ a b : Fin 32, mixV v0 v8 v14 (ix2 a b) = Cert.TapMix.mix idx w lam a b := by
    intro a b
    have hs : ∀ k : Fin 4, hotV v0 (ix3 k a b) * wV v8 (ix3 k a b) = Cert.TapMix.hot idx k a b * Cert.TapMix.tapW w k := by
      intro k
      rw [hotV_apply, wV_apply, h0, h1]
      rfl
    rw [mixV_apply, h2]
    simp only [hs]
    rfl
  have hD : ∀ (k : Fin 32), datV v22 (ix2 k n) = v22 (ix3 (0 : Fin 1) k n) := fun k =>
    shapeCast_1ab_ab_apply v22 _ k n
  rw [pay_eq, mmD, mmS, mmS, mmS, mmS]
  refine (shapeCast_ab_1ab_apply _ _ (0 : Fin 1) h n).trans ?_
  rw [Cert.Dense.mm_apply]
  refine Finset.sum_congr rfl fun h' _ => ?_
  unfold Cert.TapMix.mix5
  rw [hD, mm_entry (mm_entry (mm_entry (mm_entry hM hM) hM) hM) hM h h']

end Cert.KernelIdeal.KerPayload

end
-- ==== Proof.KerValueBlocks.lean ====
import proofs.«171374_g11879879543385_cont_main2_343_2_alg».proof.Proof.Gen.KernelIdeal.Frame
import proofs.«171374_g11879879543385_cont_main2_343_2_alg».proof.Proof.Spec
import Idealize.ShloMosaic.Lib.Pipeline.Value
import Idealize.ShloMosaic.Lib.ValueIdx
import Idealize.ShloMosaic.Lib.ValueLayout
import Idealize.ShloMosaic.Lib.Tactic

noncomputable section

open scoped BigOperators

namespace Cert.KernelIdeal.KerValueBlocks

open Idealize.ShloMosaic Idealize.ShloMosaic.TcCoe Idealize.SL.Sem Cert.KernelIdeal Cert.KernelIdeal.Gen
open Idealize.ShloMosaic.ValueIdx
open Idealize.ShloMosaic.Pipeline (Dat)

variable [Cert.KernelIdeal.Facts]
variable (m : (ℓ : Loc nD τ sig) → Buf (Elt Ideal) ℓ)

/-! ## What the region finds in the four reshaped arrays -/

theorem V_v0 (c : Dev nD) :
    (V m c main_v0 : S4x32x32768.Idx → EReal)
      = shapeCast S4x32x32768 (m ((c.tc : Thread nD τ).loc main_arg0) : S4x32x256x128.Idx → EReal) shapeCasts_S4x32x256x128_S4x32x32768 := by
  show StableHlo.after hostOps0 (fun b => m (c, b)) (Proc.devRef .tc main_v0) = _
  after_results
  rfl

theorem V_v1 (c : Dev nD) :
    (V m c main_v1 : S1x4x32.Idx → BitVec 32)
      = shapeCast S1x4x32 (m ((c.tc : Thread nD τ).loc main_arg1) : S4x32x1.Idx → BitVec 32) shapeCasts_S4x32x1_S1x4x32 := by
  show StableHlo.after hostOps0 (fun b => m (c, b)) (Proc.devRef .tc main_v1) = _
  after_results
  rfl

theorem V_v2 (c : Dev nD) :
    (V m c main_v2 : S1x4x1.Idx → EReal)
      = shapeCast S1x4x1 (m ((c.tc : Thread nD τ).loc main_arg2) : S4x1x1x1x1.Idx → EReal) shapeCasts_S4x1x1x1x1_S1x4x1 := by
  show StableHlo.after hostOps0 (fun b => m (c, b)) (Proc.devRef .tc main_v2) = _
  after_results
  rfl

theorem V_v3 (c : Dev nD) :
    (V m c main_v3 : S1x1.Idx → EReal)
      = shapeCast S1x1 (m ((c.tc : Thread nD τ).loc main_arg3) : S_.Idx → EReal) shapeCasts_S_S1x1 := by
  show StableHlo.after hostOps0 (fun b => m (c, b)) (Proc.devRef .tc main_v3) = _
  after_results
  rfl

/-! ## The same, read at an index -/

/-- Lane p·128 + q of row (b, h) of the flattened data array is entry (b, h, p, q) of the data array. -/
theorem V_v0_apply (c : Dev nD) (b : Fin 4) (h : Fin 32) (p : Fin 256) (q : Fin 128) (n : Fin 32768) (hn : n.val = p.val * 128 + q.val) :
    (V m c main_v0 : S4x32x32768.Idx → EReal) (ix3 b h n)
      = (m ((c.tc : Thread nD τ).loc main_arg0) : S4x32x256x128.Idx → EReal) (ix4 b h p q) := by
  rw [V_v0]
  refine shapeCast_apply _ _ _ _ ?_
  show (S4x32x256x128.rowMajor (ix4 b h p q)).val = (S4x32x32768.rowMajor (ix3 b h n)).val
  rw [Shape.rowMajor_val_four, Shape.rowMajor_val_three]
  show ((b.val * 32 + h.val) * 256 + p.val) * 128 + q.val = (b.val * 32 + h.val) * 32768 + n.val
  omega

/-- Entry (0, k, h) of the index array as the region finds it is the word of tap k at row h. -/
theorem V_v1_apply (c : Dev nD) (k : Fin 4) (h : Fin 32) :
    (V m c main_v1 : S1x4x32.Idx → BitVec 32) (ix3 (0 : Fin 1) k h)
      = Cert.TapMix.tapWord (m ((c.tc : Thread nD τ).loc main_arg1)) k h := by
  rw [V_v1]
  refine shapeCast_apply _ _ _ _ ?_
  show (S4x32x1.rowMajor (ix3 k h (0 : Fin 1))).val = (S1x4x32.rowMajor (ix3 (0 : Fin 1) k h)).val
  rw [Shape.rowMajor_val_three, Shape.rowMajor_val_three]
  show (k.val * 32 + h.val) * 1 + 0 = (0 * 4 + k.val) * 32 + h.val
  omega

/-- Entry (0, k, 0) of the weight array as the region finds it is tap k's weight. -/
theorem V_v2_apply (c : Dev nD) (k : Fin 4) :
    (V m c main_v2 : S1x4x1.Idx → EReal) (ix3 (0 : Fin 1) k (0 : Fin 1))
      = Cert.TapMix.tapW (m ((c.tc : Thread nD τ).loc main_arg2)) k := by
  rw [V_v2]
  refine shapeCast_apply _ _ _ _ ?_
  show (S4x1x1x1x1.rowMajor (ix5 k (0 : Fin 1) (0 : Fin 1) (0 : Fin 1) (0 : Fin 1))).val = (S1x4x1.rowMajor (ix3 (0 : Fin 1) k (0 : Fin 1))).val
  rw [Shape.rowMajor_val_five, Shape.rowMajor_val_three]
  show (((k.val * 1 + 0) * 1 + 0) * 1 + 0) * 1 + 0 = (0 * 4 + k.val) * 1 + 0
  omega

/-- The one entry of the factor array as the region finds it is the factor. -/
theorem V_v3_apply (c : Dev nD) :
    (V m c main_v3 : S1x1.Idx → EReal) (ix2 (0 : Fin 1) (0 : Fin 1))
      = (m ((c.tc : Thread nD τ).loc main_arg3) : S_.Idx → EReal) ix0 := by
  rw [V_v3]
  refine shapeCast_apply _ _ _ ix0 ?_
  show (S_.rowMajor ix0).val = (S1x1.rowMajor (ix2 (0 : Fin 1) (0 : Fin 1))).val
  rw [Shape.rowMajor_val_two]
  exact Shape.rowMajorPi_zero _ _

/-! ## The printed index maps, decided once over the grid -/

theorem hz3 : (![0, 0, 0] : Fin 3 → Nat) = fun _ => 0 := funext fun a => by fin_cases a <;> rfl
theorem hz2 : (![0, 0] : Fin 2 → Nat) = fun _ => 0 := funext fun a => by fin_cases a <;> rfl

/-- Windows 0, 1, 2 are whole arrays (block index 0 on every axis); the data window moves with the result window;
    the result window's block index is (b, 0, j) with b ≤ 3 and j ≤ 7. -/
theorem idx_facts : ∀ t : Fin cfg0.N,
    win0_0.index t (0 : Fin 3) = 0 ∧ win0_0.index t (1 : Fin 3) = 0 ∧ win0_0.index t (2 : Fin 3) = 0
    ∧ win0_1.index t (0 : Fin 3) = 0 ∧ win0_1.index t (1 : Fin 3) = 0 ∧ win0_1.index t (2 : Fin 3) = 0
    ∧ win0_2.index t (0 : Fin 2) = 0 ∧ win0_2.index t (1 : Fin 2) = 0
    ∧ win0_3.index t (0 : Fin 3) = win0_4.index t (0 : Fin 3) ∧ win0_3.index t (1 : Fin 3) = win0_4.index t (1 : Fin 3)
    ∧ win0_3.index t (2 : Fin 3) = win0_4.index t (2 : Fin 3)
    ∧ win0_4.index t (0 : Fin 3) ≤ 3 ∧ win0_4.index t (1 : Fin 3) = 0 ∧ win0_4.index t (2 : Fin 3) ≤ 7 :=
  (by decide +kernel : ∀ t : Fin grid0.N, _)

/-- Every block (b, 0, j) of the result is some point's. -/
theorem idx_onto : ∀ (q0 : Fin 4) (q2 : Fin 8), ∃ t : Fin cfg0.N, win0_4.index t = ![q0.val, 0, q2.val] :=
  (by decide +kernel : ∀ (q0 : Fin 4) (q2 : Fin 8), ∃ t : Fin grid0.N, win0_4.index t = ![q0.val, 0, q2.val])

/-! ## The input windows' blocks at a point, read at an index -/

/-- The index window's block at any point is the whole index array as the region finds it. -/
theorem blk0_apply (c : Dev nD) (t : Fin cfg0.N) (y : S1x4x32.Idx) :
    (iblk m c 0 t : Vec Ideal S1x4x32 .i32) y = (V m c main_v1 : S1x4x32.Idx → BitVec 32) y := by
  obtain ⟨e0, e1, e2, -⟩ := idx_facts t
  unfold iblk
  rw [View.read_apply]
  show V m c main_v1 (((cfg0.win 0).blk t).view.emb y) = V m c main_v1 y
  refine congrArg _ (funext fun a => Fin.ext ?_)
  match a with
  | ⟨0, _⟩ => show win0_0.index t (0 : Fin 3) * 1 + 1 * (y 0).val = (y 0).val; omega
  | ⟨1, _⟩ => show win0_0.index t (1 : Fin 3) * 4 + 1 * (y 1).val = (y 1).val; omega
  | ⟨2, _⟩ => show win0_0.index t (2 : Fin 3) * 32 + 1 * (y 2).val = (y 2).val; omega

/-- The weight window's block at any point is the whole weight array as the region finds it. -/
theorem blk1_apply (c : Dev nD) (t : Fin cfg0.N) (y : S1x4x1.Idx) :
    (iblk m c 1 t : Vec Ideal S1x4x1 .f32) y = (V m c main_v2 : S1x4x1.Idx → EReal) y := by
  obtain ⟨-, -, -, e0, e1, e2, -⟩ := idx_facts t
  unfold iblk
  rw [View.read_apply]
  show V m c main_v2 (((cfg0.win 1).blk t).view.emb y) = V m c main_v2 y
  refine congrArg _ (funext fun a => Fin.ext ?_)
  match a with
  | ⟨0, _⟩ => show win0_1.index t (0 : Fin 3) * 1 + 1 * (y 0).val = (y 0).val; omega
  | ⟨1, _⟩ => show win0_1.index t (1 : Fin 3) * 4 + 1 * (y 1).val = (y 1).val; omega
  | ⟨2, _⟩ => show win0_1.index t (2 : Fin 3) * 1 + 1 * (y 2).val = (y 2).val; omega

/-- The factor window's block at any point is the whole factor array as the region finds it. -/
theorem blk2_apply (c : Dev nD) (t : Fin cfg0.N) (y : S1x1.Idx) :
    (iblk m c 2 t : Vec Ideal S1x1 .f32) y = (V m c main_v3 : S1x1.Idx → EReal) y := by
  obtain ⟨-, -, -, -, -, -, e0, e1, -⟩ := idx_facts t
  unfold iblk
  rw [View.read_apply]
  show V m c main_v3 (((cfg0.win 2).blk t).view.emb y) = V m c main_v3 y
  refine congrArg _ (funext fun a => Fin.ext ?_)
  match a with
  | ⟨0, _⟩ => show win0_2.index t (0 : Fin 2) * 1 + 1 * (y 0).val = (y 0).val; omega
  | ⟨1, _⟩ => show win0_2.index t (1 : Fin 2) * 1 + 1 * (y 1).val = (y 1).val; omega

/-- The data window's block at a point whose result block index is (b, 0, j): entry (0, h', n) is the flattened data array at
    (b, h', j · 4096 + n). -/
theorem blk3_apply (c : Dev nD) (t : Fin cfg0.N) (y : S1x32x4096.Idx) (i : S4x32x32768.Idx)
    (hb : (i 0).val = win0_4.index t (0 : Fin 3)) (hr : (i 1).val = (y 1).val)
    (hl : (i 2).val = win0_4.index t (2 : Fin 3) * 4096 + (y 2).val) :
    (iblk m c 3 t : Vec Ideal S1x32x4096 .f32) y = (V m c main_v0 : S4x32x32768.Idx → EReal) i := by
  obtain ⟨-, -, -, -, -, -, -, -, e0, e1, e2, -, e4, -⟩ := idx_facts t
  unfold iblk
  rw [View.read_apply]
  show V m c main_v0 (((cfg0.win 3).blk t).view.emb y) = V m c main_v0 i
  refine congrArg _ (funext fun a => Fin.ext ?_)
  have hy0 : (y 0).val < 1 := (y 0).isLt
  match a with
  | ⟨0, _⟩ => show win0_3.index t (0 : Fin 3) * 1 + 1 * (y 0).val = (i 0).val; omega
  | ⟨1, _⟩ => show win0_3.index t (1 : Fin 3) * 32 + 1 * (y 1).val = (i 1).val; omega
  | ⟨2, _⟩ => show win0_3.index t (2 : Fin 3) * 4096 + 1 * (y 2).val = (i 2).val; omega

end Cert.KernelIdeal.KerValueBlocks

end
-- ==== Proof.KerValueArray.lean ====
import proofs.«171374_g11879879543385_cont_main2_343_2_alg».proof.Proof.KerValueBlocks
import proofs.«171374_g11879879543385_cont_main2_343_2_alg».proof.Proof.KerPayload

noncomputable section

open scoped BigOperators

namespace Cert.KernelIdeal.KerValueArray

open Idealize.ShloMosaic Idealize.ShloMosaic.TcCoe Idealize.SL.Sem Cert.KernelIdeal Cert.KernelIdeal.Gen
open Idealize.ShloMosaic.ValueIdx
open Idealize.ShloMosaic.Pipeline (Dat)

variable [Cert.KernelIdeal.Facts]
variable (m : (ℓ : Loc nD τ sig) → Buf (Elt Ideal) ℓ)

open Cert.KernelIdeal.KerValueBlocks

/-! ## The result array at [4, 32, 32768] as one function of the arrays -/

/-- Every [32]-column (fixed batch and lane) of a [4, 32, 32768] array multiplied by a 32 × 32 matrix. -/
def colMul (M : Fin 32 → Fin 32 → EReal) (x : S4x32x32768.Idx → EReal) : S4x32x32768.Idx → EReal :=
  fun i => ∑ h' : Fin 32, M ⟨(i 1).val, (i 1).isLt⟩ h' * x (ix3 (⟨(i 0).val, (i 0).isLt⟩ : Fin 4) h' (⟨(i 2).val, (i 2).isLt⟩ : Fin 32768))

theorem colMul_apply (M : Fin 32 → Fin 32 → EReal) (x : S4x32x32768.Idx → EReal) (b : Fin 4) (h : Fin 32) (n : Fin 32768) :
    colMul M x (ix3 b h n) = ∑ h' : Fin 32, M h h' * x (ix3 b h' n) := rfl

/-- The stored block at any index, for blocks that hold the index words, the weights and the factor. -/
theorem pay_at (idx : Cert.TapMix.IdxArr) (w : Cert.TapMix.WArr) (lam : Cert.TapMix.Scal)
    (v0 : Vec Ideal S1x4x32 .i32) (v8 : Vec Ideal S1x4x1 .f32) (v14 : Vec Ideal S1x1 .f32) (v22 : Vec Ideal S1x32x4096 .f32)
    (h0 : ∀ (k : Fin 4) (h : Fin 32), v0 (ix3 (0 : Fin 1) k h) = Cert.TapMix.tapWord idx k h)
    (h1 : ∀ k : Fin 4, v8 (ix3 (0 : Fin 1) k (0 : Fin 1)) = Cert.TapMix.tapW w k)
    (h2 : v14 (ix2 (0 : Fin 1) (0 : Fin 1)) = lam ix0)
    (y : S1x32x4096.Idx) :
    Cert.KernelIdeal.Gen.k0_pay1 (F := Ideal) v0 v8 v14 v22 y
      = ∑ h' : Fin 32, Cert.TapMix.mix5 idx w lam ⟨(y 1).val, (y 1).isLt⟩ h'
          * v22 (ix3 (0 : Fin 1) h' (⟨(y 2).val, (y 2).isLt⟩ : Fin 4096)) := by
  obtain ⟨a, h, n, rfl⟩ : ∃ (a : Fin 1) (h : Fin 32) (n : Fin 4096), y = ix3 a h n := ⟨y 0, y 1, y 2, eq_ix3 y⟩
  obtain rfl : a = 0 := Subsingleton.elim _ _
  exact Cert.KernelIdeal.KerPayload.pay_apply idx w lam v0 v8 v14 v22 h0 h1 h2 h n

/-- The result array at [4, 32, 32768]: the flattened data array as the region finds it, every column multiplied by the
    fifth power of the mixing matrix of the index, weight and factor arrays. -/
abbrev res (c : Dev nD) : S4x32x32768.Idx → EReal :=
  colMul (Cert.TapMix.mix5 (m ((c.tc : Thread nD τ).loc main_arg1)) (m ((c.tc : Thread nD τ).loc main_arg2)) (m ((c.tc : Thread nD τ).loc main_arg3)))
    (V m c main_v0 : S4x32x32768.Idx → EReal)

/-- What point t writes back is block t of the result array. -/
theorem flushed_eq (c : Dev nD) (t : Fin cfg0.N) :
    (dats m 0 c).flushed 4 t = ((cfg0.win 4).blk t).view.read (Elt Ideal) (res m c) := by
  show (cfg0.win 4).cut (grid0.coords t) ((dats m 0 c).after 4 t) = _
  rw [after0_4]
  unfold out0_4
  rw [View.canon_unit_zero hz3]
  simp only [View.ld_unit_zero (S := S1x4x32) hz3, View.ld_unit_zero (S := S1x4x1) hz3, View.ld_unit_zero (S := S1x1) hz2,
    View.ld_unit_zero (S := S1x32x4096) hz3]
  refine funext fun (j : S1x32x4096.Idx) => ?_
  show Cert.KernelIdeal.Gen.k0_pay1 (F := Ideal) (iblk m c 0 t) (iblk m c 1 t) (iblk m c 2 t) (iblk m c 3 t) j
    = res m c (((cfg0.win 4).blk t).view.emb j : S4x32x32768.Idx)
  refine (pay_at (m ((c.tc : Thread nD τ).loc main_arg1)) (m ((c.tc : Thread nD τ).loc main_arg2)) (m ((c.tc : Thread nD τ).loc main_arg3))
    (iblk m c 0 t) (iblk m c 1 t) (iblk m c 2 t) (iblk m c 3 t)
    (fun k h => (blk0_apply m c t (ix3 (0 : Fin 1) k h)).trans (V_v1_apply m c k h))
    (fun k => (blk1_apply m c t (ix3 (0 : Fin 1) k (0 : Fin 1))).trans (V_v2_apply m c k))
    ((blk2_apply m c t (ix2 (0 : Fin 1) (0 : Fin 1))).trans (V_v3_apply m c)) j).trans ?_
  obtain ⟨-, -, -, -, -, -, -, -, -, -, -, e3, e4, e5⟩ := idx_facts t
  have hj0 : (j 0).val < 1 := (j 0).isLt
  have c0 : ((((cfg0.win 4).blk t).view.emb j : S4x32x32768.Idx) (0 : Fin 3)).val = win0_4.index t (0 : Fin 3) := by
    show win0_4.index t (0 : Fin 3) * 1 + 1 * (j 0).val = _; omega
  have c1 : ((((cfg0.win 4).blk t).view.emb j : S4x32x32768.Idx) (1 : Fin 3)).val = (j 1).val := by
    show win0_4.index t (1 : Fin 3) * 32 + 1 * (j 1).val = _; omega
  have c2 : ((((cfg0.win 4).blk t).view.emb j : S4x32x32768.Idx) (2 : Fin 3)).val = win0_4.index t (2 : Fin 3) * 4096 + (j 2).val := by
    show win0_4.index t (2 : Fin 3) * 4096 + 1 * (j 2).val = _; omega
  unfold res colMul
  refine Finset.sum_congr rfl fun h' _ => ?_
  refine congrArg₂ (· * ·) (congrArg (fun r => Cert.TapMix.mix5 _ _ _ r h') (Fin.ext c1.symm)) ?_
  exact blk3_apply m c t _ _ c0 rfl c2

/-- An index of the array is in point t's block iff each coordinate is in the block's range on its axis. -/
theorem mem_blk (t : Fin cfg0.N) (i : S4x32x32768.Idx) :
    i ∈ ((cfg0.win 4).blk t).view.set ↔ ∀ a : Fin 3, win0_4.index t a * S1x32x4096.size a ≤ (i a).val
      ∧ (i a).val < win0_4.index t a * S1x32x4096.size a + S1x32x4096.size a := by
  show i ∈ ((View.whole main_v4).slice (win0_4.rect t)).set ↔ _
  rw [View.set_slice_whole, Rect.mem_set_unit]
  exact Iff.rfl

/-- The blocks tile the array: index (b, h, n) is in the block of the point whose block index is (b, 0, n / 4096). -/
theorem cover (i : S4x32x32768.Idx) : ∃ t : Fin cfg0.N, (cfg0.win 4).flush t = true ∧ i ∈ ((cfg0.win 4).blk t).view.set := by
  have hi0 : (i 0).val < 4 := (i 0).isLt
  have hi1 : (i 1).val < 32 := (i 1).isLt
  have hi2 : (i 2).val < 32768 := (i 2).isLt
  obtain ⟨t, ht⟩ := idx_onto ⟨(i 0).val, hi0⟩ ⟨(i 2).val / 4096, by omega⟩
  have q0 : win0_4.index t (0 : Fin 3) = (i 0).val := congrFun ht 0
  have q1 : win0_4.index t (1 : Fin 3) = 0 := congrFun ht 1
  have q2 : win0_4.index t (2 : Fin 3) = (i 2).val / 4096 := congrFun ht 2
  refine ⟨t, flush0_4 t, ?_⟩
  rw [mem_blk]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 32 ≤ (i 1).val ∧ (i 1).val < win0_4.index t (1 : Fin 3) * 32 + 32; omega
  | ⟨2, _⟩ => show win0_4.index t (2 : Fin 3) * 4096 ≤ (i 2).val ∧ (i 2).val < win0_4.index t (2 : Fin 3) * 4096 + 4096; omega

/-- The result window's array after the run is the result array. -/
theorem final (c : Dev nD) : (dats m 0 c).arrAt 4 cfg0.N = res m c :=
  (dats m 0 c).arrAt_eq_of_cover 4 (res m c) (fun t _ => flushed_eq m c t) cover

end Cert.KernelIdeal.KerValueArray

end
-- ==== Proof.KerValue.lean ====
/-
  The kernel program's run with its result array named: the data array, flattened to [4, 32, 32768], is cut into blocks of 4096
  lanes; each grid point multiplies its block by the fifth power of the mixing matrix; the blocks tile the result, which is
  then viewed again as [4, 32, 256, 128].
-/
import proofs.«171374_g11879879543385_cont_main2_343_2_alg».proof.Proof.Gen.KernelIdeal.Frame
import proofs.«171374_g11879879543385_cont_main2_343_2_alg».proof.Proof.Spec
import proofs.«171374_g11879879543385_cont_main2_343_2_alg».proof.Proof.KerPayload
import proofs.«171374_g11879879543385_cont_main2_343_2_alg».proof.Proof.KerValueArray

noncomputable section

open scoped BigOperators

namespace Cert.KernelIdeal.KerValue

open Idealize.ShloMosaic Idealize.ShloMosaic.TcCoe Idealize.SL.Sem Cert.KernelIdeal
open Idealize.ShloMosaic.ValueIdx

variable [Cert.KernelIdeal.Facts]

/-- What the region leaves in the result window's array: every column of the flattened data array multiplied by the fifth
    power of the mixing matrix. -/
theorem region_result (m : (ℓ : Loc nD τ sig) → Buf (Elt Ideal) ℓ) (c : Dev nD) :
    (Pipeline.withArrays spec0 c (Gen.V0 m c) (fun w => (Gen.dats m 0 c).arrAt w cfg0.N) (Proc.devRef .tc main_v4)
        : S4x32x32768.Idx → EReal)
      = KerValueArray.res m c :=
  (Pipeline.withArrays_arr spec0 Gen.launch0.win.arr_inj c _ _ 4).trans (KerValueArray.final m c)

/-- The result array of the program: the host reshape after the region reads the result window's array; lane p · 128 + q of
    the flattened arrays is entry (p, q) of the four-axis ones. -/
theorem tail_eq (m : (ℓ : Loc nD τ sig) → Buf (Elt Ideal) ℓ) (c : Dev nD) :
    Pipeline.afterTail₀ cfgs (Gen.dats m) 0 (Gen.V0 m) [Gen.hostOps1] c main_v5
      = Cert.TapMix.kerOut (m ((c.tc : Thread nD τ).loc main_arg0)) (m ((c.tc : Thread nD τ).loc main_arg1))
          (m ((c.tc : Thread nD τ).loc main_arg2)) (m ((c.tc : Thread nD τ).loc main_arg3)) := by
  unfold Pipeline.afterTail₀
  show StableHlo.after Gen.hostOps1 _ (Proc.devRef .tc main_v5) = _
  after_results
  funext i
  obtain ⟨b, h, p, q, rfl⟩ : ∃ (b : Fin 4) (h : Fin 32) (p : Fin 256) (q : Fin 128), i = ix4 b h p q :=
    ⟨i 0, i 1, i 2, i 3, eq_ix4 i⟩
  rw [Cert.TapMix.kerOut_apply]
  have hn : p.val * 128 + q.val < 32768 := by have := p.isLt; have := q.isLt; omega
  show shapeCast S4x32x256x128 (Pipeline.withArrays spec0 c (Gen.V0 m c) (fun w => (Gen.dats m 0 c).arrAt w cfg0.N)
      (Proc.devRef .tc main_v4) : S4x32x32768.Idx → EReal) Gen.shapeCasts_S4x32x32768_S4x32x256x128 (ix4 b h p q) = _
  rw [region_result m c]
  refine (shapeCast_apply _ _ _ (ix3 b h (⟨p.val * 128 + q.val, hn⟩ : Fin 32768)) ?_).trans ?_
  · show (S4x32x32768.rowMajor (ix3 b h (⟨p.val * 128 + q.val, hn⟩ : Fin 32768))).val = (S4x32x256x128.rowMajor (ix4 b h p q)).val
    rw [Shape.rowMajor_val_four, Shape.rowMajor_val_three]
    show (b.val * 32 + h.val) * 32768 + (p.val * 128 + q.val) = ((b.val * 32 + h.val) * 256 + p.val) * 128 + q.val
    omega
  · refine (KerValueArray.colMul_apply _ _ b h _).trans (Finset.sum_congr rfl fun h' _ => ?_)
    exact congrArg _ (KerValueBlocks.V_v0_apply m c b h' p q _ rfl)

/-- Every weakly fair execution of the idealized kernel program ends with its result array at `TapMix.kerOut` of the argument
    arrays, and the argument arrays unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v5)
          = Cert.TapMix.kerOut (m ((c.tc : Thread nD τ).loc main_arg0)) (m ((c.tc : Thread nD τ).loc main_arg1))
              (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_v5 (Pipeline.mem_restRefs_of main_v5 (by decide) (by decide))).trans (tail_eq m c),
      ((h c).2 main_arg0 (Pipeline.mem_restRefs_of main_arg0 (by decide) (by decide))).trans (Gen.W_main_arg0 m (Gen.dats m) c),
      ((h c).2 main_arg1 (Pipeline.mem_restRefs_of main_arg1 (by decide) (by decide))).trans (Gen.W_main_arg1 m (Gen.dats m) c),
      ((h c).2 main_arg2 (Pipeline.mem_restRefs_of main_arg2 (by decide) (by decide))).trans (Gen.W_main_arg2 m (Gen.dats m) c),
      ((h c).2 main_arg3 (Pipeline.mem_restRefs_of main_arg3 (by decide) (by decide))).trans (Gen.W_main_arg3 m (Gen.dats m) c)⟩)
    (Gen.run_main m ρ)

end Cert.KernelIdeal.KerValue

end
-- ==== Proof.RefTerm.lean ====
/-
  The reference's round as one pure term, in the reference's own operations read at the extended reals.

  A round takes the data array y [4, 32, 256, 128], moves its batch axis last, multiplies by a splat of ones, selects for every
  tap k and row h the source row the index word names (the index wrapped by +32 where negative, then an in-range mask over
  [0, 31], a gather, and a not-a-number fill where the mask fails), multiplies by the tap's weight broadcast along every other
  axis, sums over the taps from zero, moves the batch axis back in front and multiplies by the broadcast factor.
  `takeTerm` is the selection; `roundTerm` the whole round; `idxTerm` the index array [4, 32, 1] viewed as [4, 32].
-/
import proofs.«171374_g11879879543385_cont_main2_343_2_alg».proof.ReferenceIdeal
import Idealize.ShloMosaic.PureOps.Ideal

noncomputable section

namespace Cert.ReferenceIdeal.RefTerm

open Idealize.ShloMosaic Cert.ReferenceIdeal
open Cert.ReferenceIdeal.Facts₀ Cert.ReferenceIdeal.Facts

variable [Cert.ReferenceIdeal.Facts]

/-- The index array viewed as [4, 32]. -/
def idxTerm (i : IVec S4x32x1 32) : IVec S4x32 32 := shapeCast S4x32 i shapeCasts_S4x32x1_S4x32

/-- The selection of source rows: for tap k and row h the source row of `y` [32, 256, 128, 4] named by the index word. -/
def takeTerm (y : FVec Ideal S32x256x128x4 .f32) (i0 : IVec S4x32 32) : FVec Ideal S4x32x256x128x4 .f32 :=
  let c : IVec S_ 32 := constantI S_ 32 0#32
  let v0 : IVec S4x32 32 := broadcastInDim S4x32 ![] bcast_S_S4x32 c
  let v1 : IVec S4x32 1 := cmpi .slt i0 v0
  let c_0 : IVec S_ 32 := constantI S_ 32 32#32
  let v2 : IVec S4x32 32 := broadcastInDim S4x32 ![] bcast_S_S4x32 c_0
  let v3 : IVec S4x32 32 := addi i0 v2
  let v4 : IVec S4x32 32 := select v1 v3 i0
  let v5 : IVec S4x32x1 32 := broadcastInDim S4x32x1 ![0, 1] bcast_S4x32_S4x32x1_0_1 v4
  let c_1 : IVec S1 32 := constantI S1 32 31#32
  let c_2 : IVec S_ 32 := constantI S_ 32 0#32
  let v6 : IVec S4x32x1 32 := broadcastInDim S4x32x1 ![] bcast_S_S4x32x1 c_2
  let v7 : IVec S4x32x1 1 := cmpi .sge v5 v6
  let v8 : IVec S1x1x1 32 := broadcastInDim S1x1x1 ![2] bcast_S1_S1x1x1_2 c_1
  let v9 : IVec S4x32x1 32 := broadcastInDim S4x32x1 ![0, 1, 2] bcast_S1x1x1_S4x32x1_0_1_2 v8
  let v10 : IVec S4x32x1 1 := cmpi .sle v5 v9
  let v11 : IVec S4x32x1 1 := andi v7 v10
  let c_3 : IVec S_ 1 := constantI S_ 1 1#1
  let v12 : IVec S4x32 1 := Host.reduce IntOp.andi v11 c_3 reducesTo_S4x32x1_S4x32_d2 h_S_
  let v13 : FVec Ideal S4x32x256x128x4 .f32 := Host.gather gather_S32x256x128x4_S4x32x1_S4x32x256x128x4_234_0_n_n_0_2_12561284 y v5
  let v14 : IVec S4x32x256x128x4 1 := broadcastInDim S4x32x256x128x4 ![0, 1] bcast_S4x32_S4x32x256x128x4_0_1 v12
  let cst : FVec Ideal S_ .f32 := constant S_ .f32 0x7FC00000#32
  let v15 : FVec Ideal S4x32x256x128x4 .f32 := broadcastInDim S4x32x256x128x4 ![] bcast_S_S4x32x256x128x4 cst
  select v14 v13 v15

/-- One round of the reference. -/
def roundTerm (y : FVec Ideal S4x32x256x128 .f32) (i0 : IVec S4x32 32) (w : FVec Ideal S4x1x1x1x1 .f32) (lam : FVec Ideal S_ .f32) :
    FVec Ideal S4x32x256x128 .f32 :=
  let v1 : FVec Ideal S32x256x128x4 .f32 := transpose S32x256x128x4 [1, 2, 3, 0] y transposes_S4x32x256x128_S32x256x128x4_1_2_3_0
  let cst : FVec Ideal S_ .f32 := constant S_ .f32 0x3F800000#32
  let v2 : FVec Ideal S32x256x128x4 .f32 := broadcastInDim S32x256x128x4 ![] bcast_S_S32x256x128x4 cst
  let v3 : FVec Ideal S32x256x128x4 .f32 := mulf v1 v2
  let v4 : FVec Ideal S4x32x256x128x4 .f32 := takeTerm v3 i0
  let v5 : FVec Ideal S4x32x256x128x4 .f32 := broadcastInDim S4x32x256x128x4 ![0, 1, 2, 3, 4] bcast_S4x1x1x1x1_S4x32x256x128x4_0_1_2_3_4 w
  let v6 : FVec Ideal S4x32x256x128x4 .f32 := mulf v4 v5
  let cst_0 : FVec Ideal S_ .f32 := constant S_ .f32 0x00000000#32
  let v7 : FVec Ideal S32x256x128x4 .f32 := Host.reduceAdd v6 cst_0 reducesTo_S4x32x256x128x4_S32x256x128x4_d0 h_S_
  let v8 : FVec Ideal S4x32x256x128 .f32 := transpose S4x32x256x128 [3, 0, 1, 2] v7 transposes_S32x256x128x4_S4x32x256x128_3_0_1_2
  let v9 : FVec Ideal S4x32x256x128 .f32 := broadcastInDim S4x32x256x128 ![] bcast_S_S4x32x256x128 lam
  mulf v9 v8

/-- Five rounds, one after the other: the reference's result as a function of its four argument arrays. -/
def refTerm (x : FVec Ideal S4x32x256x128 .f32) (i : IVec S4x32x1 32) (w : FVec Ideal S4x1x1x1x1 .f32) (lam : FVec Ideal S_ .f32) :
    FVec Ideal S4x32x256x128 .f32 :=
  roundTerm (roundTerm (roundTerm (roundTerm (roundTerm x (idxTerm i) w lam) (idxTerm i) w lam) (idxTerm i) w lam) (idxTerm i) w lam) (idxTerm i) w lam

end Cert.ReferenceIdeal.RefTerm

end
-- ==== Proof.LibTypedRef.lean ====
/-
  Typed references: a value carried to a buffer's own type and back is the value.

  A host operation of a called function is stated over typed references: a reference together with the equation that
  its buffer's type is the value's type. The operation's function is conjugated by the transport along that equation
  (`toBuf` into the buffer's type, `ofBuf` out of it). Reading a chain of such operations back therefore leaves
  pairs `ofBuf (toBuf v)` around every intermediate value; each pair is the identity.
-/
import Idealize.ShloMosaic.Lib.StableHlo

namespace Cert.TypedRef

open Idealize.ShloMosaic Idealize.ShloMosaic.StableHlo

/-- Carrying a value to the buffer's type and back gives the value. -/
theorem ofBuf_toBuf {sig : RefSig} {T : BufTy} {Val : EltTy → Type} (x : TRef sig T) (v : T.Contents Val) :
    x.ofBuf (x.toBuf v) = v := by
  obtain ⟨r, h, a, b⟩ := x
  subst h
  rfl

/-- Carrying a buffer's contents to the value's type and back gives the contents. -/
theorem toBuf_ofBuf {sig : RefSig} {T : BufTy} {Val : EltTy → Type} (x : TRef sig T) (v : x.ref.ty.Contents Val) :
    x.toBuf (x.ofBuf v) = v := by
  obtain ⟨r, h, a, b⟩ := x
  subst h
  rfl

end Cert.TypedRef
-- ==== Proof.LibPadSplit.lean ====
/-
  Two general facts for reading a host program back.

  Splitting a line of host operations: the buffer contents after two stretches of host operations run one after the
  other are the second stretch's contents from the first's. This lets a long line be read stretch by stretch, each
  stretch over an arbitrary starting valuation — in particular around a many-operand operation (a concatenation), whose
  operands a read-back of the whole line leaves indexed by a bound variable.

  Reading a padding: a rank-3 array padded on the RIGHT of its LAST axis only (no padding before, none between the
  elements, none on the other axes), read at an index whose last coordinate is inside the operand's extent, is the
  operand at that index — whatever the padding value is.
-/
import Idealize.ShloMosaic.Lib.StableHlo.Run
import Idealize.ShloMosaic.Lib.ValueIdx
import Idealize.ShloMosaic.PureOps

noncomputable section

namespace Cert.PadSplit

open Idealize.ShloMosaic Idealize.ShloMosaic.StableHlo Idealize.ShloMosaic.ValueIdx

/-- The contents after the stretch A followed by the stretch B are B's contents from A's. -/
theorem after_append {τ : Topo} {sig : RefSig} {Val : EltTy → Type} (A B : List (HloOp τ sig Val)) (W : Valuation τ sig Val) :
    after (A ++ B) W = after B (after A W) := by
  induction A generalizing W with
  | nil => rfl
  | cons a A ih => exact ih _

/-- A rank-3 array [n0, n1, n2] padded to [n0, n1, n3] on the right of its last axis, read at (a, b, c) with c < n2, is the
    operand at (a, b, c). -/
theorem pad_last3_apply {α : Type} {n0 n1 n2 n3 hi : ℕ} {u : Shape} (x : (⟨3, ![n0, n1, n2]⟩ : Shape).Idx → α) (v : u.Idx → α)
    (h : (⟨3, ![n0, n1, n2]⟩ : Shape).Pads ![0, 0, 0] ![0, 0, hi] ![0, 0, 0] ⟨3, ![n0, n1, n3]⟩) (hu : 0 < u.numel)
    (a : Fin n0) (b : Fin n1) (c : Fin n3) (hc : c.val < n2) :
    pad ⟨3, ![n0, n1, n3]⟩ ![0, 0, 0] ![0, 0, hi] ![0, 0, 0] x v h hu (ix3 a b c) = x (ix3 a b ⟨c.val, hc⟩) := by
  have ha := a.isLt; have hb := b.isLt
  have hin : ∀ d : Fin (⟨3, ![n0, n1, n2]⟩ : Shape).rank, (![0, 0, 0] : Fin 3 → ℕ) d ≤ ((ix3 a b c) (d.cast h.1)).val
      ∧ (((ix3 a b c) (d.cast h.1)).val - (![0, 0, 0] : Fin 3 → ℕ) d) % ((![0, 0, 0] : Fin 3 → ℕ) d + 1) = 0
      ∧ (((ix3 a b c) (d.cast h.1)).val - (![0, 0, 0] : Fin 3 → ℕ) d) / ((![0, 0, 0] : Fin 3 → ℕ) d + 1) < (⟨3, ![n0, n1, n2]⟩ : Shape).size d := by
    intro d
    match d with
    | ⟨0, _⟩ => exact ⟨Nat.zero_le _, by show (a.val - 0) % (0 + 1) = 0; omega, by show (a.val - 0) / (0 + 1) < n0; omega⟩
    | ⟨1, _⟩ => exact ⟨Nat.zero_le _, by show (b.val - 0) % (0 + 1) = 0; omega, by show (b.val - 0) / (0 + 1) < n1; omega⟩
    | ⟨2, _⟩ => exact ⟨Nat.zero_le _, by show (c.val - 0) % (0 + 1) = 0; omega, by show (c.val - 0) / (0 + 1) < n2; omega⟩
  unfold pad
  rw [dif_pos hin]
  refine congrArg x (funext fun d => Fin.ext ?_)
  match d with
  | ⟨0, _⟩ => show (a.val - 0) / (0 + 1) = a.val; omega
  | ⟨1, _⟩ => show (b.val - 0) / (0 + 1) = b.val; omega
  | ⟨2, _⟩ => show (c.val - 0) / (0 + 1) = c.val; omega

end Cert.PadSplit

end
-- ==== Proof.RefRunOps.lean ====
/-
  The reference program as a list of host operations, cut by rounds.

  The program is one reshape of the index array followed by five rounds of the same 35 operations over different buffers. Each
  round is cut in three stretches: the 4 operations before the selection, the 24 operations of the selection (the called
  function's, with the select of the function it calls in its place), and the 7 operations after it.
-/
import proofs.«171374_g11879879543385_cont_main2_343_2_alg».proof.ReferenceIdeal
import proofs.«171374_g11879879543385_cont_main2_343_2_alg».proof.Proof.Gen.ReferenceIdeal
import Idealize.ShloMosaic.Lib.StableHlo.Run
import Idealize.ShloMosaic.PureOps.Ideal

noncomputable section

namespace Cert.ReferenceIdeal.RefRun

open Idealize.ShloMosaic Idealize.ShloMosaic.TcCoe Idealize.SL.Sem Idealize.ShloMosaic.StableHlo Cert.ReferenceIdeal
open Cert.ReferenceIdeal.Facts₀ Cert.ReferenceIdeal.Facts

variable [Cert.ReferenceIdeal.Facts]

/-- The reshape of the index array [4, 32, 1] to [4, 32]. -/
def pre : List (HloOp τ sig (Elt Ideal)) :=
  [ reshape main_arg1 main_v0 rfl shapeCasts_S4x32x1_S4x32 ]

/-- Round 1, before the selection: the batch axis moved last, then the product with a splat of ones. -/
def rA0 : List (HloOp τ sig (Elt Ideal)) :=
  [ unary main_arg0 main_v1 ((transpose S32x256x128x4 [1, 2, 3, 0] · transposes_S4x32x256x128_S32x256x128x4_1_2_3_0) : FVec Ideal S4x32x256x128 .f32 → FVec Ideal S32x256x128x4 .f32),
    nullary main_cst (constant (F := Ideal) S_ .f32 0x3F800000#32),
    unary main_cst main_v2 (broadcastInDim S32x256x128x4 ![] bcast_S_S32x256x128x4 : FVec Ideal S_ .f32 → FVec Ideal S32x256x128x4 .f32),
    binary main_v1 main_v2 main_v3 (mulf (F := Ideal) : FVec Ideal S32x256x128x4 .f32 → FVec Ideal S32x256x128x4 .f32 → FVec Ideal S32x256x128x4 .f32) ]

/-- Round 1, the selection of source rows: the called function's operations in order, over this call's buffers. -/
def rT0 : List (HloOp τ sig (Elt Ideal)) :=
  [ TRef.nullary main_call0.c (constantI S_ 32 0#32),
    TRef.unary main_call0.c main_call0.v0 (broadcastInDim S4x32 ![] bcast_S_S4x32),
    TRef.binary (.of main_v0) main_call0.v0 main_call0.v1 (cmpi .slt),
    TRef.nullary main_call0.c_0 (constantI S_ 32 32#32),
    TRef.unary main_call0.c_0 main_call0.v2 (broadcastInDim S4x32 ![] bcast_S_S4x32),
    TRef.binary (.of main_v0) main_call0.v2 main_call0.v3 addi,
    TRef.ternary main_call0.v1 main_call0.v3 (.of main_v0) main_call0.call0.v0 select,
    TRef.unary main_call0.call0.v0 main_call0.v5 (broadcastInDim S4x32x1 ![0, 1] bcast_S4x32_S4x32x1_0_1),
    TRef.nullary main_call0.c_1 (constantI S1 32 31#32),
    TRef.nullary main_call0.c_2 (constantI S_ 32 0#32),
    TRef.unary main_call0.c_2 main_call0.v6 (broadcastInDim S4x32x1 ![] bcast_S_S4x32x1),
    TRef.binary main_call0.v5 main_call0.v6 main_call0.v7 (cmpi .sge),
    TRef.unary main_call0.c_1 main_call0.v8 (broadcastInDim S1x1x1 ![2] bcast_S1_S1x1x1_2),
    TRef.unary main_call0.v8 main_call0.v9 (broadcastInDim S4x32x1 ![0, 1, 2] bcast_S1x1x1_S4x32x1_0_1_2),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S4x32x1_S4x32_d2 h_S_),
    TRef.binary (.of main_v3) main_call0.v5 main_call0.v13 (fun x i => Host.gather gather_S32x256x128x4_S4x32x1_S4x32x256x128x4_234_0_n_n_0_2_12561284 x i),
    TRef.unary main_call0.v12 main_call0.v14 (broadcastInDim S4x32x256x128x4 ![0, 1] bcast_S4x32_S4x32x256x128x4_0_1),
    TRef.nullary main_call0.cst (constant (F := Ideal) S_ .f32 0x7FC00000#32),
    TRef.unary main_call0.cst main_call0.v15 (broadcastInDim S4x32x256x128x4 ![] bcast_S_S4x32x256x128x4),
    TRef.ternary main_call0.v14 main_call0.v13 main_call0.v15 main_call0.v16 select ]

/-- Round 1, after the selection: the product with the broadcast weights, the sum over the taps from zero, the batch axis
    moved back in front, the product with the broadcast factor. -/
def rB0 : List (HloOp τ sig (Elt Ideal)) :=
  [ unary main_arg2 main_v5 (broadcastInDim S4x32x256x128x4 ![0, 1, 2, 3, 4] bcast_S4x1x1x1x1_S4x32x256x128x4_0_1_2_3_4 : FVec Ideal S4x1x1x1x1 .f32 → FVec Ideal S4x32x256x128x4 .f32),
    binary main_v4 main_v5 main_v6 (mulf (F := Ideal) : FVec Ideal S4x32x256x128x4 .f32 → FVec Ideal S4x32x256x128x4 .f32 → FVec Ideal S4x32x256x128x4 .f32),
    nullary main_cst_0 (constant (F := Ideal) S_ .f32 0x00000000#32),
    binary main_v6 main_cst_0 main_v7 ((fun x v => Host.reduceAdd (F := Ideal) x v reducesTo_S4x32x256x128x4_S32x256x128x4_d0 h_S_) : FVec Ideal S4x32x256x128x4 .f32 → FVec Ideal S_ .f32 → FVec Ideal S32x256x128x4 .f32),
    unary main_v7 main_v8 ((transpose S4x32x256x128 [3, 0, 1, 2] · transposes_S32x256x128x4_S4x32x256x128_3_0_1_2) : FVec Ideal S32x256x128x4 .f32 → FVec Ideal S4x32x256x128 .f32),
    unary main_arg3 main_v9 (broadcastInDim S4x32x256x128 ![] bcast_S_S4x32x256x128 : FVec Ideal S_ .f32 → FVec Ideal S4x32x256x128 .f32),
    binary main_v9 main_v8 main_v10 (mulf (F := Ideal) : FVec Ideal S4x32x256x128 .f32 → FVec Ideal S4x32x256x128 .f32 → FVec Ideal S4x32x256x128 .f32) ]

/-- Round 2, before the selection: the batch axis moved last, then the product with a splat of ones. -/
def rA1 : List (HloOp τ sig (Elt Ideal)) :=
  [ unary main_v10 main_v11 ((transpose S32x256x128x4 [1, 2, 3, 0] · transposes_S4x32x256x128_S32x256x128x4_1_2_3_0) : FVec Ideal S4x32x256x128 .f32 → FVec Ideal S32x256x128x4 .f32),
    nullary main_cst_1 (constant (F := Ideal) S_ .f32 0x3F800000#32),
    unary main_cst_1 main_v12 (broadcastInDim S32x256x128x4 ![] bcast_S_S32x256x128x4 : FVec Ideal S_ .f32 → FVec Ideal S32x256x128x4 .f32),
    binary main_v11 main_v12 main_v13 (mulf (F := Ideal) : FVec Ideal S32x256x128x4 .f32 → FVec Ideal S32x256x128x4 .f32 → FVec Ideal S32x256x128x4 .f32) ]

/-- Round 2, the selection of source rows: the called function's operations in order, over this call's buffers. -/
def rT1 : List (HloOp τ sig (Elt Ideal)) :=
  [ TRef.nullary main_call1.c (constantI S_ 32 0#32),
    TRef.unary main_call1.c main_call1.v0 (broadcastInDim S4x32 ![] bcast_S_S4x32),
    TRef.binary (.of main_v0) main_call1.v0 main_call1.v1 (cmpi .slt),
    TRef.nullary main_call1.c_0 (constantI S_ 32 32#32),
    TRef.unary main_call1.c_0 main_call1.v2 (broadcastInDim S4x32 ![] bcast_S_S4x32),
    TRef.binary (.of main_v0) main_call1.v2 main_call1.v3 addi,
    TRef.ternary main_call1.v1 main_call1.v3 (.of main_v0) main_call1.call0.v0 select,
    TRef.unary main_call1.call0.v0 main_call1.v5 (broadcastInDim S4x32x1 ![0, 1] bcast_S4x32_S4x32x1_0_1),
    TRef.nullary main_call1.c_1 (constantI S1 32 31#32),
    TRef.nullary main_call1.c_2 (constantI S_ 32 0#32),
    TRef.unary main_call1.c_2 main_call1.v6 (broadcastInDim S4x32x1 ![] bcast_S_S4x32x1),
    TRef.binary main_call1.v5 main_call1.v6 main_call1.v7 (cmpi .sge),
    TRef.unary main_call1.c_1 main_call1.v8 (broadcastInDim S1x1x1 ![2] bcast_S1_S1x1x1_2),
    TRef.unary main_call1.v8 main_call1.v9 (broadcastInDim S4x32x1 ![0, 1, 2] bcast_S1x1x1_S4x32x1_0_1_2),
    TRef.binary main_call1.v5 main_call1.v9 main_call1.v10 (cmpi .sle),
    TRef.binary main_call1.v7 main_call1.v10 main_call1.v11 andi,
    TRef.nullary main_call1.c_3 (constantI S_ 1 1#1),
    TRef.binary main_call1.v11 main_call1.c_3 main_call1.v12 (fun x v => Host.reduce IntOp.andi x v reducesTo_S4x32x1_S4x32_d2 h_S_),
    TRef.binary (.of main_v13) main_call1.v5 main_call1.v13 (fun x i => Host.gather gather_S32x256x128x4_S4x32x1_S4x32x256x128x4_234_0_n_n_0_2_12561284 x i),
    TRef.unary main_call1.v12 main_call1.v14 (broadcastInDim S4x32x256x128x4 ![0, 1] bcast_S4x32_S4x32x256x128x4_0_1),
    TRef.nullary main_call1.cst (constant (F := Ideal) S_ .f32 0x7FC00000#32),
    TRef.unary main_call1.cst main_call1.v15 (broadcastInDim S4x32x256x128x4 ![] bcast_S_S4x32x256x128x4),
    TRef.ternary main_call1.v14 main_call1.v13 main_call1.v15 main_call1.v16 select ]

/-- Round 2, after the selection: the product with the broadcast weights, the sum over the taps from zero, the batch axis
    moved back in front, the product with the broadcast factor. -/
def rB1 : List (HloOp τ sig (Elt Ideal)) :=
  [ unary main_arg2 main_v15 (broadcastInDim S4x32x256x128x4 ![0, 1, 2, 3, 4] bcast_S4x1x1x1x1_S4x32x256x128x4_0_1_2_3_4 : FVec Ideal S4x1x1x1x1 .f32 → FVec Ideal S4x32x256x128x4 .f32),
    binary main_v14 main_v15 main_v16 (mulf (F := Ideal) : FVec Ideal S4x32x256x128x4 .f32 → FVec Ideal S4x32x256x128x4 .f32 → FVec Ideal S4x32x256x128x4 .f32),
    nullary main_cst_2 (constant (F := Ideal) S_ .f32 0x00000000#32),
    binary main_v16 main_cst_2 main_v17 ((fun x v => Host.reduceAdd (F := Ideal) x v reducesTo_S4x32x256x128x4_S32x256x128x4_d0 h_S_) : FVec Ideal S4x32x256x128x4 .f32 → FVec Ideal S_ .f32 → FVec Ideal S32x256x128x4 .f32),
    unary main_v17 main_v18 ((transpose S4x32x256x128 [3, 0, 1, 2] · transposes_S32x256x128x4_S4x32x256x128_3_0_1_2) : FVec Ideal S32x256x128x4 .f32 → FVec Ideal S4x32x256x128 .f32),
    unary main_arg3 main_v19 (broadcastInDim S4x32x256x128 ![] bcast_S_S4x32x256x128 : FVec Ideal S_ .f32 → FVec Ideal S4x32x256x128 .f32),
    binary main_v19 main_v18 main_v20 (mulf (F := Ideal) : FVec Ideal S4x32x256x128 .f32 → FVec Ideal S4x32x256x128 .f32 → FVec Ideal S4x32x256x128 .f32) ]

/-- Round 3, before the selection: the batch axis moved last, then the product with a splat of ones. -/
def rA2 : List (HloOp τ sig (Elt Ideal)) :=
  [ unary main_v20 main_v21 ((transpose S32x256x128x4 [1, 2, 3, 0] · transposes_S4x32x256x128_S32x256x128x4_1_2_3_0) : FVec Ideal S4x32x256x128 .f32 → FVec Ideal S32x256x128x4 .f32),
    nullary main_cst_3 (constant (F := Ideal) S_ .f32 0x3F800000#32),
    unary main_cst_3 main_v22 (broadcastInDim S32x256x128x4 ![] bcast_S_S32x256x128x4 : FVec Ideal S_ .f32 → FVec Ideal S32x256x128x4 .f32),
    binary main_v21 main_v22 main_v23 (mulf (F := Ideal) : FVec Ideal S32x256x128x4 .f32 → FVec Ideal S32x256x128x4 .f32 → FVec Ideal S32x256x128x4 .f32) ]

/-- Round 3, the selection of source rows: the called function's operations in order, over this call's buffers. -/
def rT2 : List (HloOp τ sig (Elt Ideal)) :=
  [ TRef.nullary main_call2.c (constantI S_ 32 0#32),
    TRef.unary main_call2.c main_call2.v0 (broadcastInDim S4x32 ![] bcast_S_S4x32),
    TRef.binary (.of main_v0) main_call2.v0 main_call2.v1 (cmpi .slt),
    TRef.nullary main_call2.c_0 (constantI S_ 32 32#32),
    TRef.unary main_call2.c_0 main_call2.v2 (broadcastInDim S4x32 ![] bcast_S_S4x32),
    TRef.binary (.of main_v0) main_call2.v2 main_call2.v3 addi,
    TRef.ternary main_call2.v1 main_call2.v3 (.of main_v0) main_call2.call0.v0 select,
    TRef.unary main_call2.call0.v0 main_call2.v5 (broadcastInDim S4x32x1 ![0, 1] bcast_S4x32_S4x32x1_0_1),
    TRef.nullary main_call2.c_1 (constantI S1 32 31#32),
    TRef.nullary main_call2.c_2 (constantI S_ 32 0#32),
    TRef.unary main_call2.c_2 main_call2.v6 (broadcastInDim S4x32x1 ![] bcast_S_S4x32x1),
    TRef.binary main_call2.v5 main_call2.v6 main_call2.v7 (cmpi .sge),
    TRef.unary main_call2.c_1 main_call2.v8 (broadcastInDim S1x1x1 ![2] bcast_S1_S1x1x1_2),
    TRef.unary main_call2.v8 main_call2.v9 (broadcastInDim S4x32x1 ![0, 1, 2] bcast_S1x1x1_S4x32x1_0_1_2),
    TRef.binary main_call2.v5 main_call2.v9 main_call2.v10 (cmpi .sle),
    TRef.binary main_call2.v7 main_call2.v10 main_call2.v11 andi,
    TRef.nullary main_call2.c_3 (constantI S_ 1 1#1),
    TRef.binary main_call2.v11 main_call2.c_3 main_call2.v12 (fun x v => Host.reduce IntOp.andi x v reducesTo_S4x32x1_S4x32_d2 h_S_),
    TRef.binary (.of main_v23) main_call2.v5 main_call2.v13 (fun x i => Host.gather gather_S32x256x128x4_S4x32x1_S4x32x256x128x4_234_0_n_n_0_2_12561284 x i),
    TRef.unary main_call2.v12 main_call2.v14 (broadcastInDim S4x32x256x128x4 ![0, 1] bcast_S4x32_S4x32x256x128x4_0_1),
    TRef.nullary main_call2.cst (constant (F := Ideal) S_ .f32 0x7FC00000#32),
    TRef.unary main_call2.cst main_call2.v15 (broadcastInDim S4x32x256x128x4 ![] bcast_S_S4x32x256x128x4),
    TRef.ternary main_call2.v14 main_call2.v13 main_call2.v15 main_call2.v16 select ]

/-- Round 3, after the selection: the product with the broadcast weights, the sum over the taps from zero, the batch axis
    moved back in front, the product with the broadcast factor. -/
def rB2 : List (HloOp τ sig (Elt Ideal)) :=
  [ unary main_arg2 main_v25 (broadcastInDim S4x32x256x128x4 ![0, 1, 2, 3, 4] bcast_S4x1x1x1x1_S4x32x256x128x4_0_1_2_3_4 : FVec Ideal S4x1x1x1x1 .f32 → FVec Ideal S4x32x256x128x4 .f32),
    binary main_v24 main_v25 main_v26 (mulf (F := Ideal) : FVec Ideal S4x32x256x128x4 .f32 → FVec Ideal S4x32x256x128x4 .f32 → FVec Ideal S4x32x256x128x4 .f32),
    nullary main_cst_4 (constant (F := Ideal) S_ .f32 0x00000000#32),
    binary main_v26 main_cst_4 main_v27 ((fun x v => Host.reduceAdd (F := Ideal) x v reducesTo_S4x32x256x128x4_S32x256x128x4_d0 h_S_) : FVec Ideal S4x32x256x128x4 .f32 → FVec Ideal S_ .f32 → FVec Ideal S32x256x128x4 .f32),
    unary main_v27 main_v28 ((transpose S4x32x256x128 [3, 0, 1, 2] · transposes_S32x256x128x4_S4x32x256x128_3_0_1_2) : FVec Ideal S32x256x128x4 .f32 → FVec Ideal S4x32x256x128 .f32),
    unary main_arg3 main_v29 (broadcastInDim S4x32x256x128 ![] bcast_S_S4x32x256x128 : FVec Ideal S_ .f32 → FVec Ideal S4x32x256x128 .f32),
    binary main_v29 main_v28 main_v30 (mulf (F := Ideal) : FVec Ideal S4x32x256x128 .f32 → FVec Ideal S4x32x256x128 .f32 → FVec Ideal S4x32x256x128 .f32) ]

/-- Round 4, before the selection: the batch axis moved last, then the product with a splat of ones. -/
def rA3 : List (HloOp τ sig (Elt Ideal)) :=
  [ unary main_v30 main_v31 ((transpose S32x256x128x4 [1, 2, 3, 0] · transposes_S4x32x256x128_S32x256x128x4_1_2_3_0) : FVec Ideal S4x32x256x128 .f32 → FVec Ideal S32x256x128x4 .f32),
    nullary main_cst_5 (constant (F := Ideal) S_ .f32 0x3F800000#32),
    unary main_cst_5 main_v32 (broadcastInDim S32x256x128x4 ![] bcast_S_S32x256x128x4 : FVec Ideal S_ .f32 → FVec Ideal S32x256x128x4 .f32),
    binary main_v31 main_v32 main_v33 (mulf (F := Ideal) : FVec Ideal S32x256x128x4 .f32 → FVec Ideal S32x256x128x4 .f32 → FVec Ideal S32x256x128x4 .f32) ]

/-- Round 4, the selection of source rows: the called function's operations in order, over this call's buffers. -/
def rT3 : List (HloOp τ sig (Elt Ideal)) :=
  [ TRef.nullary main_call3.c (constantI S_ 32 0#32),
    TRef.unary main_call3.c main_call3.v0 (broadcastInDim S4x32 ![] bcast_S_S4x32),
    TRef.binary (.of main_v0) main_call3.v0 main_call3.v1 (cmpi .slt),
    TRef.nullary main_call3.c_0 (constantI S_ 32 32#32),
    TRef.unary main_call3.c_0 main_call3.v2 (broadcastInDim S4x32 ![] bcast_S_S4x32),
    TRef.binary (.of main_v0) main_call3.v2 main_call3.v3 addi,
    TRef.ternary main_call3.v1 main_call3.v3 (.of main_v0) main_call3.call0.v0 select,
    TRef.unary main_call3.call0.v0 main_call3.v5 (broadcastInDim S4x32x1 ![0, 1] bcast_S4x32_S4x32x1_0_1),
    TRef.nullary main_call3.c_1 (constantI S1 32 31#32),
    TRef.nullary main_call3.c_2 (constantI S_ 32 0#32),
    TRef.unary main_call3.c_2 main_call3.v6 (broadcastInDim S4x32x1 ![] bcast_S_S4x32x1),
    TRef.binary main_call3.v5 main_call3.v6 main_call3.v7 (cmpi .sge),
    TRef.unary main_call3.c_1 main_call3.v8 (broadcastInDim S1x1x1 ![2] bcast_S1_S1x1x1_2),
    TRef.unary main_call3.v8 main_call3.v9 (broadcastInDim S4x32x1 ![0, 1, 2] bcast_S1x1x1_S4x32x1_0_1_2),
    TRef.binary main_call3.v5 main_call3.v9 main_call3.v10 (cmpi .sle),
    TRef.binary main_call3.v7 main_call3.v10 main_call3.v11 andi,
    TRef.nullary main_call3.c_3 (constantI S_ 1 1#1),
    TRef.binary main_call3.v11 main_call3.c_3 main_call3.v12 (fun x v => Host.reduce IntOp.andi x v reducesTo_S4x32x1_S4x32_d2 h_S_),
    TRef.binary (.of main_v33) main_call3.v5 main_call3.v13 (fun x i => Host.gather gather_S32x256x128x4_S4x32x1_S4x32x256x128x4_234_0_n_n_0_2_12561284 x i),
    TRef.unary main_call3.v12 main_call3.v14 (broadcastInDim S4x32x256x128x4 ![0, 1] bcast_S4x32_S4x32x256x128x4_0_1),
    TRef.nullary main_call3.cst (constant (F := Ideal) S_ .f32 0x7FC00000#32),
    TRef.unary main_call3.cst main_call3.v15 (broadcastInDim S4x32x256x128x4 ![] bcast_S_S4x32x256x128x4),
    TRef.ternary main_call3.v14 main_call3.v13 main_call3.v15 main_call3.v16 select ]

/-- Round 4, after the selection: the product with the broadcast weights, the sum over the taps from zero, the batch axis
    moved back in front, the product with the broadcast factor. -/
def rB3 : List (HloOp τ sig (Elt Ideal)) :=
  [ unary main_arg2 main_v35 (broadcastInDim S4x32x256x128x4 ![0, 1, 2, 3, 4] bcast_S4x1x1x1x1_S4x32x256x128x4_0_1_2_3_4 : FVec Ideal S4x1x1x1x1 .f32 → FVec Ideal S4x32x256x128x4 .f32),
    binary main_v34 main_v35 main_v36 (mulf (F := Ideal) : FVec Ideal S4x32x256x128x4 .f32 → FVec Ideal S4x32x256x128x4 .f32 → FVec Ideal S4x32x256x128x4 .f32),
    nullary main_cst_6 (constant (F := Ideal) S_ .f32 0x00000000#32),
    binary main_v36 main_cst_6 main_v37 ((fun x v => Host.reduceAdd (F := Ideal) x v reducesTo_S4x32x256x128x4_S32x256x128x4_d0 h_S_) : FVec Ideal S4x32x256x128x4 .f32 → FVec Ideal S_ .f32 → FVec Ideal S32x256x128x4 .f32),
    unary main_v37 main_v38 ((transpose S4x32x256x128 [3, 0, 1, 2] · transposes_S32x256x128x4_S4x32x256x128_3_0_1_2) : FVec Ideal S32x256x128x4 .f32 → FVec Ideal S4x32x256x128 .f32),
    unary main_arg3 main_v39 (broadcastInDim S4x32x256x128 ![] bcast_S_S4x32x256x128 : FVec Ideal S_ .f32 → FVec Ideal S4x32x256x128 .f32),
    binary main_v39 main_v38 main_v40 (mulf (F := Ideal) : FVec Ideal S4x32x256x128 .f32 → FVec Ideal S4x32x256x128 .f32 → FVec Ideal S4x32x256x128 .f32) ]

/-- Round 5, before the selection: the batch axis moved last, then the product with a splat of ones. -/
def rA4 : List (HloOp τ sig (Elt Ideal)) :=
  [ unary main_v40 main_v41 ((transpose S32x256x128x4 [1, 2, 3, 0] · transposes_S4x32x256x128_S32x256x128x4_1_2_3_0) : FVec Ideal S4x32x256x128 .f32 → FVec Ideal S32x256x128x4 .f32),
    nullary main_cst_7 (constant (F := Ideal) S_ .f32 0x3F800000#32),
    unary main_cst_7 main_v42 (broadcastInDim S32x256x128x4 ![] bcast_S_S32x256x128x4 : FVec Ideal S_ .f32 → FVec Ideal S32x256x128x4 .f32),
    binary main_v41 main_v42 main_v43 (mulf (F := Ideal) : FVec Ideal S32x256x128x4 .f32 → FVec Ideal S32x256x128x4 .f32 → FVec Ideal S32x256x128x4 .f32) ]

/-- Round 5, the selection of source rows: the called function's operations in order, over this call's buffers. -/
def rT4 : List (HloOp τ sig (Elt Ideal)) :=
  [ TRef.nullary main_call4.c (constantI S_ 32 0#32),
    TRef.unary main_call4.c main_call4.v0 (broadcastInDim S4x32 ![] bcast_S_S4x32),
    TRef.binary (.of main_v0) main_call4.v0 main_call4.v1 (cmpi .slt),
    TRef.nullary main_call4.c_0 (constantI S_ 32 32#32),
    TRef.unary main_call4.c_0 main_call4.v2 (broadcastInDim S4x32 ![] bcast_S_S4x32),
    TRef.binary (.of main_v0) main_call4.v2 main_call4.v3 addi,
    TRef.ternary main_call4.v1 main_call4.v3 (.of main_v0) main_call4.call0.v0 select,
    TRef.unary main_call4.call0.v0 main_call4.v5 (broadcastInDim S4x32x1 ![0, 1] bcast_S4x32_S4x32x1_0_1),
    TRef.nullary main_call4.c_1 (constantI S1 32 31#32),
    TRef.nullary main_call4.c_2 (constantI S_ 32 0#32),
    TRef.unary main_call4.c_2 main_call4.v6 (broadcastInDim S4x32x1 ![] bcast_S_S4x32x1),
    TRef.binary main_call4.v5 main_call4.v6 main_call4.v7 (cmpi .sge),
    TRef.unary main_call4.c_1 main_call4.v8 (broadcastInDim S1x1x1 ![2] bcast_S1_S1x1x1_2),
    TRef.unary main_call4.v8 main_call4.v9 (broadcastInDim S4x32x1 ![0, 1, 2] bcast_S1x1x1_S4x32x1_0_1_2),
    TRef.binary main_call4.v5 main_call4.v9 main_call4.v10 (cmpi .sle),
    TRef.binary main_call4.v7 main_call4.v10 main_call4.v11 andi,
    TRef.nullary main_call4.c_3 (constantI S_ 1 1#1),
    TRef.binary main_call4.v11 main_call4.c_3 main_call4.v12 (fun x v => Host.reduce IntOp.andi x v reducesTo_S4x32x1_S4x32_d2 h_S_),
    TRef.binary (.of main_v43) main_call4.v5 main_call4.v13 (fun x i => Host.gather gather_S32x256x128x4_S4x32x1_S4x32x256x128x4_234_0_n_n_0_2_12561284 x i),
    TRef.unary main_call4.v12 main_call4.v14 (broadcastInDim S4x32x256x128x4 ![0, 1] bcast_S4x32_S4x32x256x128x4_0_1),
    TRef.nullary main_call4.cst (constant (F := Ideal) S_ .f32 0x7FC00000#32),
    TRef.unary main_call4.cst main_call4.v15 (broadcastInDim S4x32x256x128x4 ![] bcast_S_S4x32x256x128x4),
    TRef.ternary main_call4.v14 main_call4.v13 main_call4.v15 main_call4.v16 select ]

/-- Round 5, after the selection: the product with the broadcast weights, the sum over the taps from zero, the batch axis
    moved back in front, the product with the broadcast factor. -/
def rB4 : List (HloOp τ sig (Elt Ideal)) :=
  [ unary main_arg2 main_v45 (broadcastInDim S4x32x256x128x4 ![0, 1, 2, 3, 4] bcast_S4x1x1x1x1_S4x32x256x128x4_0_1_2_3_4 : FVec Ideal S4x1x1x1x1 .f32 → FVec Ideal S4x32x256x128x4 .f32),
    binary main_v44 main_v45 main_v46 (mulf (F := Ideal) : FVec Ideal S4x32x256x128x4 .f32 → FVec Ideal S4x32x256x128x4 .f32 → FVec Ideal S4x32x256x128x4 .f32),
    nullary main_cst_8 (constant (F := Ideal) S_ .f32 0x00000000#32),
    binary main_v46 main_cst_8 main_v47 ((fun x v => Host.reduceAdd (F := Ideal) x v reducesTo_S4x32x256x128x4_S32x256x128x4_d0 h_S_) : FVec Ideal S4x32x256x128x4 .f32 → FVec Ideal S_ .f32 → FVec Ideal S32x256x128x4 .f32),
    unary main_v47 main_v48 ((transpose S4x32x256x128 [3, 0, 1, 2] · transposes_S32x256x128x4_S4x32x256x128_3_0_1_2) : FVec Ideal S32x256x128x4 .f32 → FVec Ideal S4x32x256x128 .f32),
    unary main_arg3 main_v49 (broadcastInDim S4x32x256x128 ![] bcast_S_S4x32x256x128 : FVec Ideal S_ .f32 → FVec Ideal S4x32x256x128 .f32),
    binary main_v49 main_v48 main_v50 (mulf (F := Ideal) : FVec Ideal S4x32x256x128 .f32 → FVec Ideal S4x32x256x128 .f32 → FVec Ideal S4x32x256x128 .f32) ]

/-- Round 1: its three stretches one after the other. -/
def R0 : List (HloOp τ sig (Elt Ideal)) := rA0 ++ (rT0 ++ rB0)
/-- Round 2: its three stretches one after the other. -/
def R1 : List (HloOp τ sig (Elt Ideal)) := rA1 ++ (rT1 ++ rB1)
/-- Round 3: its three stretches one after the other. -/
def R2 : List (HloOp τ sig (Elt Ideal)) := rA2 ++ (rT2 ++ rB2)
/-- Round 4: its three stretches one after the other. -/
def R3 : List (HloOp τ sig (Elt Ideal)) := rA3 ++ (rT3 ++ rB3)
/-- Round 5: its three stretches one after the other. -/
def R4 : List (HloOp τ sig (Elt Ideal)) := rA4 ++ (rT4 ++ rB4)

/-- The whole program: the reshape, then the five rounds. -/
def ops : List (HloOp τ sig (Elt Ideal)) := pre ++ (R0 ++ (R1 ++ (R2 ++ (R3 ++ R4))))

end Cert.ReferenceIdeal.RefRun

end
-- ==== Proof.RefRunMain.lean ====
/-
  The reference program IS the line of host operations: its two windows and the called functions unfolded at their calls, the
  sequencing re-associated, give the list `ops` run in order.
-/
import proofs.«171374_g11879879543385_cont_main2_343_2_alg».proof.Proof.RefRunOps

noncomputable section

namespace Cert.ReferenceIdeal.RefRun

open Idealize.ShloMosaic Idealize.ShloMosaic.TcCoe Idealize.SL.Sem Idealize.ShloMosaic.StableHlo Cert.ReferenceIdeal
open Cert.ReferenceIdeal.Facts₀ Cert.ReferenceIdeal.Facts

variable [Cert.ReferenceIdeal.Facts]

set_option maxRecDepth 65536 in
set_option maxHeartbeats 4000000 in
/-- The program is the straight line `ops`: the definitions of the windows and of the two called functions unfolded, both sides are
    one chain of host steps once the sequencing is re-associated. -/
theorem main_eq (c : Dev nD) : main (F := Ideal) c = seq ops := by
  simp only [main, main_part0, main_part1, fn_take.body, fn_where.body, bind_assoc, pure_bind]
  rfl

theorem scopedRefs_eq : (Finset.univ.filter fun b : Ref sig .tc => b.isScoped) = ∅ := by decide
theorem scopedSems_eq : (Finset.univ.filter fun sm : SemLoc sig => sm.isScoped .tc) = ∅ := by decide

end Cert.ReferenceIdeal.RefRun

end
-- ==== Proof.RefRunR0.lean ====
/-
  Round 1 of the reference read back: from any contents of the buffers, the 35 operations of the round leave the round's term
  of the data buffer, the index buffer, the weights and the factor in the round's result buffer, and leave the index buffer and
  the four argument buffers as they were.
-/
import proofs.«171374_g11879879543385_cont_main2_343_2_alg».proof.Proof.RefRunOps
import proofs.«171374_g11879879543385_cont_main2_343_2_alg».proof.Proof.RefTerm
import proofs.«171374_g11879879543385_cont_main2_343_2_alg».proof.Proof.LibTypedRef
import proofs.«171374_g11879879543385_cont_main2_343_2_alg».proof.Proof.LibPadSplit

noncomputable section

namespace Cert.ReferenceIdeal.RefRun

open Idealize.ShloMosaic Idealize.ShloMosaic.TcCoe Idealize.SL.Sem Idealize.ShloMosaic.StableHlo Cert.ReferenceIdeal
open Cert.ReferenceIdeal.Facts₀ Cert.ReferenceIdeal.Facts Cert.ReferenceIdeal.RefTerm

variable [Cert.ReferenceIdeal.Facts]

/-! ## What no operation of a stretch writes keeps its contents -/

theorem rA0_main_v0 (W : Valuation τ sig (Elt Ideal)) : after rA0 W (main_v0 : DevRef τ sig) = W (main_v0 : DevRef τ sig) := by
  simp only [rA0]; after_results_simp
theorem rA0_main_arg0 (W : Valuation τ sig (Elt Ideal)) : after rA0 W (main_arg0 : DevRef τ sig) = W (main_arg0 : DevRef τ sig) := by
  simp only [rA0]; after_results_simp
theorem rA0_main_arg1 (W : Valuation τ sig (Elt Ideal)) : after rA0 W (main_arg1 : DevRef τ sig) = W (main_arg1 : DevRef τ sig) := by
  simp only [rA0]; after_results_simp
theorem rA0_main_arg2 (W : Valuation τ sig (Elt Ideal)) : after rA0 W (main_arg2 : DevRef τ sig) = W (main_arg2 : DevRef τ sig) := by
  simp only [rA0]; after_results_simp
theorem rA0_main_arg3 (W : Valuation τ sig (Elt Ideal)) : after rA0 W (main_arg3 : DevRef τ sig) = W (main_arg3 : DevRef τ sig) := by
  simp only [rA0]; after_results_simp
theorem rT0_main_v0 (W : Valuation τ sig (Elt Ideal)) : after rT0 W (main_v0 : DevRef τ sig) = W (main_v0 : DevRef τ sig) := by
  simp only [rT0]; after_results_simp
theorem rT0_main_arg0 (W : Valuation τ sig (Elt Ideal)) : after rT0 W (main_arg0 : DevRef τ sig) = W (main_arg0 : DevRef τ sig) := by
  simp only [rT0]; after_results_simp
theorem rT0_main_arg1 (W : Valuation τ sig (Elt Ideal)) : after rT0 W (main_arg1 : DevRef τ sig) = W (main_arg1 : DevRef τ sig) := by
  simp only [rT0]; after_results_simp
theorem rT0_main_arg2 (W : Valuation τ sig (Elt Ideal)) : after rT0 W (main_arg2 : DevRef τ sig) = W (main_arg2 : DevRef τ sig) := by
  simp only [rT0]; after_results_simp
theorem rT0_main_arg3 (W : Valuation τ sig (Elt Ideal)) : after rT0 W (main_arg3 : DevRef τ sig) = W (main_arg3 : DevRef τ sig) := by
  simp only [rT0]; after_results_simp
theorem rB0_main_v0 (W : Valuation τ sig (Elt Ideal)) : after rB0 W (main_v0 : DevRef τ sig) = W (main_v0 : DevRef τ sig) := by
  simp only [rB0]; after_results_simp
theorem rB0_main_arg0 (W : Valuation τ sig (Elt Ideal)) : after rB0 W (main_arg0 : DevRef τ sig) = W (main_arg0 : DevRef τ sig) := by
  simp only [rB0]; after_results_simp
theorem rB0_main_arg1 (W : Valuation τ sig (Elt Ideal)) : after rB0 W (main_arg1 : DevRef τ sig) = W (main_arg1 : DevRef τ sig) := by
  simp only [rB0]; after_results_simp
theorem rB0_main_arg2 (W : Valuation τ sig (Elt Ideal)) : after rB0 W (main_arg2 : DevRef τ sig) = W (main_arg2 : DevRef τ sig) := by
  simp only [rB0]; after_results_simp
theorem rB0_main_arg3 (W : Valuation τ sig (Elt Ideal)) : after rB0 W (main_arg3 : DevRef τ sig) = W (main_arg3 : DevRef τ sig) := by
  simp only [rB0]; after_results_simp

/-! ## What each stretch computes -/

/-- Before the selection: the data with its batch axis moved last, times the splat of ones. -/
theorem rA0_out (W : Valuation τ sig (Elt Ideal)) :
    after rA0 W (main_v3 : DevRef τ sig)
      = mulf (transpose S32x256x128x4 [1, 2, 3, 0] (W (main_arg0 : DevRef τ sig)) transposes_S4x32x256x128_S32x256x128x4_1_2_3_0 : FVec Ideal S32x256x128x4 .f32)
          (broadcastInDim S32x256x128x4 ![] bcast_S_S32x256x128x4 (constant (F := Ideal) S_ .f32 0x3F800000#32)) := by
  simp only [rA0]; after_results_simp

/-- The selection: the called function's operations compose to `takeTerm` (a value carried to a buffer's type and back is the value). -/
theorem rT0_out (W : Valuation τ sig (Elt Ideal)) :
    after rT0 W (main_v4 : DevRef τ sig) = takeTerm (W (main_v3 : DevRef τ sig)) (W (main_v0 : DevRef τ sig)) := by
  simp only [rT0]
  after_results_simp
  simp only [Cert.TypedRef.ofBuf_toBuf]
  rfl

/-- After the selection: times the broadcast weights, summed over the taps from zero, the batch axis back in front, times the
    broadcast factor. -/
theorem rB0_out (W : Valuation τ sig (Elt Ideal)) :
    after rB0 W (main_v10 : DevRef τ sig)
      = mulf (broadcastInDim S4x32x256x128 ![] bcast_S_S4x32x256x128 (W (main_arg3 : DevRef τ sig)) : FVec Ideal S4x32x256x128 .f32)
          (transpose S4x32x256x128 [3, 0, 1, 2]
            (Host.reduceAdd (F := Ideal)
              (mulf (W (main_v4 : DevRef τ sig) : FVec Ideal S4x32x256x128x4 .f32)
                (broadcastInDim S4x32x256x128x4 ![0, 1, 2, 3, 4] bcast_S4x1x1x1x1_S4x32x256x128x4_0_1_2_3_4 (W (main_arg2 : DevRef τ sig))))
              (constant (F := Ideal) S_ .f32 0x00000000#32) reducesTo_S4x32x256x128x4_S32x256x128x4_d0 h_S_)
            transposes_S32x256x128x4_S4x32x256x128_3_0_1_2) := by
  simp only [rB0]; after_results_simp

/-! ## The round -/

/-- The three stretches one after the other compose to `roundTerm`. -/
theorem R0_out (W : Valuation τ sig (Elt Ideal)) :
    after R0 W (main_v10 : DevRef τ sig)
      = roundTerm (W (main_arg0 : DevRef τ sig)) (W (main_v0 : DevRef τ sig)) (W (main_arg2 : DevRef τ sig)) (W (main_arg3 : DevRef τ sig)) := by
  rw [R0, Cert.PadSplit.after_append, Cert.PadSplit.after_append, rB0_out, rT0_out, rT0_main_arg2, rT0_main_arg3,
    rA0_out, rA0_main_v0, rA0_main_arg2, rA0_main_arg3]
  rfl

theorem R0_main_v0 (W : Valuation τ sig (Elt Ideal)) : after R0 W (main_v0 : DevRef τ sig) = W (main_v0 : DevRef τ sig) := by
  rw [R0, Cert.PadSplit.after_append, Cert.PadSplit.after_append, rB0_main_v0, rT0_main_v0, rA0_main_v0]
theorem R0_main_arg0 (W : Valuation τ sig (Elt Ideal)) : after R0 W (main_arg0 : DevRef τ sig) = W (main_arg0 : DevRef τ sig) := by
  rw [R0, Cert.PadSplit.after_append, Cert.PadSplit.after_append, rB0_main_arg0, rT0_main_arg0, rA0_main_arg0]
theorem R0_main_arg1 (W : Valuation τ sig (Elt Ideal)) : after R0 W (main_arg1 : DevRef τ sig) = W (main_arg1 : DevRef τ sig) := by
  rw [R0, Cert.PadSplit.after_append, Cert.PadSplit.after_append, rB0_main_arg1, rT0_main_arg1, rA0_main_arg1]
theorem R0_main_arg2 (W : Valuation τ sig (Elt Ideal)) : after R0 W (main_arg2 : DevRef τ sig) = W (main_arg2 : DevRef τ sig) := by
  rw [R0, Cert.PadSplit.after_append, Cert.PadSplit.after_append, rB0_main_arg2, rT0_main_arg2, rA0_main_arg2]
theorem R0_main_arg3 (W : Valuation τ sig (Elt Ideal)) : after R0 W (main_arg3 : DevRef τ sig) = W (main_arg3 : DevRef τ sig) := by
  rw [R0, Cert.PadSplit.after_append, Cert.PadSplit.after_append, rB0_main_arg3, rT0_main_arg3, rA0_main_arg3]

/-! ## The side conditions of the run: TensorCore references only, and every result determined -/

theorem rA0_sub : rA0.Forall fun op => op.bufs ⊆ tcRefs τ sig := by
  simp only [rA0, List.Forall, nullary_bufs_sub, unary_bufs_sub, binary_bufs_sub, ternary_bufs_sub, and_self]
theorem rT0_sub : rT0.Forall fun op => op.bufs ⊆ tcRefs τ sig := by
  simp only [rT0, List.Forall, nullary_bufs_sub, unary_bufs_sub, binary_bufs_sub, ternary_bufs_sub, and_self]
theorem rB0_sub : rB0.Forall fun op => op.bufs ⊆ tcRefs τ sig := by
  simp only [rB0, List.Forall, nullary_bufs_sub, unary_bufs_sub, binary_bufs_sub, ternary_bufs_sub, and_self]
theorem R0_sub : R0.Forall fun op => op.bufs ⊆ tcRefs τ sig := by
  rw [R0, List.forall_append, List.forall_append]; exact ⟨rA0_sub, rT0_sub, rB0_sub⟩

theorem rA0_fresh : rA0.Forall fun op => op.fresh = ∅ := by
  simp only [rA0, List.Forall]; repeat' constructor
theorem rT0_fresh : rT0.Forall fun op => op.fresh = ∅ := by
  simp only [rT0, List.Forall]; repeat' constructor
theorem rB0_fresh : rB0.Forall fun op => op.fresh = ∅ := by
  simp only [rB0, List.Forall]; repeat' constructor
theorem R0_fresh : R0.Forall fun op => op.fresh = ∅ := by
  rw [R0, List.forall_append, List.forall_append]; exact ⟨rA0_fresh, rT0_fresh, rB0_fresh⟩

end Cert.ReferenceIdeal.RefRun

end
-- ==== Proof.RefRunR1.lean ====
/-
  Round 2 of the reference read back: from any contents of the buffers, the 35 operations of the round leave the round's term
  of the data buffer, the index buffer, the weights and the factor in the round's result buffer, and leave the index buffer and
  the four argument buffers as they were.
-/
import proofs.«171374_g11879879543385_cont_main2_343_2_alg».proof.Proof.RefRunOps
import proofs.«171374_g11879879543385_cont_main2_343_2_alg».proof.Proof.RefTerm
import proofs.«171374_g11879879543385_cont_main2_343_2_alg».proof.Proof.LibTypedRef
import proofs.«171374_g11879879543385_cont_main2_343_2_alg».proof.Proof.LibPadSplit

noncomputable section

namespace Cert.ReferenceIdeal.RefRun

open Idealize.ShloMosaic Idealize.ShloMosaic.TcCoe Idealize.SL.Sem Idealize.ShloMosaic.StableHlo Cert.ReferenceIdeal
open Cert.ReferenceIdeal.Facts₀ Cert.ReferenceIdeal.Facts Cert.ReferenceIdeal.RefTerm

variable [Cert.ReferenceIdeal.Facts]

/-! ## What no operation of a stretch writes keeps its contents -/

theorem rA1_main_v0 (W : Valuation τ sig (Elt Ideal)) : after rA1 W (main_v0 : DevRef τ sig) = W (main_v0 : DevRef τ sig) := by
  simp only [rA1]; after_results_simp
theorem rA1_main_arg0 (W : Valuation τ sig (Elt Ideal)) : after rA1 W (main_arg0 : DevRef τ sig) = W (main_arg0 : DevRef τ sig) := by
  simp only [rA1]; after_results_simp
theorem rA1_main_arg1 (W : Valuation τ sig (Elt Ideal)) : after rA1 W (main_arg1 : DevRef τ sig) = W (main_arg1 : DevRef τ sig) := by
  simp only [rA1]; after_results_simp
theorem rA1_main_arg2 (W : Valuation τ sig (Elt Ideal)) : after rA1 W (main_arg2 : DevRef τ sig) = W (main_arg2 : DevRef τ sig) := by
  simp only [rA1]; after_results_simp
theorem rA1_main_arg3 (W : Valuation τ sig (Elt Ideal)) : after rA1 W (main_arg3 : DevRef τ sig) = W (main_arg3 : DevRef τ sig) := by
  simp only [rA1]; after_results_simp
theorem rT1_main_v0 (W : Valuation τ sig (Elt Ideal)) : after rT1 W (main_v0 : DevRef τ sig) = W (main_v0 : DevRef τ sig) := by
  simp only [rT1]; after_results_simp
theorem rT1_main_arg0 (W : Valuation τ sig (Elt Ideal)) : after rT1 W (main_arg0 : DevRef τ sig) = W (main_arg0 : DevRef τ sig) := by
  simp only [rT1]; after_results_simp
theorem rT1_main_arg1 (W : Valuation τ sig (Elt Ideal)) : after rT1 W (main_arg1 : DevRef τ sig) = W (main_arg1 : DevRef τ sig) := by
  simp only [rT1]; after_results_simp
theorem rT1_main_arg2 (W : Valuation τ sig (Elt Ideal)) : after rT1 W (main_arg2 : DevRef τ sig) = W (main_arg2 : DevRef τ sig) := by
  simp only [rT1]; after_results_simp
theorem rT1_main_arg3 (W : Valuation τ sig (Elt Ideal)) : after rT1 W (main_arg3 : DevRef τ sig) = W (main_arg3 : DevRef τ sig) := by
  simp only [rT1]; after_results_simp
theorem rB1_main_v0 (W : Valuation τ sig (Elt Ideal)) : after rB1 W (main_v0 : DevRef τ sig) = W (main_v0 : DevRef τ sig) := by
  simp only [rB1]; after_results_simp
theorem rB1_main_arg0 (W : Valuation τ sig (Elt Ideal)) : after rB1 W (main_arg0 : DevRef τ sig) = W (main_arg0 : DevRef τ sig) := by
  simp only [rB1]; after_results_simp
theorem rB1_main_arg1 (W : Valuation τ sig (Elt Ideal)) : after rB1 W (main_arg1 : DevRef τ sig) = W (main_arg1 : DevRef τ sig) := by
  simp only [rB1]; after_results_simp
theorem rB1_main_arg2 (W : Valuation τ sig (Elt Ideal)) : after rB1 W (main_arg2 : DevRef τ sig) = W (main_arg2 : DevRef τ sig) := by
  simp only [rB1]; after_results_simp
theorem rB1_main_arg3 (W : Valuation τ sig (Elt Ideal)) : after rB1 W (main_arg3 : DevRef τ sig) = W (main_arg3 : DevRef τ sig) := by
  simp only [rB1]; after_results_simp

/-! ## What each stretch computes -/

/-- Before the selection: the data with its batch axis moved last, times the splat of ones. -/
theorem rA1_out (W : Valuation τ sig (Elt Ideal)) :
    after rA1 W (main_v13 : DevRef τ sig)
      = mulf (transpose S32x256x128x4 [1, 2, 3, 0] (W (main_v10 : DevRef τ sig)) transposes_S4x32x256x128_S32x256x128x4_1_2_3_0 : FVec Ideal S32x256x128x4 .f32)
          (broadcastInDim S32x256x128x4 ![] bcast_S_S32x256x128x4 (constant (F := Ideal) S_ .f32 0x3F800000#32)) := by
  simp only [rA1]; after_results_simp

/-- The selection: the called function's operations compose to `takeTerm` (a value carried to a buffer's type and back is the value). -/
theorem rT1_out (W : Valuation τ sig (Elt Ideal)) :
    after rT1 W (main_v14 : DevRef τ sig) = takeTerm (W (main_v13 : DevRef τ sig)) (W (main_v0 : DevRef τ sig)) := by
  simp only [rT1]
  after_results_simp
  simp only [Cert.TypedRef.ofBuf_toBuf]
  rfl

/-- After the selection: times the broadcast weights, summed over the taps from zero, the batch axis back in front, times the
    broadcast factor. -/
theorem rB1_out (W : Valuation τ sig (Elt Ideal)) :
    after rB1 W (main_v20 : DevRef τ sig)
      = mulf (broadcastInDim S4x32x256x128 ![] bcast_S_S4x32x256x128 (W (main_arg3 : DevRef τ sig)) : FVec Ideal S4x32x256x128 .f32)
          (transpose S4x32x256x128 [3, 0, 1, 2]
            (Host.reduceAdd (F := Ideal)
              (mulf (W (main_v14 : DevRef τ sig) : FVec Ideal S4x32x256x128x4 .f32)
                (broadcastInDim S4x32x256x128x4 ![0, 1, 2, 3, 4] bcast_S4x1x1x1x1_S4x32x256x128x4_0_1_2_3_4 (W (main_arg2 : DevRef τ sig))))
              (constant (F := Ideal) S_ .f32 0x00000000#32) reducesTo_S4x32x256x128x4_S32x256x128x4_d0 h_S_)
            transposes_S32x256x128x4_S4x32x256x128_3_0_1_2) := by
  simp only [rB1]; after_results_simp

/-! ## The round -/

/-- The three stretches one after the other compose to `roundTerm`. -/
theorem R1_out (W : Valuation τ sig (Elt Ideal)) :
    after R1 W (main_v20 : DevRef τ sig)
      = roundTerm (W (main_v10 : DevRef τ sig)) (W (main_v0 : DevRef τ sig)) (W (main_arg2 : DevRef τ sig)) (W (main_arg3 : DevRef τ sig)) := by
  rw [R1, Cert.PadSplit.after_append, Cert.PadSplit.after_append, rB1_out, rT1_out, rT1_main_arg2, rT1_main_arg3,
    rA1_out, rA1_main_v0, rA1_main_arg2, rA1_main_arg3]
  rfl

theorem R1_main_v0 (W : Valuation τ sig (Elt Ideal)) : after R1 W (main_v0 : DevRef τ sig) = W (main_v0 : DevRef τ sig) := by
  rw [R1, Cert.PadSplit.after_append, Cert.PadSplit.after_append, rB1_main_v0, rT1_main_v0, rA1_main_v0]
theorem R1_main_arg0 (W : Valuation τ sig (Elt Ideal)) : after R1 W (main_arg0 : DevRef τ sig) = W (main_arg0 : DevRef τ sig) := by
  rw [R1, Cert.PadSplit.after_append, Cert.PadSplit.after_append, rB1_main_arg0, rT1_main_arg0, rA1_main_arg0]
theorem R1_main_arg1 (W : Valuation τ sig (Elt Ideal)) : after R1 W (main_arg1 : DevRef τ sig) = W (main_arg1 : DevRef τ sig) := by
  rw [R1, Cert.PadSplit.after_append, Cert.PadSplit.after_append, rB1_main_arg1, rT1_main_arg1, rA1_main_arg1]
theorem R1_main_arg2 (W : Valuation τ sig (Elt Ideal)) : after R1 W (main_arg2 : DevRef τ sig) = W (main_arg2 : DevRef τ sig) := by
  rw [R1, Cert.PadSplit.after_append, Cert.PadSplit.after_append, rB1_main_arg2, rT1_main_arg2, rA1_main_arg2]
theorem R1_main_arg3 (W : Valuation τ sig (Elt Ideal)) : after R1 W (main_arg3 : DevRef τ sig) = W (main_arg3 : DevRef τ sig) := by
  rw [R1, Cert.PadSplit.after_append, Cert.PadSplit.after_append, rB1_main_arg3, rT1_main_arg3, rA1_main_arg3]

/-! ## The side conditions of the run: TensorCore references only, and every result determined -/

theorem rA1_sub : rA1.Forall fun op => op.bufs ⊆ tcRefs τ sig := by
  simp only [rA1, List.Forall, nullary_bufs_sub, unary_bufs_sub, binary_bufs_sub, ternary_bufs_sub, and_self]
theorem rT1_sub : rT1.Forall fun op => op.bufs ⊆ tcRefs τ sig := by
  simp only [rT1, List.Forall, nullary_bufs_sub, unary_bufs_sub, binary_bufs_sub, ternary_bufs_sub, and_self]
theorem rB1_sub : rB1.Forall fun op => op.bufs ⊆ tcRefs τ sig := by
  simp only [rB1, List.Forall, nullary_bufs_sub, unary_bufs_sub, binary_bufs_sub, ternary_bufs_sub, and_self]
theorem R1_sub : R1.Forall fun op => op.bufs ⊆ tcRefs τ sig := by
  rw [R1, List.forall_append, List.forall_append]; exact ⟨rA1_sub, rT1_sub, rB1_sub⟩

theorem rA1_fresh : rA1.Forall fun op => op.fresh = ∅ := by
  simp only [rA1, List.Forall]; repeat' constructor
theorem rT1_fresh : rT1.Forall fun op => op.fresh = ∅ := by
  simp only [rT1, List.Forall]; repeat' constructor
theorem rB1_fresh : rB1.Forall fun op => op.fresh = ∅ := by
  simp only [rB1, List.Forall]; repeat' constructor
theorem R1_fresh : R1.Forall fun op => op.fresh = ∅ := by
  rw [R1, List.forall_append, List.forall_append]; exact ⟨rA1_fresh, rT1_fresh, rB1_fresh⟩

end Cert.ReferenceIdeal.RefRun

end
-- ==== Proof.RefRunR2.lean ====
/-
  Round 3 of the reference read back: from any contents of the buffers, the 35 operations of the round leave the round's term
  of the data buffer, the index buffer, the weights and the factor in the round's result buffer, and leave the index buffer and
  the four argument buffers as they were.
-/
import proofs.«171374_g11879879543385_cont_main2_343_2_alg».proof.Proof.RefRunOps
import proofs.«171374_g11879879543385_cont_main2_343_2_alg».proof.Proof.RefTerm
import proofs.«171374_g11879879543385_cont_main2_343_2_alg».proof.Proof.LibTypedRef
import proofs.«171374_g11879879543385_cont_main2_343_2_alg».proof.Proof.LibPadSplit

noncomputable section

namespace Cert.ReferenceIdeal.RefRun

open Idealize.ShloMosaic Idealize.ShloMosaic.TcCoe Idealize.SL.Sem Idealize.ShloMosaic.StableHlo Cert.ReferenceIdeal
open Cert.ReferenceIdeal.Facts₀ Cert.ReferenceIdeal.Facts Cert.ReferenceIdeal.RefTerm

variable [Cert.ReferenceIdeal.Facts]

/-! ## What no operation of a stretch writes keeps its contents -/

theorem rA2_main_v0 (W : Valuation τ sig (Elt Ideal)) : after rA2 W (main_v0 : DevRef τ sig) = W (main_v0 : DevRef τ sig) := by
  simp only [rA2]; after_results_simp
theorem rA2_main_arg0 (W : Valuation τ sig (Elt Ideal)) : after rA2 W (main_arg0 : DevRef τ sig) = W (main_arg0 : DevRef τ sig) := by
  simp only [rA2]; after_results_simp
theorem rA2_main_arg1 (W : Valuation τ sig (Elt Ideal)) : after rA2 W (main_arg1 : DevRef τ sig) = W (main_arg1 : DevRef τ sig) := by
  simp only [rA2]; after_results_simp
theorem rA2_main_arg2 (W : Valuation τ sig (Elt Ideal)) : after rA2 W (main_arg2 : DevRef τ sig) = W (main_arg2 : DevRef τ sig) := by
  simp only [rA2]; after_results_simp
theorem rA2_main_arg3 (W : Valuation τ sig (Elt Ideal)) : after rA2 W (main_arg3 : DevRef τ sig) = W (main_arg3 : DevRef τ sig) := by
  simp only [rA2]; after_results_simp
theorem rT2_main_v0 (W : Valuation τ sig (Elt Ideal)) : after rT2 W (main_v0 : DevRef τ sig) = W (main_v0 : DevRef τ sig) := by
  simp only [rT2]; after_results_simp
theorem rT2_main_arg0 (W : Valuation τ sig (Elt Ideal)) : after rT2 W (main_arg0 : DevRef τ sig) = W (main_arg0 : DevRef τ sig) := by
  simp only [rT2]; after_results_simp
theorem rT2_main_arg1 (W : Valuation τ sig (Elt Ideal)) : after rT2 W (main_arg1 : DevRef τ sig) = W (main_arg1 : DevRef τ sig) := by
  simp only [rT2]; after_results_simp
theorem rT2_main_arg2 (W : Valuation τ sig (Elt Ideal)) : after rT2 W (main_arg2 : DevRef τ sig) = W (main_arg2 : DevRef τ sig) := by
  simp only [rT2]; after_results_simp
theorem rT2_main_arg3 (W : Valuation τ sig (Elt Ideal)) : after rT2 W (main_arg3 : DevRef τ sig) = W (main_arg3 : DevRef τ sig) := by
  simp only [rT2]; after_results_simp
theorem rB2_main_v0 (W : Valuation τ sig (Elt Ideal)) : after rB2 W (main_v0 : DevRef τ sig) = W (main_v0 : DevRef τ sig) := by
  simp only [rB2]; after_results_simp
theorem rB2_main_arg0 (W : Valuation τ sig (Elt Ideal)) : after rB2 W (main_arg0 : DevRef τ sig) = W (main_arg0 : DevRef τ sig) := by
  simp only [rB2]; after_results_simp
theorem rB2_main_arg1 (W : Valuation τ sig (Elt Ideal)) : after rB2 W (main_arg1 : DevRef τ sig) = W (main_arg1 : DevRef τ sig) := by
  simp only [rB2]; after_results_simp
theorem rB2_main_arg2 (W : Valuation τ sig (Elt Ideal)) : after rB2 W (main_arg2 : DevRef τ sig) = W (main_arg2 : DevRef τ sig) := by
  simp only [rB2]; after_results_simp
theorem rB2_main_arg3 (W : Valuation τ sig (Elt Ideal)) : after rB2 W (main_arg3 : DevRef τ sig) = W (main_arg3 : DevRef τ sig) := by
  simp only [rB2]; after_results_simp

/-! ## What each stretch computes -/

/-- Before the selection: the data with its batch axis moved last, times the splat of ones. -/
theorem rA2_out (W : Valuation τ sig (Elt Ideal)) :
    after rA2 W (main_v23 : DevRef τ sig)
      = mulf (transpose S32x256x128x4 [1, 2, 3, 0] (W (main_v20 : DevRef τ sig)) transposes_S4x32x256x128_S32x256x128x4_1_2_3_0 : FVec Ideal S32x256x128x4 .f32)
          (broadcastInDim S32x256x128x4 ![] bcast_S_S32x256x128x4 (constant (F := Ideal) S_ .f32 0x3F800000#32)) := by
  simp only [rA2]; after_results_simp

/-- The selection: the called function's operations compose to `takeTerm` (a value carried to a buffer's type and back is the value). -/
theorem rT2_out (W : Valuation τ sig (Elt Ideal)) :
    after rT2 W (main_v24 : DevRef τ sig) = takeTerm (W (main_v23 : DevRef τ sig)) (W (main_v0 : DevRef τ sig)) := by
  simp only [rT2]
  after_results_simp
  simp only [Cert.TypedRef.ofBuf_toBuf]
  rfl

/-- After the selection: times the broadcast weights, summed over the taps from zero, the batch axis back in front, times the
    broadcast factor. -/
theorem rB2_out (W : Valuation τ sig (Elt Ideal)) :
    after rB2 W (main_v30 : DevRef τ sig)
      = mulf (broadcastInDim S4x32x256x128 ![] bcast_S_S4x32x256x128 (W (main_arg3 : DevRef τ sig)) : FVec Ideal S4x32x256x128 .f32)
          (transpose S4x32x256x128 [3, 0, 1, 2]
            (Host.reduceAdd (F := Ideal)
              (mulf (W (main_v24 : DevRef τ sig) : FVec Ideal S4x32x256x128x4 .f32)
                (broadcastInDim S4x32x256x128x4 ![0, 1, 2, 3, 4] bcast_S4x1x1x1x1_S4x32x256x128x4_0_1_2_3_4 (W (main_arg2 : DevRef τ sig))))
              (constant (F := Ideal) S_ .f32 0x00000000#32) reducesTo_S4x32x256x128x4_S32x256x128x4_d0 h_S_)
            transposes_S32x256x128x4_S4x32x256x128_3_0_1_2) := by
  simp only [rB2]; after_results_simp

/-! ## The round -/

/-- The three stretches one after the other compose to `roundTerm`. -/
theorem R2_out (W : Valuation τ sig (Elt Ideal)) :
    after R2 W (main_v30 : DevRef τ sig)
      = roundTerm (W (main_v20 : DevRef τ sig)) (W (main_v0 : DevRef τ sig)) (W (main_arg2 : DevRef τ sig)) (W (main_arg3 : DevRef τ sig)) := by
  rw [R2, Cert.PadSplit.after_append, Cert.PadSplit.after_append, rB2_out, rT2_out, rT2_main_arg2, rT2_main_arg3,
    rA2_out, rA2_main_v0, rA2_main_arg2, rA2_main_arg3]
  rfl

theorem R2_main_v0 (W : Valuation τ sig (Elt Ideal)) : after R2 W (main_v0 : DevRef τ sig) = W (main_v0 : DevRef τ sig) := by
  rw [R2, Cert.PadSplit.after_append, Cert.PadSplit.after_append, rB2_main_v0, rT2_main_v0, rA2_main_v0]
theorem R2_main_arg0 (W : Valuation τ sig (Elt Ideal)) : after R2 W (main_arg0 : DevRef τ sig) = W (main_arg0 : DevRef τ sig) := by
  rw [R2, Cert.PadSplit.after_append, Cert.PadSplit.after_append, rB2_main_arg0, rT2_main_arg0, rA2_main_arg0]
theorem R2_main_arg1 (W : Valuation τ sig (Elt Ideal)) : after R2 W (main_arg1 : DevRef τ sig) = W (main_arg1 : DevRef τ sig) := by
  rw [R2, Cert.PadSplit.after_append, Cert.PadSplit.after_append, rB2_main_arg1, rT2_main_arg1, rA2_main_arg1]
theorem R2_main_arg2 (W : Valuation τ sig (Elt Ideal)) : after R2 W (main_arg2 : DevRef τ sig) = W (main_arg2 : DevRef τ sig) := by
  rw [R2, Cert.PadSplit.after_append, Cert.PadSplit.after_append, rB2_main_arg2, rT2_main_arg2, rA2_main_arg2]
theorem R2_main_arg3 (W : Valuation τ sig (Elt Ideal)) : after R2 W (main_arg3 : DevRef τ sig) = W (main_arg3 : DevRef τ sig) := by
  rw [R2, Cert.PadSplit.after_append, Cert.PadSplit.after_append, rB2_main_arg3, rT2_main_arg3, rA2_main_arg3]

/-! ## The side conditions of the run: TensorCore references only, and every result determined -/

theorem rA2_sub : rA2.Forall fun op => op.bufs ⊆ tcRefs τ sig := by
  simp only [rA2, List.Forall, nullary_bufs_sub, unary_bufs_sub, binary_bufs_sub, ternary_bufs_sub, and_self]
theorem rT2_sub : rT2.Forall fun op => op.bufs ⊆ tcRefs τ sig := by
  simp only [rT2, List.Forall, nullary_bufs_sub, unary_bufs_sub, binary_bufs_sub, ternary_bufs_sub, and_self]
theorem rB2_sub : rB2.Forall fun op => op.bufs ⊆ tcRefs τ sig := by
  simp only [rB2, List.Forall, nullary_bufs_sub, unary_bufs_sub, binary_bufs_sub, ternary_bufs_sub, and_self]
theorem R2_sub : R2.Forall fun op => op.bufs ⊆ tcRefs τ sig := by
  rw [R2, List.forall_append, List.forall_append]; exact ⟨rA2_sub, rT2_sub, rB2_sub⟩

theorem rA2_fresh : rA2.Forall fun op => op.fresh = ∅ := by
  simp only [rA2, List.Forall]; repeat' constructor
theorem rT2_fresh : rT2.Forall fun op => op.fresh = ∅ := by
  simp only [rT2, List.Forall]; repeat' constructor
theorem rB2_fresh : rB2.Forall fun op => op.fresh = ∅ := by
  simp only [rB2, List.Forall]; repeat' constructor
theorem R2_fresh : R2.Forall fun op => op.fresh = ∅ := by
  rw [R2, List.forall_append, List.forall_append]; exact ⟨rA2_fresh, rT2_fresh, rB2_fresh⟩

end Cert.ReferenceIdeal.RefRun

end
-- ==== Proof.RefRunR3.lean ====
/-
  Round 4 of the reference read back: from any contents of the buffers, the 35 operations of the round leave the round's term
  of the data buffer, the index buffer, the weights and the factor in the round's result buffer, and leave the index buffer and
  the four argument buffers as they were.
-/
import proofs.«171374_g11879879543385_cont_main2_343_2_alg».proof.Proof.RefRunOps
import proofs.«171374_g11879879543385_cont_main2_343_2_alg».proof.Proof.RefTerm
import proofs.«171374_g11879879543385_cont_main2_343_2_alg».proof.Proof.LibTypedRef
import proofs.«171374_g11879879543385_cont_main2_343_2_alg».proof.Proof.LibPadSplit

noncomputable section

namespace Cert.ReferenceIdeal.RefRun

open Idealize.ShloMosaic Idealize.ShloMosaic.TcCoe Idealize.SL.Sem Idealize.ShloMosaic.StableHlo Cert.ReferenceIdeal
open Cert.ReferenceIdeal.Facts₀ Cert.ReferenceIdeal.Facts Cert.ReferenceIdeal.RefTerm

variable [Cert.ReferenceIdeal.Facts]

/-! ## What no operation of a stretch writes keeps its contents -/

theorem rA3_main_v0 (W : Valuation τ sig (Elt Ideal)) : after rA3 W (main_v0 : DevRef τ sig) = W (main_v0 : DevRef τ sig) := by
  simp only [rA3]; after_results_simp
theorem rA3_main_arg0 (W : Valuation τ sig (Elt Ideal)) : after rA3 W (main_arg0 : DevRef τ sig) = W (main_arg0 : DevRef τ sig) := by
  simp only [rA3]; after_results_simp
theorem rA3_main_arg1 (W : Valuation τ sig (Elt Ideal)) : after rA3 W (main_arg1 : DevRef τ sig) = W (main_arg1 : DevRef τ sig) := by
  simp only [rA3]; after_results_simp
theorem rA3_main_arg2 (W : Valuation τ sig (Elt Ideal)) : after rA3 W (main_arg2 : DevRef τ sig) = W (main_arg2 : DevRef τ sig) := by
  simp only [rA3]; after_results_simp
theorem rA3_main_arg3 (W : Valuation τ sig (Elt Ideal)) : after rA3 W (main_arg3 : DevRef τ sig) = W (main_arg3 : DevRef τ sig) := by
  simp only [rA3]; after_results_simp
theorem rT3_main_v0 (W : Valuation τ sig (Elt Ideal)) : after rT3 W (main_v0 : DevRef τ sig) = W (main_v0 : DevRef τ sig) := by
  simp only [rT3]; after_results_simp
theorem rT3_main_arg0 (W : Valuation τ sig (Elt Ideal)) : after rT3 W (main_arg0 : DevRef τ sig) = W (main_arg0 : DevRef τ sig) := by
  simp only [rT3]; after_results_simp
theorem rT3_main_arg1 (W : Valuation τ sig (Elt Ideal)) : after rT3 W (main_arg1 : DevRef τ sig) = W (main_arg1 : DevRef τ sig) := by
  simp only [rT3]; after_results_simp
theorem rT3_main_arg2 (W : Valuation τ sig (Elt Ideal)) : after rT3 W (main_arg2 : DevRef τ sig) = W (main_arg2 : DevRef τ sig) := by
  simp only [rT3]; after_results_simp
theorem rT3_main_arg3 (W : Valuation τ sig (Elt Ideal)) : after rT3 W (main_arg3 : DevRef τ sig) = W (main_arg3 : DevRef τ sig) := by
  simp only [rT3]; after_results_simp
theorem rB3_main_v0 (W : Valuation τ sig (Elt Ideal)) : after rB3 W (main_v0 : DevRef τ sig) = W (main_v0 : DevRef τ sig) := by
  simp only [rB3]; after_results_simp
theorem rB3_main_arg0 (W : Valuation τ sig (Elt Ideal)) : after rB3 W (main_arg0 : DevRef τ sig) = W (main_arg0 : DevRef τ sig) := by
  simp only [rB3]; after_results_simp
theorem rB3_main_arg1 (W : Valuation τ sig (Elt Ideal)) : after rB3 W (main_arg1 : DevRef τ sig) = W (main_arg1 : DevRef τ sig) := by
  simp only [rB3]; after_results_simp
theorem rB3_main_arg2 (W : Valuation τ sig (Elt Ideal)) : after rB3 W (main_arg2 : DevRef τ sig) = W (main_arg2 : DevRef τ sig) := by
  simp only [rB3]; after_results_simp
theorem rB3_main_arg3 (W : Valuation τ sig (Elt Ideal)) : after rB3 W (main_arg3 : DevRef τ sig) = W (main_arg3 : DevRef τ sig) := by
  simp only [rB3]; after_results_simp

/-! ## What each stretch computes -/

/-- Before the selection: the data with its batch axis moved last, times the splat of ones. -/
theorem rA3_out (W : Valuation τ sig (Elt Ideal)) :
    after rA3 W (main_v33 : DevRef τ sig)
      = mulf (transpose S32x256x128x4 [1, 2, 3, 0] (W (main_v30 : DevRef τ sig)) transposes_S4x32x256x128_S32x256x128x4_1_2_3_0 : FVec Ideal S32x256x128x4 .f32)
          (broadcastInDim S32x256x128x4 ![] bcast_S_S32x256x128x4 (constant (F := Ideal) S_ .f32 0x3F800000#32)) := by
  simp only [rA3]; after_results_simp

/-- The selection: the called function's operations compose to `takeTerm` (a value carried to a buffer's type and back is the value). -/
theorem rT3_out (W : Valuation τ sig (Elt Ideal)) :
    after rT3 W (main_v34 : DevRef τ sig) = takeTerm (W (main_v33 : DevRef τ sig)) (W (main_v0 : DevRef τ sig)) := by
  simp only [rT3]
  after_results_simp
  simp only [Cert.TypedRef.ofBuf_toBuf]
  rfl

/-- After the selection: times the broadcast weights, summed over the taps from zero, the batch axis back in front, times the
    broadcast factor. -/
theorem rB3_out (W : Valuation τ sig (Elt Ideal)) :
    after rB3 W (main_v40 : DevRef τ sig)
      = mulf (broadcastInDim S4x32x256x128 ![] bcast_S_S4x32x256x128 (W (main_arg3 : DevRef τ sig)) : FVec Ideal S4x32x256x128 .f32)
          (transpose S4x32x256x128 [3, 0, 1, 2]
            (Host.reduceAdd (F := Ideal)
              (mulf (W (main_v34 : DevRef τ sig) : FVec Ideal S4x32x256x128x4 .f32)
                (broadcastInDim S4x32x256x128x4 ![0, 1, 2, 3, 4] bcast_S4x1x1x1x1_S4x32x256x128x4_0_1_2_3_4 (W (main_arg2 : DevRef τ sig))))
              (constant (F := Ideal) S_ .f32 0x00000000#32) reducesTo_S4x32x256x128x4_S32x256x128x4_d0 h_S_)
            transposes_S32x256x128x4_S4x32x256x128_3_0_1_2) := by
  simp only [rB3]; after_results_simp

/-! ## The round -/

/-- The three stretches one after the other compose to `roundTerm`. -/
theorem R3_out (W : Valuation τ sig (Elt Ideal)) :
    after R3 W (main_v40 : DevRef τ sig)
      = roundTerm (W (main_v30 : DevRef τ sig)) (W (main_v0 : DevRef τ sig)) (W (main_arg2 : DevRef τ sig)) (W (main_arg3 : DevRef τ sig)) := by
  rw [R3, Cert.PadSplit.after_append, Cert.PadSplit.after_append, rB3_out, rT3_out, rT3_main_arg2, rT3_main_arg3,
    rA3_out, rA3_main_v0, rA3_main_arg2, rA3_main_arg3]
  rfl

theorem R3_main_v0 (W : Valuation τ sig (Elt Ideal)) : after R3 W (main_v0 : DevRef τ sig) = W (main_v0 : DevRef τ sig) := by
  rw [R3, Cert.PadSplit.after_append, Cert.PadSplit.after_append, rB3_main_v0, rT3_main_v0, rA3_main_v0]
theorem R3_main_arg0 (W : Valuation τ sig (Elt Ideal)) : after R3 W (main_arg0 : DevRef τ sig) = W (main_arg0 : DevRef τ sig) := by
  rw [R3, Cert.PadSplit.after_append, Cert.PadSplit.after_append, rB3_main_arg0, rT3_main_arg0, rA3_main_arg0]
theorem R3_main_arg1 (W : Valuation τ sig (Elt Ideal)) : after R3 W (main_arg1 : DevRef τ sig) = W (main_arg1 : DevRef τ sig) := by
  rw [R3, Cert.PadSplit.after_append, Cert.PadSplit.after_append, rB3_main_arg1, rT3_main_arg1, rA3_main_arg1]
theorem R3_main_arg2 (W : Valuation τ sig (Elt Ideal)) : after R3 W (main_arg2 : DevRef τ sig) = W (main_arg2 : DevRef τ sig) := by
  rw [R3, Cert.PadSplit.after_append, Cert.PadSplit.after_append, rB3_main_arg2, rT3_main_arg2, rA3_main_arg2]
theorem R3_main_arg3 (W : Valuation τ sig (Elt Ideal)) : after R3 W (main_arg3 : DevRef τ sig) = W (main_arg3 : DevRef τ sig) := by
  rw [R3, Cert.PadSplit.after_append, Cert.PadSplit.after_append, rB3_main_arg3, rT3_main_arg3, rA3_main_arg3]

/-! ## The side conditions of the run: TensorCore references only, and every result determined -/

theorem rA3_sub : rA3.Forall fun op => op.bufs ⊆ tcRefs τ sig := by
  simp only [rA3, List.Forall, nullary_bufs_sub, unary_bufs_sub, binary_bufs_sub, ternary_bufs_sub, and_self]
theorem rT3_sub : rT3.Forall fun op => op.bufs ⊆ tcRefs τ sig := by
  simp only [rT3, List.Forall, nullary_bufs_sub, unary_bufs_sub, binary_bufs_sub, ternary_bufs_sub, and_self]
theorem rB3_sub : rB3.Forall fun op => op.bufs ⊆ tcRefs τ sig := by
  simp only [rB3, List.Forall, nullary_bufs_sub, unary_bufs_sub, binary_bufs_sub, ternary_bufs_sub, and_self]
theorem R3_sub : R3.Forall fun op => op.bufs ⊆ tcRefs τ sig := by
  rw [R3, List.forall_append, List.forall_append]; exact ⟨rA3_sub, rT3_sub, rB3_sub⟩

theorem rA3_fresh : rA3.Forall fun op => op.fresh = ∅ := by
  simp only [rA3, List.Forall]; repeat' constructor
theorem rT3_fresh : rT3.Forall fun op => op.fresh = ∅ := by
  simp only [rT3, List.Forall]; repeat' constructor
theorem rB3_fresh : rB3.Forall fun op => op.fresh = ∅ := by
  simp only [rB3, List.Forall]; repeat' constructor
theorem R3_fresh : R3.Forall fun op => op.fresh = ∅ := by
  rw [R3, List.forall_append, List.forall_append]; exact ⟨rA3_fresh, rT3_fresh, rB3_fresh⟩

end Cert.ReferenceIdeal.RefRun

end
-- ==== Proof.RefRunR4.lean ====
/-
  Round 5 of the reference read back: from any contents of the buffers, the 35 operations of the round leave the round's term
  of the data buffer, the index buffer, the weights and the factor in the round's result buffer, and leave the index buffer and
  the four argument buffers as they were.
-/
import proofs.«171374_g11879879543385_cont_main2_343_2_alg».proof.Proof.RefRunOps
import proofs.«171374_g11879879543385_cont_main2_343_2_alg».proof.Proof.RefTerm
import proofs.«171374_g11879879543385_cont_main2_343_2_alg».proof.Proof.LibTypedRef
import proofs.«171374_g11879879543385_cont_main2_343_2_alg».proof.Proof.LibPadSplit

noncomputable section

namespace Cert.ReferenceIdeal.RefRun

open Idealize.ShloMosaic Idealize.ShloMosaic.TcCoe Idealize.SL.Sem Idealize.ShloMosaic.StableHlo Cert.ReferenceIdeal
open Cert.ReferenceIdeal.Facts₀ Cert.ReferenceIdeal.Facts Cert.ReferenceIdeal.RefTerm

variable [Cert.ReferenceIdeal.Facts]

/-! ## What no operation of a stretch writes keeps its contents -/

theorem rA4_main_v0 (W : Valuation τ sig (Elt Ideal)) : after rA4 W (main_v0 : DevRef τ sig) = W (main_v0 : DevRef τ sig) := by
  simp only [rA4]; after_results_simp
theorem rA4_main_arg0 (W : Valuation τ sig (Elt Ideal)) : after rA4 W (main_arg0 : DevRef τ sig) = W (main_arg0 : DevRef τ sig) := by
  simp only [rA4]; after_results_simp
theorem rA4_main_arg1 (W : Valuation τ sig (Elt Ideal)) : after rA4 W (main_arg1 : DevRef τ sig) = W (main_arg1 : DevRef τ sig) := by
  simp only [rA4]; after_results_simp
theorem rA4_main_arg2 (W : Valuation τ sig (Elt Ideal)) : after rA4 W (main_arg2 : DevRef τ sig) = W (main_arg2 : DevRef τ sig) := by
  simp only [rA4]; after_results_simp
theorem rA4_main_arg3 (W : Valuation τ sig (Elt Ideal)) : after rA4 W (main_arg3 : DevRef τ sig) = W (main_arg3 : DevRef τ sig) := by
  simp only [rA4]; after_results_simp
theorem rT4_main_v0 (W : Valuation τ sig (Elt Ideal)) : after rT4 W (main_v0 : DevRef τ sig) = W (main_v0 : DevRef τ sig) := by
  simp only [rT4]; after_results_simp
theorem rT4_main_arg0 (W : Valuation τ sig (Elt Ideal)) : after rT4 W (main_arg0 : DevRef τ sig) = W (main_arg0 : DevRef τ sig) := by
  simp only [rT4]; after_results_simp
theorem rT4_main_arg1 (W : Valuation τ sig (Elt Ideal)) : after rT4 W (main_arg1 : DevRef τ sig) = W (main_arg1 : DevRef τ sig) := by
  simp only [rT4]; after_results_simp
theorem rT4_main_arg2 (W : Valuation τ sig (Elt Ideal)) : after rT4 W (main_arg2 : DevRef τ sig) = W (main_arg2 : DevRef τ sig) := by
  simp only [rT4]; after_results_simp
theorem rT4_main_arg3 (W : Valuation τ sig (Elt Ideal)) : after rT4 W (main_arg3 : DevRef τ sig) = W (main_arg3 : DevRef τ sig) := by
  simp only [rT4]; after_results_simp
theorem rB4_main_v0 (W : Valuation τ sig (Elt Ideal)) : after rB4 W (main_v0 : DevRef τ sig) = W (main_v0 : DevRef τ sig) := by
  simp only [rB4]; after_results_simp
theorem rB4_main_arg0 (W : Valuation τ sig (Elt Ideal)) : after rB4 W (main_arg0 : DevRef τ sig) = W (main_arg0 : DevRef τ sig) := by
  simp only [rB4]; after_results_simp
theorem rB4_main_arg1 (W : Valuation τ sig (Elt Ideal)) : after rB4 W (main_arg1 : DevRef τ sig) = W (main_arg1 : DevRef τ sig) := by
  simp only [rB4]; after_results_simp
theorem rB4_main_arg2 (W : Valuation τ sig (Elt Ideal)) : after rB4 W (main_arg2 : DevRef τ sig) = W (main_arg2 : DevRef τ sig) := by
  simp only [rB4]; after_results_simp
theorem rB4_main_arg3 (W : Valuation τ sig (Elt Ideal)) : after rB4 W (main_arg3 : DevRef τ sig) = W (main_arg3 : DevRef τ sig) := by
  simp only [rB4]; after_results_simp

/-! ## What each stretch computes -/

/-- Before the selection: the data with its batch axis moved last, times the splat of ones. -/
theorem rA4_out (W : Valuation τ sig (Elt Ideal)) :
    after rA4 W (main_v43 : DevRef τ sig)
      = mulf (transpose S32x256x128x4 [1, 2, 3, 0] (W (main_v40 : DevRef τ sig)) transposes_S4x32x256x128_S32x256x128x4_1_2_3_0 : FVec Ideal S32x256x128x4 .f32)
          (broadcastInDim S32x256x128x4 ![] bcast_S_S32x256x128x4 (constant (F := Ideal) S_ .f32 0x3F800000#32)) := by
  simp only [rA4]; after_results_simp

/-- The selection: the called function's operations compose to `takeTerm` (a value carried to a buffer's type and back is the value). -/
theorem rT4_out (W : Valuation τ sig (Elt Ideal)) :
    after rT4 W (main_v44 : DevRef τ sig) = takeTerm (W (main_v43 : DevRef τ sig)) (W (main_v0 : DevRef τ sig)) := by
  simp only [rT4]
  after_results_simp
  simp only [Cert.TypedRef.ofBuf_toBuf]
  rfl

/-- After the selection: times the broadcast weights, summed over the taps from zero, the batch axis back in front, times the
    broadcast factor. -/
theorem rB4_out (W : Valuation τ sig (Elt Ideal)) :
    after rB4 W (main_v50 : DevRef τ sig)
      = mulf (broadcastInDim S4x32x256x128 ![] bcast_S_S4x32x256x128 (W (main_arg3 : DevRef τ sig)) : FVec Ideal S4x32x256x128 .f32)
          (transpose S4x32x256x128 [3, 0, 1, 2]
            (Host.reduceAdd (F := Ideal)
              (mulf (W (main_v44 : DevRef τ sig) : FVec Ideal S4x32x256x128x4 .f32)
                (broadcastInDim S4x32x256x128x4 ![0, 1, 2, 3, 4] bcast_S4x1x1x1x1_S4x32x256x128x4_0_1_2_3_4 (W (main_arg2 : DevRef τ sig))))
              (constant (F := Ideal) S_ .f32 0x00000000#32) reducesTo_S4x32x256x128x4_S32x256x128x4_d0 h_S_)
            transposes_S32x256x128x4_S4x32x256x128_3_0_1_2) := by
  simp only [rB4]; after_results_simp

/-! ## The round -/

/-- The three stretches one after the other compose to `roundTerm`. -/
theorem R4_out (W : Valuation τ sig (Elt Ideal)) :
    after R4 W (main_v50 : DevRef τ sig)
      = roundTerm (W (main_v40 : DevRef τ sig)) (W (main_v0 : DevRef τ sig)) (W (main_arg2 : DevRef τ sig)) (W (main_arg3 : DevRef τ sig)) := by
  rw [R4, Cert.PadSplit.after_append, Cert.PadSplit.after_append, rB4_out, rT4_out, rT4_main_arg2, rT4_main_arg3,
    rA4_out, rA4_main_v0, rA4_main_arg2, rA4_main_arg3]
  rfl

theorem R4_main_v0 (W : Valuation τ sig (Elt Ideal)) : after R4 W (main_v0 : DevRef τ sig) = W (main_v0 : DevRef τ sig) := by
  rw [R4, Cert.PadSplit.after_append, Cert.PadSplit.after_append, rB4_main_v0, rT4_main_v0, rA4_main_v0]
theorem R4_main_arg0 (W : Valuation τ sig (Elt Ideal)) : after R4 W (main_arg0 : DevRef τ sig) = W (main_arg0 : DevRef τ sig) := by
  rw [R4, Cert.PadSplit.after_append, Cert.PadSplit.after_append, rB4_main_arg0, rT4_main_arg0, rA4_main_arg0]
theorem R4_main_arg1 (W : Valuation τ sig (Elt Ideal)) : after R4 W (main_arg1 : DevRef τ sig) = W (main_arg1 : DevRef τ sig) := by
  rw [R4, Cert.PadSplit.after_append, Cert.PadSplit.after_append, rB4_main_arg1, rT4_main_arg1, rA4_main_arg1]
theorem R4_main_arg2 (W : Valuation τ sig (Elt Ideal)) : after R4 W (main_arg2 : DevRef τ sig) = W (main_arg2 : DevRef τ sig) := by
  rw [R4, Cert.PadSplit.after_append, Cert.PadSplit.after_append, rB4_main_arg2, rT4_main_arg2, rA4_main_arg2]
theorem R4_main_arg3 (W : Valuation τ sig (Elt Ideal)) : after R4 W (main_arg3 : DevRef τ sig) = W (main_arg3 : DevRef τ sig) := by
  rw [R4, Cert.PadSplit.after_append, Cert.PadSplit.after_append, rB4_main_arg3, rT4_main_arg3, rA4_main_arg3]

/-! ## The side conditions of the run: TensorCore references only, and every result determined -/

theorem rA4_sub : rA4.Forall fun op => op.bufs ⊆ tcRefs τ sig := by
  simp only [rA4, List.Forall, nullary_bufs_sub, unary_bufs_sub, binary_bufs_sub, ternary_bufs_sub, and_self]
theorem rT4_sub : rT4.Forall fun op => op.bufs ⊆ tcRefs τ sig := by
  simp only [rT4, List.Forall, nullary_bufs_sub, unary_bufs_sub, binary_bufs_sub, ternary_bufs_sub, and_self]
theorem rB4_sub : rB4.Forall fun op => op.bufs ⊆ tcRefs τ sig := by
  simp only [rB4, List.Forall, nullary_bufs_sub, unary_bufs_sub, binary_bufs_sub, ternary_bufs_sub, and_self]
theorem R4_sub : R4.Forall fun op => op.bufs ⊆ tcRefs τ sig := by
  rw [R4, List.forall_append, List.forall_append]; exact ⟨rA4_sub, rT4_sub, rB4_sub⟩

theorem rA4_fresh : rA4.Forall fun op => op.fresh = ∅ := by
  simp only [rA4, List.Forall]; repeat' constructor
theorem rT4_fresh : rT4.Forall fun op => op.fresh = ∅ := by
  simp only [rT4, List.Forall]; repeat' constructor
theorem rB4_fresh : rB4.Forall fun op => op.fresh = ∅ := by
  simp only [rB4, List.Forall]; repeat' constructor
theorem R4_fresh : R4.Forall fun op => op.fresh = ∅ := by
  rw [R4, List.forall_append, List.forall_append]; exact ⟨rA4_fresh, rT4_fresh, rB4_fresh⟩

end Cert.ReferenceIdeal.RefRun

end
-- ==== Proof.RefRun.lean ====
/-
  The reference program's run read back: its result array is the five-round term of its argument arrays.

  The program is a straight line of host operations (`main_eq`); a straight line's run ends with every buffer at the fold of the
  operations' results over the launch contents (`run_seq`); the fold is read round by round (`R0_out` … `R4_out`), each round from
  whatever the rounds before it left.
-/
import proofs.«171374_g11879879543385_cont_main2_343_2_alg».proof.ReferenceIdeal
import proofs.«171374_g11879879543385_cont_main2_343_2_alg».proof.Proof.Gen.ReferenceIdeal
import proofs.«171374_g11879879543385_cont_main2_343_2_alg».proof.Proof.RefTerm
import proofs.«171374_g11879879543385_cont_main2_343_2_alg».proof.Proof.LibTypedRef
import proofs.«171374_g11879879543385_cont_main2_343_2_alg».proof.Proof.LibPadSplit
import proofs.«171374_g11879879543385_cont_main2_343_2_alg».proof.Proof.RefRunOps
import proofs.«171374_g11879879543385_cont_main2_343_2_alg».proof.Proof.RefRunMain
import proofs.«171374_g11879879543385_cont_main2_343_2_alg».proof.Proof.RefRunR0
import proofs.«171374_g11879879543385_cont_main2_343_2_alg».proof.Proof.RefRunR1
import proofs.«171374_g11879879543385_cont_main2_343_2_alg».proof.Proof.RefRunR2
import proofs.«171374_g11879879543385_cont_main2_343_2_alg».proof.Proof.RefRunR3
import proofs.«171374_g11879879543385_cont_main2_343_2_alg».proof.Proof.RefRunR4
import Idealize.ShloMosaic.Lib.StableHlo.Run

noncomputable section

namespace Cert.ReferenceIdeal.RefRun

open Idealize.ShloMosaic Idealize.ShloMosaic.TcCoe Idealize.SL.Sem Idealize.ShloMosaic.StableHlo Cert.ReferenceIdeal
open Cert.ReferenceIdeal.Facts₀ Cert.ReferenceIdeal.Facts Cert.ReferenceIdeal.RefTerm

variable [Cert.ReferenceIdeal.Facts]

/-! ## The reshape of the index array -/

/-- The reshape leaves the index array viewed as [4, 32] in the index buffer. -/
theorem pre_out (V : Valuation τ sig (Elt Ideal)) : after pre V (main_v0 : DevRef τ sig) = idxTerm (V (main_arg1 : DevRef τ sig)) := by
  simp only [pre]; after_results_simp; rfl

theorem pre_main_arg0 (V : Valuation τ sig (Elt Ideal)) : after pre V (main_arg0 : DevRef τ sig) = V (main_arg0 : DevRef τ sig) := by
  simp only [pre]; after_results_simp
theorem pre_main_arg1 (V : Valuation τ sig (Elt Ideal)) : after pre V (main_arg1 : DevRef τ sig) = V (main_arg1 : DevRef τ sig) := by
  simp only [pre]; after_results_simp
theorem pre_main_arg2 (V : Valuation τ sig (Elt Ideal)) : after pre V (main_arg2 : DevRef τ sig) = V (main_arg2 : DevRef τ sig) := by
  simp only [pre]; after_results_simp
theorem pre_main_arg3 (V : Valuation τ sig (Elt Ideal)) : after pre V (main_arg3 : DevRef τ sig) = V (main_arg3 : DevRef τ sig) := by
  simp only [pre]; after_results_simp

theorem pre_sub : pre.Forall fun op => op.bufs ⊆ tcRefs τ sig := by
  simp only [pre, List.Forall, reshape_bufs_sub]
theorem pre_fresh : pre.Forall fun op => op.fresh = ∅ := by
  simp only [pre, List.Forall]; rfl

/-! ## The whole line -/

theorem ops_sub : ops.Forall fun op => op.bufs ⊆ tcRefs τ sig := by
  simp only [ops, List.forall_append]; exact ⟨pre_sub, R0_sub, R1_sub, R2_sub, R3_sub, R4_sub⟩
theorem ops_fresh : ops.Forall fun op => op.fresh = ∅ := by
  simp only [ops, List.forall_append]; exact ⟨pre_fresh, R0_fresh, R1_fresh, R2_fresh, R3_fresh, R4_fresh⟩

/-- The line read from any contents, stretch by stretch: the contents after the whole line are the fifth round's from the fourth's
    from … from the reshape's. -/
theorem after_ops (V : Valuation τ sig (Elt Ideal)) :
    after ops V = after R4 (after R3 (after R2 (after R1 (after R0 (after pre V))))) := by
  simp only [ops, Cert.PadSplit.after_append]

/-- The result buffer after the line: five rounds of the data argument, over the index argument viewed as [4, 32], the weights and
    the factor. Each round's result is read from the contents the rounds before it left; none of them writes the index buffer or
    an argument. -/
theorem ops_out (V : Valuation τ sig (Elt Ideal)) :
    after ops V (main_v50 : DevRef τ sig)
      = refTerm (V (main_arg0 : DevRef τ sig)) (V (main_arg1 : DevRef τ sig)) (V (main_arg2 : DevRef τ sig)) (V (main_arg3 : DevRef τ sig)) := by
  rw [after_ops, R4_out,
    R3_out, R3_main_v0, R3_main_arg2, R3_main_arg3,
    R2_out, R2_main_v0, R2_main_arg2, R2_main_arg3,
    R1_out, R1_main_v0, R1_main_arg2, R1_main_arg3,
    R0_out, R0_main_v0, R0_main_arg2, R0_main_arg3,
    pre_out, pre_main_arg0, pre_main_arg2, pre_main_arg3]
  rfl

theorem ops_main_arg0 (V : Valuation τ sig (Elt Ideal)) : after ops V (main_arg0 : DevRef τ sig) = V (main_arg0 : DevRef τ sig) := by
  rw [after_ops, R4_main_arg0, R3_main_arg0, R2_main_arg0, R1_main_arg0, R0_main_arg0, pre_main_arg0]
theorem ops_main_arg1 (V : Valuation τ sig (Elt Ideal)) : after ops V (main_arg1 : DevRef τ sig) = V (main_arg1 : DevRef τ sig) := by
  rw [after_ops, R4_main_arg1, R3_main_arg1, R2_main_arg1, R1_main_arg1, R0_main_arg1, pre_main_arg1]
theorem ops_main_arg2 (V : Valuation τ sig (Elt Ideal)) : after ops V (main_arg2 : DevRef τ sig) = V (main_arg2 : DevRef τ sig) := by
  rw [after_ops, R4_main_arg2, R3_main_arg2, R2_main_arg2, R1_main_arg2, R0_main_arg2, pre_main_arg2]
theorem ops_main_arg3 (V : Valuation τ sig (Elt Ideal)) : after ops V (main_arg3 : DevRef τ sig) = V (main_arg3 : DevRef τ sig) := by
  rw [after_ops, R4_main_arg3, R3_main_arg3, R2_main_arg3, R1_main_arg3, R0_main_arg3, pre_main_arg3]

/-! ## The run -/

/-- Every weakly fair execution of the idealized reference program ends with its result array at `RefTerm.refTerm` of the
    argument arrays, and the argument arrays unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v50)
          = Cert.ReferenceIdeal.RefTerm.refTerm (m ((c.tc : Thread nD τ).loc main_arg0)) (m ((c.tc : Thread nD τ).loc main_arg1))
              (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run (defs (F := Ideal)) _ _).mono (fun _ h c => ⟨(h c main_v50).trans (ops_out _),
      (h c main_arg0).trans (ops_main_arg0 _), (h c main_arg1).trans (ops_main_arg1 _),
      (h c main_arg2).trans (ops_main_arg2 _), (h c main_arg3).trans (ops_main_arg3 _)⟩)
    (run_seq scopedRefs_eq scopedSems_eq (defs (F := Ideal)) (main (F := Ideal)) (fun _ => ops) main_eq (fun _ => ops_sub) m ρ
      (fun _ => List.forall_iff_forall_mem.mp ops_fresh))

end Cert.ReferenceIdeal.RefRun

end
-- ==== Proof.RefRoundTake.lean ====
/-
  The selection of source rows read at an index: for tap k and row h, under an index word in [0, 32), the selection of
  an array y [32, 256, 128, 4] is y at the row the word names.
-/
import proofs.«171374_g11879879543385_cont_main2_343_2_alg».proof.Proof.RefTerm
import Idealize.ShloMosaic.PureOps.Ideal.Laws
import Idealize.ShloMosaic.Lib.ValueIdx
import Idealize.ShloMosaic.Lib.ValueLayout
import Idealize.ShloMosaic.Lib.Pipeline.Value
import Idealize.ShloMosaic.Lib.IdealHost
import Idealize.ShloMosaic.Lib.ReduceAll

noncomputable section

open scoped BigOperators

namespace Cert.ReferenceIdeal.RefRoundTake

open Idealize.ShloMosaic Idealize.ShloMosaic.ValueIdx Cert.ReferenceIdeal
open Cert.ReferenceIdeal.Facts₀ Cert.ReferenceIdeal.Facts

variable [Cert.ReferenceIdeal.Facts]

/-! ## Words in [0, 32) -/

/-- A word whose signed value is in [0, 32) has that value as its unsigned one, below 32. -/
theorem toNat_of_inRange (x : BitVec 32) (h0 : 0 ≤ x.toInt) (h1 : x.toInt < 32) : x.toInt.toNat = x.toNat ∧ x.toNat < 32 := by
  have hc := BitVec.toInt_eq_toNat_cond x
  have hlt := x.isLt
  split_ifs at hc <;> omega

/-! ## The gather read at an index -/

/-- The gather of rows of y [32, 256, 128, 4] at start indices [4, 32, 1], read at (k, h, p, q, b): y at the row the
    start index names, read signed and clamped into [0, 31], and (p, q, b). -/
theorem gather_apply {α : Type} {w : Nat} (x : S32x256x128x4.Idx → α) (idx : IVec S4x32x1 w)
    (k : Fin 4) (h : Fin 32) (p : Fin 256) (q : Fin 128) (b : Fin 4) :
    Host.gather gather_S32x256x128x4_S4x32x1_S4x32x256x128x4_234_0_n_n_0_2_12561284 x idx (ix5 k h p q b)
      = x (ix4 ⟨min (idx (ix3 k h (0 : Fin 1))).toInt.toNat 31, by omega⟩ p q b) := by
  generalize hD : gather_S32x256x128x4_S4x32x1_S4x32x256x128x4_234_0_n_n_0_2_12561284 = D
  have hsm : D.startIndexMap = [0] := by subst hD; rfl
  have hob : D.operandBatchingDims = [] := by subst hD; rfl
  have hcd : D.collapsedSliceDims = [0] := by subst hD; rfl
  unfold Host.gather
  congr 1
  funext a
  refine Fin.ext ?_
  match a with
  | ⟨0, _⟩ =>
    show D.start (ix5 k h p q b) idx 0 + D.batchCoord (ix5 k h p q b) 0 + D.offCoord (ix5 k h p q b) 0 = _
    rw [GatherDims.batchCoord_eq_zero _ _ _ (by rw [hob]; exact List.not_mem_nil),
      GatherDims.offCoord_eq_zero _ _ _ (fun hm => ((GatherDims.mem_sKept _ _).mp hm).1 (by rw [hcd]; exact List.mem_singleton.mpr rfl))]
    simp only [Nat.add_zero]
    subst hD
    unfold GatherDims.start
    rw [dif_pos (show (0 : Fin 4) ∈ gather_S32x256x128x4_S4x32x1_S4x32x256x128x4_234_0_n_n_0_2_12561284.startIndexMap from
      List.mem_singleton.mpr rfl)]
    have hsi : gather_S32x256x128x4_S4x32x1_S4x32x256x128x4_234_0_n_n_0_2_12561284.siIdx (ix5 k h p q b)
        ⟨List.idxOf (0 : Fin 4) gather_S32x256x128x4_S4x32x1_S4x32x256x128x4_234_0_n_n_0_2_12561284.startIndexMap,
          List.idxOf_lt_length_iff.2 (List.mem_singleton.mpr rfl)⟩ = ix3 k h (0 : Fin 1) := by
      funext c; refine Fin.ext ?_
      match c with
      | ⟨0, _⟩ => rfl
      | ⟨1, _⟩ => rfl
      | ⟨2, _⟩ => rfl
    rw [hsi]
    rfl
  | ⟨1, _⟩ =>
    show D.start (ix5 k h p q b) idx 1 + D.batchCoord (ix5 k h p q b) 1 + D.offCoord (ix5 k h p q b) 1 = p.val
    rw [GatherDims.batchCoord_eq_zero _ _ _ (by rw [hob]; exact List.not_mem_nil)]
    have hst : D.start (ix5 k h p q b) idx 1 = 0 := by
      unfold GatherDims.start
      rw [dif_neg (by rw [hsm]; exact fun hm => Nat.one_ne_zero (congrArg Fin.val (List.mem_singleton.mp hm)))]
    rw [hst]
    subst hD
    unfold GatherDims.offCoord
    rw [dif_pos ((GatherDims.mem_sKept _ _).mpr
      ⟨fun hm => Nat.one_ne_zero (congrArg Fin.val (List.mem_singleton.mp hm)), List.not_mem_nil⟩)]
    simp only [Nat.zero_add, Nat.add_zero]
    rfl
  | ⟨2, _⟩ =>
    show D.start (ix5 k h p q b) idx 2 + D.batchCoord (ix5 k h p q b) 2 + D.offCoord (ix5 k h p q b) 2 = q.val
    rw [GatherDims.batchCoord_eq_zero _ _ _ (by rw [hob]; exact List.not_mem_nil)]
    have hst : D.start (ix5 k h p q b) idx 2 = 0 := by
      unfold GatherDims.start
      rw [dif_neg (by rw [hsm]; exact fun hm => (by decide : (2 : Nat) ≠ 0) (congrArg Fin.val (List.mem_singleton.mp hm)))]
    rw [hst]
    subst hD
    unfold GatherDims.offCoord
    rw [dif_pos ((GatherDims.mem_sKept _ _).mpr
      ⟨fun hm => (by decide : (2 : Nat) ≠ 0) (congrArg Fin.val (List.mem_singleton.mp hm)), List.not_mem_nil⟩)]
    simp only [Nat.zero_add, Nat.add_zero]
    rfl
  | ⟨3, _⟩ =>
    show D.start (ix5 k h p q b) idx 3 + D.batchCoord (ix5 k h p q b) 3 + D.offCoord (ix5 k h p q b) 3 = b.val
    rw [GatherDims.batchCoord_eq_zero _ _ _ (by rw [hob]; exact List.not_mem_nil)]
    have hst : D.start (ix5 k h p q b) idx 3 = 0 := by
      unfold GatherDims.start
      rw [dif_neg (by rw [hsm]; exact fun hm => (by decide : (3 : Nat) ≠ 0) (congrArg Fin.val (List.mem_singleton.mp hm)))]
    rw [hst]
    subst hD
    unfold GatherDims.offCoord
    rw [dif_pos ((GatherDims.mem_sKept _ _).mpr
      ⟨fun hm => (by decide : (3 : Nat) ≠ 0) (congrArg Fin.val (List.mem_singleton.mp hm)), List.not_mem_nil⟩)]
    simp only [Nat.zero_add, Nat.add_zero]
    rfl

/-! ## The in-range mask -/

/-- A left fold by "and" from 1 over words that are all 1 is 1. -/
theorem foldl_andi_all_one {ι : Type} (f : ι → BitVec 1) (hf : ∀ n, f n = 1#1) :
    ∀ l : List ι, l.foldl (fun r n => IntOp.andi r (f n)) 1#1 = 1#1
  | [] => rfl
  | a :: l => by
    rw [List.foldl_cons, hf a]
    exact foldl_andi_all_one f hf l

/-- The index wrapped by +32 where negative: unchanged at a word that is not negative. -/
def wrapIdx (i0 : IVec S4x32 32) : IVec S4x32 32 :=
  select (cmpi .slt i0 (broadcastInDim S4x32 ![] bcast_S_S4x32 (constantI S_ 32 0#32)))
    (addi i0 (broadcastInDim S4x32 ![] bcast_S_S4x32 (constantI S_ 32 32#32))) i0

/-- The start indices [4, 32, 1]. -/
def startIdx (i0 : IVec S4x32 32) : IVec S4x32x1 32 :=
  broadcastInDim S4x32x1 ![0, 1] bcast_S4x32_S4x32x1_0_1 (wrapIdx i0)

/-- The mask [4, 32]: the start index is in [0, 31]. -/
def maskTerm (i0 : IVec S4x32 32) : IVec S4x32 1 :=
  Host.reduce IntOp.andi
    (andi (cmpi .sge (startIdx i0) (broadcastInDim S4x32x1 ![] bcast_S_S4x32x1 (constantI S_ 32 0#32)))
      (cmpi .sle (startIdx i0) (broadcastInDim S4x32x1 ![0, 1, 2] bcast_S1x1x1_S4x32x1_0_1_2
        (broadcastInDim S1x1x1 ![2] bcast_S1_S1x1x1_2 (constantI S1 32 31#32)))))
    (constantI S_ 1 1#1) reducesTo_S4x32x1_S4x32_d2 h_S_

/-- The selection is the gather where the mask holds, the fill elsewhere. -/
theorem takeTerm_eq (y : FVec Ideal S32x256x128x4 .f32) (i0 : IVec S4x32 32) :
    RefTerm.takeTerm y i0
      = select (broadcastInDim S4x32x256x128x4 ![0, 1] bcast_S4x32_S4x32x256x128x4_0_1 (maskTerm i0))
          (Host.gather gather_S32x256x128x4_S4x32x1_S4x32x256x128x4_234_0_n_n_0_2_12561284 y (startIdx i0))
          (broadcastInDim S4x32x256x128x4 ![] bcast_S_S4x32x256x128x4 (constant S_ .f32 0x7FC00000#32)) := rfl

/-- At a word that is not negative the wrapped index is the word. -/
theorem wrapIdx_apply (i0 : IVec S4x32 32) (k : Fin 4) (h : Fin 32) (h0 : 0 ≤ (i0 (ix2 k h)).toInt) :
    wrapIdx i0 (ix2 k h) = i0 (ix2 k h) := by
  show Scalar.select (IntOp.cmpi .slt (i0 (ix2 k h)) 0#32) _ _ = _
  have hc : IntOp.cmpi .slt (i0 (ix2 k h)) 0#32 = 0#1 := by
    refine eq_zero_of_ne_one fun e => ?_
    have := IntOp.cmpi_slt.mp e
    rw [show (0#32 : BitVec 32).toInt = 0 from by decide] at this
    omega
  rw [hc, select_zero]

/-- The start index at (k, h, 0) is the wrapped index at (k, h). -/
theorem startIdx_apply (i0 : IVec S4x32 32) (k : Fin 4) (h : Fin 32) :
    startIdx i0 (ix3 k h (0 : Fin 1)) = wrapIdx i0 (ix2 k h) := by
  unfold startIdx
  refine broadcastInDim_apply _ _ _ _ (ix2 k h) fun a => ?_
  match a with
  | ⟨0, _⟩ => rfl
  | ⟨1, _⟩ => rfl

/-- With every index word in [0, 32) the mask is 1 everywhere. -/
theorem maskTerm_apply (i0 : IVec S4x32 32) (hr : ∀ (k : Fin 4) (h : Fin 32), 0 ≤ (i0 (ix2 k h)).toInt ∧ (i0 (ix2 k h)).toInt < 32)
    (j : S4x32.Idx) : maskTerm i0 j = 1#1 := by
  unfold maskTerm
  rw [Host.reduce_eq_foldl]
  refine foldl_andi_all_one _ (fun i => ?_) _
  obtain ⟨k, h, z, rfl⟩ : ∃ (k : Fin 4) (h : Fin 32) (z : Fin 1), i = ix3 k h z := ⟨i 0, i 1, i 2, eq_ix3 i⟩
  obtain rfl : z = 0 := Subsingleton.elim _ _
  show IntOp.andi (IntOp.cmpi .sge (startIdx i0 (ix3 k h (0 : Fin 1))) 0#32)
    (IntOp.cmpi .sle (startIdx i0 (ix3 k h (0 : Fin 1))) 31#32) = 1#1
  rw [startIdx_apply, wrapIdx_apply i0 k h (hr k h).1]
  have h1 : IntOp.cmpi .sge (i0 (ix2 k h)) 0#32 = 1#1 :=
    IntOp.cmpi_sge.mpr (by rw [show (0#32 : BitVec 32).toInt = 0 from by decide]; exact (hr k h).1)
  have h2 : IntOp.cmpi .sle (i0 (ix2 k h)) 31#32 = 1#1 :=
    IntOp.cmpi_sle.mpr (by rw [show (31#32 : BitVec 32).toInt = 31 from by decide]; have := (hr k h).2; omega)
  rw [h1, h2]
  rfl

/-! ## The selection read at an index -/

/-- THE SELECTION READ AT (k, h, p, q, b): with every index word in [0, 32), y at the row the word of (k, h) names. -/
theorem takeTerm_apply (y : FVec Ideal S32x256x128x4 .f32) (i0 : IVec S4x32 32)
    (hr : ∀ (k : Fin 4) (h : Fin 32), 0 ≤ (i0 (ix2 k h)).toInt ∧ (i0 (ix2 k h)).toInt < 32)
    (k : Fin 4) (h : Fin 32) (p : Fin 256) (q : Fin 128) (b : Fin 4) :
    RefTerm.takeTerm y i0 (ix5 k h p q b)
      = y (ix4 ⟨(i0 (ix2 k h)).toNat % 32, Nat.mod_lt _ (by norm_num)⟩ p q b) := by
  rw [takeTerm_eq, select_apply]
  have hm : broadcastInDim S4x32x256x128x4 ![0, 1] bcast_S4x32_S4x32x256x128x4_0_1 (maskTerm i0) (ix5 k h p q b) = 1#1 := by
    refine (broadcastInDim_apply _ _ _ _ (ix2 k h) fun a => ?_).trans (maskTerm_apply i0 hr _)
    match a with
    | ⟨0, _⟩ => rfl
    | ⟨1, _⟩ => rfl
  rw [hm, select_one, gather_apply]
  congr 2
  refine Fin.ext ?_
  obtain ⟨e1, e2⟩ := toNat_of_inRange _ (hr k h).1 (hr k h).2
  show min (startIdx i0 (ix3 k h (0 : Fin 1))).toInt.toNat 31 = (i0 (ix2 k h)).toNat % 32
  rw [startIdx_apply, wrapIdx_apply i0 k h (hr k h).1, e1]
  omega

end Cert.ReferenceIdeal.RefRoundTake

end
-- ==== Proof.RefRound.lean ====
/-
  One round of the reference, in its own operations, is the round of the specification when every index word names a row.
-/
import proofs.«171374_g11879879543385_cont_main2_343_2_alg».proof.Proof.RefTerm
import proofs.«171374_g11879879543385_cont_main2_343_2_alg».proof.Proof.RefRoundTake
import proofs.«171374_g11879879543385_cont_main2_343_2_alg».proof.Proof.Spec
import Idealize.ShloMosaic.PureOps.Ideal.Laws
import Idealize.ShloMosaic.Lib.ValueIdx
import Idealize.ShloMosaic.Lib.ValueLayout
import Idealize.ShloMosaic.Lib.Pipeline.Value
import Idealize.ShloMosaic.Lib.IdealHost

noncomputable section

open scoped BigOperators

namespace Cert.ReferenceIdeal.RefRound

open Idealize.ShloMosaic Idealize.ShloMosaic.ValueIdx Cert.ReferenceIdeal
open Cert.ReferenceIdeal.Facts₀ Cert.ReferenceIdeal.Facts

variable [Cert.ReferenceIdeal.Facts]

/-- The index array viewed as [4, 32] holds at (k, h) the word of tap k at row h. -/
theorem idxTerm_apply (i : Cert.TapMix.IdxArr) (k : Fin 4) (h : Fin 32) :
    Cert.ReferenceIdeal.RefTerm.idxTerm i (ix2 k h) = Cert.TapMix.tapWord i k h := by
  unfold Cert.ReferenceIdeal.RefTerm.idxTerm Cert.TapMix.tapWord
  refine shapeCast_apply _ _ _ (ix3 k h (0 : Fin 1)) ?_
  rw [Shape.rowMajor_val_three, Shape.rowMajor_val_two]
  show ((k.val * 32 + h.val) * 1 + 0) = k.val * 32 + h.val
  omega

/-- The sum over the taps' axis of an array [4, 32, 256, 128, 4] from zero, read at (h, p, q, b). -/
theorem sumTaps_apply (x : FVec Ideal S4x32x256x128x4 .f32) (h : Fin 32) (p : Fin 256) (q : Fin 128) (b : Fin 4) :
    Host.reduceAdd x (constant (F := Ideal) S_ .f32 0x00000000#32) reducesTo_S4x32x256x128x4_S32x256x128x4_d0 h_S_ (ix4 h p q b)
      = ∑ k : Fin 4, x (ix5 k h p q b) := by
  have hR : S4x32x256x128x4.Reduces [0] S32x256x128x4 := by decide
  rw [hostReduceAdd_apply, Ideal.hostReduceAdd_single _ hR, constant_apply, Ideal.ofBits_zero_f32, zero_add]
  refine Finset.sum_congr rfl fun k _ => congrArg x ?_
  funext c; refine Fin.ext ?_
  match c with
  | ⟨0, _⟩ => rfl
  | ⟨1, _⟩ => rfl
  | ⟨2, _⟩ => rfl
  | ⟨3, _⟩ => rfl
  | ⟨4, _⟩ => rfl

/-- With every index word in [0, 32) the reference's round is the specification's. -/
theorem roundTerm_eq (y : Cert.TapMix.Arr) (i : Cert.TapMix.IdxArr) (w : Cert.TapMix.WArr) (lam : Cert.TapMix.Scal)
    (hr : Cert.TapMix.InRange i) :
    Cert.ReferenceIdeal.RefTerm.roundTerm y (Cert.ReferenceIdeal.RefTerm.idxTerm i) w lam = Cert.TapMix.round i w lam y := by
  funext j
  obtain ⟨b, h, p, q, rfl⟩ : ∃ (b : Fin 4) (h : Fin 32) (p : Fin 256) (q : Fin 128), j = ix4 b h p q :=
    ⟨j 0, j 1, j 2, j 3, eq_ix4 j⟩
  rw [Cert.TapMix.round_apply]
  have hr' : ∀ (k : Fin 4) (h : Fin 32), 0 ≤ (Cert.ReferenceIdeal.RefTerm.idxTerm i (ix2 k h)).toInt ∧
      (Cert.ReferenceIdeal.RefTerm.idxTerm i (ix2 k h)).toInt < 32 := fun k h => by
    rw [idxTerm_apply]; exact hr k h
  unfold Cert.ReferenceIdeal.RefTerm.roundTerm
  dsimp only
  rw [mulf_apply, broadcastInDim_scalar_apply]
  congr 1
  -- the batch axis moved back in front
  refine (transpose_apply _ _ _ _ (ix4 h p q b) fun a => ?_).trans ?_
  · match a with
    | ⟨0, _⟩ => rfl
    | ⟨1, _⟩ => rfl
    | ⟨2, _⟩ => rfl
    | ⟨3, _⟩ => rfl
  rw [sumTaps_apply]
  refine Finset.sum_congr rfl fun k _ => ?_
  rw [mulf_apply, Cert.ReferenceIdeal.RefRoundTake.takeTerm_apply _ _ hr', mulf_apply, broadcastInDim_scalar_apply, constant_apply,
    Ideal.ofBits_one_f32, mul_one, idxTerm_apply]
  congr 1
  · -- the batch axis moved last
    refine (transpose_apply _ _ _ _ (ix4 b (Cert.TapMix.tapRow i k h) p q) fun a => ?_)
    match a with
    | ⟨0, _⟩ => rfl
    | ⟨1, _⟩ => rfl
    | ⟨2, _⟩ => rfl
    | ⟨3, _⟩ => rfl
  · -- the weight broadcast along every other axis
    refine broadcastInDim_apply _ _ _ _ (ix5 k (0 : Fin 1) (0 : Fin 1) (0 : Fin 1) (0 : Fin 1)) fun a => ?_
    match a with
    | ⟨0, _⟩ => rfl
    | ⟨1, _⟩ => rfl
    | ⟨2, _⟩ => rfl
    | ⟨3, _⟩ => rfl
    | ⟨4, _⟩ => rfl

/-- So the five-round term is the specification's five rounds. -/
theorem refTerm_eq (x : Cert.TapMix.Arr) (i : Cert.TapMix.IdxArr) (w : Cert.TapMix.WArr) (lam : Cert.TapMix.Scal)
    (hr : Cert.TapMix.InRange i) :
    Cert.ReferenceIdeal.RefTerm.refTerm x i w lam = Cert.TapMix.refOut x i w lam := by
  unfold Cert.ReferenceIdeal.RefTerm.refTerm Cert.TapMix.refOut
  rw [roundTerm_eq _ i w lam hr, roundTerm_eq _ i w lam hr, roundTerm_eq _ i w lam hr, roundTerm_eq _ i w lam hr,
    roundTerm_eq _ i w lam hr]

end Cert.ReferenceIdeal.RefRound

end
-- ==== Proof.Bridge.lean ====
/-
  Five rounds are the product with the fifth power of the mixing matrix.

  With every index word naming a row, the entry `hot` of tap k at (h, h') is 1 exactly when h' is tap k's source row at h,
  so a round of a column v is  (round v)(h) = lam · ∑ k, v(source row of k at h) · weight k = ∑ h', mix(h, h') · v(h'):
  the product of the mixing matrix with the column. On the extended reals distributivity fails at the infinities, so
  the data enter as coercions of real numbers (they are finite); every expression is then the coercion of a real
  expression, the real identity  ((((M·M)·M)·M)·M)·v = M·(M·(M·(M·(M·v))))  is associativity of the matrix product,
  and the two sides of the claim are its two sides.
-/
import proofs.«171374_g11879879543385_cont_main2_343_2_alg».proof.Proof.Spec
import Mathlib.Data.EReal.Inv
import Mathlib.Data.Matrix.Mul

noncomputable section

open scoped BigOperators

namespace Cert.TapMix

open Idealize.ShloMosaic Idealize.ShloMosaic.ValueIdx

/-- The coercion of the reals into the extended reals commutes with finite sums. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A family of extended reals none of which is infinite is the coercion of a family of reals. -/
theorem exists_real {ι : Type*} (f : ι → EReal) (h : ∀ i, f i ≠ ⊤ ∧ f i ≠ ⊥) : ∃ r : ι → ℝ, ∀ i, f i = (r i : EReal) :=
  ⟨fun i => (f i).toReal, fun i => (EReal.coe_toReal (h i).1 (h i).2).symm⟩

/-- A word in [0, 32) read signed is the word of the column h' exactly when h' is its value. -/
theorem ofNat_eq_iff (x : BitVec 32) (h0 : 0 ≤ x.toInt) (h1 : x.toInt < 32) (h' : Fin 32) :
    BitVec.ofNat 32 h'.val = x ↔ h' = (⟨x.toNat % 32, Nat.mod_lt _ (by norm_num)⟩ : Fin 32) := by
  have hx : x.toNat < 32 := by
    have := BitVec.toInt_eq_toNat_cond x
    have hlt := x.isLt
    split_ifs at this <;> omega
  have hh := h'.isLt
  constructor
  · intro e
    apply Fin.ext
    have := congrArg BitVec.toNat e
    rw [BitVec.toNat_ofNat] at this
    show h'.val = x.toNat % 32
    omega
  · intro e
    have e' : h'.val = x.toNat % 32 := congrArg Fin.val e
    apply BitVec.eq_of_toNat_eq
    rw [BitVec.toNat_ofNat]
    omega

/-- With every index word naming a row, `hot` is the indicator of the tap's source row. -/
theorem hot_eq (idx : IdxArr) (hr : InRange idx) (k : Fin 4) (h h' : Fin 32) :
    hot idx k h h' = if h' = tapRow idx k h then 1 else 0 := by
  unfold hot tapRow
  have := ofNat_eq_iff (tapWord idx k h) (hr k h).1 (hr k h).2 h'
  by_cases c : BitVec.ofNat 32 h'.val = tapWord idx k h
  · rw [if_pos c, if_pos (this.mp c)]
  · rw [if_neg c, if_neg (fun e => c (this.mpr e))]

/-! ## The real matrices -/

/-- The mixing matrix over the reals. -/
def mixR (J : Fin 4 → Fin 32 → Fin 32) (wr : Fin 4 → ℝ) (lr : ℝ) : Matrix (Fin 32) (Fin 32) ℝ :=
  fun h h' => (∑ k : Fin 4, (if h' = J k h then 1 else 0) * wr k) * lr

/-- The product of the real mixing matrix with a column is a round of the column. -/
theorem mixR_mulVec (J : Fin 4 → Fin 32 → Fin 32) (wr : Fin 4 → ℝ) (lr : ℝ) (v : Fin 32 → ℝ) (h : Fin 32) :
    Matrix.mulVec (mixR J wr lr) v h = lr * ∑ k : Fin 4, v (J k h) * wr k := by
  unfold Matrix.mulVec mixR
  show ∑ h' : Fin 32, ((∑ k : Fin 4, (if h' = J k h then 1 else 0) * wr k) * lr) * v h' = _
  have : ∀ h' : Fin 32, ((∑ k : Fin 4, (if h' = J k h then (1 : ℝ) else 0) * wr k) * lr) * v h'
      = ∑ k : Fin 4, (if h' = J k h then lr * (v h' * wr k) else 0) := by
    intro h'
    rw [Finset.sum_mul, Finset.sum_mul]
    refine Finset.sum_congr rfl fun k _ => ?_
    split_ifs <;> ring
  simp only [this]
  rw [Finset.sum_comm, Finset.mul_sum]
  refine Finset.sum_congr rfl fun k _ => ?_
  rw [Finset.sum_ite_eq' Finset.univ (J k h) (fun h' => lr * (v h' * wr k))]
  simp

/-- The mixing matrix of real data is the coercion of the real mixing matrix. -/
theorem mix_coe (idx : IdxArr) (hr : InRange idx) (w : WArr) (lam : Scal) (wr : Fin 4 → ℝ) (lr : ℝ)
    (hw : ∀ k, tapW w k = (wr k : EReal)) (hl : lam ix0 = (lr : EReal)) (h h' : Fin 32) :
    mix idx w lam h h' = ((mixR (tapRow idx) wr lr h h' : ℝ) : EReal) := by
  unfold mix mixR
  rw [hl, EReal.coe_mul, coe_sum]
  congr 1
  refine Finset.sum_congr rfl fun k _ => ?_
  rw [hot_eq idx hr, hw k, EReal.coe_mul]
  congr 1
  split_ifs <;> simp

/-- The product of two coerced real matrices is the coercion of their product. -/
theorem mmul_coe (a b : Fin 32 → Fin 32 → EReal) (A B : Matrix (Fin 32) (Fin 32) ℝ)
    (ha : ∀ h h', a h h' = ((A h h' : ℝ) : EReal)) (hb : ∀ h h', b h h' = ((B h h' : ℝ) : EReal)) (h h' : Fin 32) :
    mmul a b h h' = (((A * B) h h' : ℝ) : EReal) := by
  unfold mmul
  rw [Matrix.mul_apply, coe_sum]
  refine Finset.sum_congr rfl fun j _ => ?_
  rw [ha, hb, EReal.coe_mul]

/-- A round of a coerced real array is the coercion of the real mixing matrix times each column. -/
theorem round_coe (idx : IdxArr) (hr : InRange idx) (w : WArr) (lam : Scal) (wr : Fin 4 → ℝ) (lr : ℝ)
    (hw : ∀ k, tapW w k = (wr k : EReal)) (hl : lam ix0 = (lr : EReal))
    (y : Arr) (c : Fin 4 → Fin 256 → Fin 128 → Fin 32 → ℝ)
    (hy : ∀ b h p q, y (ix4 b h p q) = ((c b p q h : ℝ) : EReal)) (b : Fin 4) (h : Fin 32) (p : Fin 256) (q : Fin 128) :
    round idx w lam y (ix4 b h p q) = ((Matrix.mulVec (mixR (tapRow idx) wr lr) (c b p q) h : ℝ) : EReal) := by
  rw [round_apply, mixR_mulVec, hl, EReal.coe_mul, coe_sum]
  congr 1
  refine Finset.sum_congr rfl fun k _ => ?_
  rw [hy, hw k, EReal.coe_mul]

/-- THE BRIDGE: on finite data with every index word naming a row, the product with the fifth power of the mixing matrix
    is five rounds. -/
theorem kerOut_eq_refOut (x : Arr) (idx : IdxArr) (w : WArr) (lam : Scal)
    (hx : ∀ j, x j ≠ ⊤ ∧ x j ≠ ⊥) (hw : ∀ k, tapW w k ≠ ⊤ ∧ tapW w k ≠ ⊥) (hl : lam ix0 ≠ ⊤ ∧ lam ix0 ≠ ⊥)
    (hr : InRange idx) : kerOut x idx w lam = refOut x idx w lam := by
  obtain ⟨xr, hxr⟩ := exists_real x hx
  obtain ⟨wr, hwr⟩ := exists_real (tapW w) hw
  have hlr : lam ix0 = ((lam ix0).toReal : EReal) := (EReal.coe_toReal hl.1 hl.2).symm
  generalize (lam ix0).toReal = lr at hlr
  let M : Matrix (Fin 32) (Fin 32) ℝ := mixR (tapRow idx) wr lr
  have hM : ∀ h h', mix idx w lam h h' = ((M h h' : ℝ) : EReal) := mix_coe idx hr w lam wr lr hwr hlr
  have h5 : ∀ h h', mix5 idx w lam h h' = (((((M * M) * M) * M) * M) h h' : ℝ) :=
    mmul_coe _ _ _ _ (mmul_coe _ _ _ _ (mmul_coe _ _ _ _ (mmul_coe _ _ _ _ hM hM) hM) hM) hM
  let c0 : Fin 4 → Fin 256 → Fin 128 → Fin 32 → ℝ := fun b p q h => xr (ix4 b h p q)
  have r1 := round_coe idx hr w lam wr lr hwr hlr x c0 (fun b h p q => hxr _)
  have r2 := round_coe idx hr w lam wr lr hwr hlr _ _ r1
  have r3 := round_coe idx hr w lam wr lr hwr hlr _ _ r2
  have r4 := round_coe idx hr w lam wr lr hwr hlr _ _ r3
  have r5 := round_coe idx hr w lam wr lr hwr hlr _ _ r4
  funext j
  obtain ⟨b, h, p, q, rfl⟩ : ∃ (b : Fin 4) (h : Fin 32) (p : Fin 256) (q : Fin 128), j = ix4 b h p q :=
    ⟨j 0, j 1, j 2, j 3, eq_ix4 j⟩
  unfold refOut
  rw [r5 b h p q, kerOut_apply]
  have : ∀ h' : Fin 32, mix5 idx w lam h h' * x (ix4 b h' p q) = (((((((M * M) * M) * M) * M) h h') * c0 b p q h' : ℝ) : EReal) := by
    intro h'
    rw [h5, hxr, EReal.coe_mul]
  simp only [this]
  rw [← coe_sum]
  congr 1
  show Matrix.mulVec ((((M * M) * M) * M) * M) (c0 b p q) h = _
  simp only [Matrix.mulVec_mulVec, Matrix.mul_assoc]
  rfl

end Cert.TapMix

end
-- ==== Proof.PreDecode.lean ====
/-
  What the precondition says of the argument arrays.

  The precondition is the conjunction of five tests, each an "all" over an array of comparison bits: |x| < +∞ at every entry of
  the data array, of the weight array and of the factor, and 0 ≤ i and i < 32 (signed) at every entry of the index array.
  If the conjunction is 1 then every bit of every test is 1; an extended real whose absolute value is below +∞ is neither
  infinity, and a signed comparison bit that is 1 is the comparison of the words read as integers.
-/
import proofs.«171374_g11879879543385_cont_main2_343_2_alg».proof.Pre_finite_inputs
import proofs.«171374_g11879879543385_cont_main2_343_2_alg».proof.Proof.Gen.Pre_finite_inputs
import proofs.«171374_g11879879543385_cont_main2_343_2_alg».proof.Proof.Spec
import Idealize.ShloMosaic.Lib.ReduceAll
import Idealize.ShloMosaic.PureOps.Ideal
import Idealize.ShloMosaic.PureOps.Ideal.Laws

noncomputable section

namespace Cert.PreDecode

open Idealize.ShloMosaic Idealize.ShloMosaic.ValueIdx Cert.Pre_finite_inputs

/-- A rank-0 array has one index. -/
instance : Subsingleton (Cert.Pre_finite_inputs.S_).Idx := ⟨fun a b => funext fun d => d.elim0⟩

/-- An extended real whose absolute value is below +∞ is neither infinity. -/
theorem finite_of_abs_lt (a : EReal) (h : Ideal.cmp .olt (max a (-a)) (Ideal.ofBits .f32 0x7F800000#32) = 1#1) : a ≠ ⊤ ∧ a ≠ ⊥ := by
  have hinf : Ideal.ofBits .f32 0x7F800000#32 = ⊤ := by simp [Ideal.ofBits, Ideal.ieee]
  rw [hinf] at h
  induction a using EReal.rec with
  | bot => simp [Ideal.cmp] at h
  | top => simp [Ideal.cmp] at h
  | coe r => exact ⟨EReal.coe_ne_top r, EReal.coe_ne_bot r⟩

/-- The precondition, decoded: the three float arrays are finite everywhere and every index word names a row. -/
theorem decode (x : Cert.TapMix.Arr) (i : Cert.TapMix.IdxArr) (w : Cert.TapMix.WArr) (lam : Cert.TapMix.Scal)
    (h : Cert.Pre_finite_inputs.fn (F := Ideal) x i w lam = fun _ => 1#1) :
    (∀ j, x j ≠ ⊤ ∧ x j ≠ ⊥) ∧ (∀ k, Cert.TapMix.tapW w k ≠ ⊤ ∧ Cert.TapMix.tapW w k ≠ ⊥)
      ∧ (lam ix0 ≠ ⊤ ∧ lam ix0 ≠ ⊥) ∧ Cert.TapMix.InRange i := by
  have h0 := congrFun h ix0
  dsimp only [Cert.Pre_finite_inputs.fn, Cert.Pre_finite_inputs.fn_part1] at h0
  have e : ∀ (a b : IVec S_ 1) (j : S_.Idx), andi a b j = IntOp.andi (a j) (b j) := fun _ _ _ => rfl
  rw [e, IntOp.andi_eq_one, e, IntOp.andi_eq_one, e, IntOp.andi_eq_one, e, IntOp.andi_eq_one] at h0
  obtain ⟨⟨⟨⟨hx, hw⟩, hl⟩, hge⟩, hlt⟩ := h0
  refine ⟨fun j => ?_, fun k => ?_, ?_, fun k r => ⟨?_, ?_⟩⟩
  · exact finite_of_abs_lt _ (Host.reduce_andi_all _ _ _ _ ix0 hx j)
  · exact finite_of_abs_lt _ (Host.reduce_andi_all _ _ _ _ ix0 hw _)
  · exact finite_of_abs_lt _ (Host.reduce_andi_all _ _ _ _ ix0 hl ix0)
  · have h2 : IntOp.cmpi .sge (i (ix3 k r (0 : Fin 1))) (0#32) = 1#1 := Host.reduce_andi_all _ _ _ _ ix0 hge _
    rw [IntOp.cmpi_sge] at h2
    show (0 : Int) ≤ (i (ix3 k r (0 : Fin 1))).toInt
    simpa using h2
  · have h2 : IntOp.cmpi .slt (i (ix3 k r (0 : Fin 1))) (32#32) = 1#1 := Host.reduce_andi_all _ _ _ _ ix0 hlt _
    rw [IntOp.cmpi_slt] at h2
    show (i (ix3 k r (0 : Fin 1))).toInt < 32
    simpa using h2

end Cert.PreDecode

end
-- ==== Proof.lean ====
/-
  The certificate: a kernel that mixes the rows of a [4, 32, 256, 128] array along its second axis by the fifth power of a
  32 × 32 mixing matrix, against a reference that applies the mixing five times as gathers.

  Both programs take a data array x, an index array (for each of four taps and each of 32 rows the word of a source row), one
  weight per tap and a scalar factor. The reference replaces, five times, every row h of x by
  factor · ∑ k, x(source row of tap k at h) · weight k.  The kernel builds the matrix  mix(h, h') = (∑ k, [h' is the source row
  of tap k at h] · weight k) · factor  by comparing the index words with a row counter, raises it to the fifth power by four
  matrix products, and multiplies every [32]-column of x by the power. A round is linear in the column — it IS the product
  with `mix` — so five rounds are the product with the fifth power (associativity of the matrix product); the
  identity needs distributivity, hence real (finite) data, and needs every index word to name a row in [0, 32): outside that
  range the reference wraps or fills while the kernel's comparison finds no row. Both are what the precondition states.

  The frames of the two kernel programs are the generated ones; the reference's frame is its run with the result dropped;
  the idealization rewrote nothing, so `preserves` is trivial; the value claim joins the kernel's run (its result array is
  `TapMix.kerOut` of the arguments), the reference's run (its result array is five rounds in the reference's own operations,
  which are `TapMix.refOut` when every index word names a row) and the bridge `TapMix.kerOut_eq_refOut`.
-/
import proofs.«171374_g11879879543385_cont_main2_343_2_alg».proof.Defs
import proofs.«171374_g11879879543385_cont_main2_343_2_alg».proof.Proof.Gen.Kernel
import proofs.«171374_g11879879543385_cont_main2_343_2_alg».proof.Proof.Gen.Kernel.Skeleton
import proofs.«171374_g11879879543385_cont_main2_343_2_alg».proof.Proof.Gen.Kernel.Launch
import proofs.«171374_g11879879543385_cont_main2_343_2_alg».proof.Proof.Gen.Kernel.Points
import proofs.«171374_g11879879543385_cont_main2_343_2_alg».proof.Proof.Gen.Kernel.Frame
import proofs.«171374_g11879879543385_cont_main2_343_2_alg».proof.Proof.Gen.KernelIdeal
import proofs.«171374_g11879879543385_cont_main2_343_2_alg».proof.Proof.Gen.KernelIdeal.Skeleton
import proofs.«171374_g11879879543385_cont_main2_343_2_alg».proof.Proof.Gen.KernelIdeal.Launch
import proofs.«171374_g11879879543385_cont_main2_343_2_alg».proof.Proof.Gen.KernelIdeal.Points
import proofs.«171374_g11879879543385_cont_main2_343_2_alg».proof.Proof.Gen.KernelIdeal.Frame
import proofs.«171374_g11879879543385_cont_main2_343_2_alg».proof.Proof.Gen.ReferenceIdeal
import proofs.«171374_g11879879543385_cont_main2_343_2_alg».proof.Proof.Gen.Pre_finite_inputs
import proofs.«171374_g11879879543385_cont_main2_343_2_alg».proof.Proof.KerValue
import proofs.«171374_g11879879543385_cont_main2_343_2_alg».proof.Proof.RefRun
import proofs.«171374_g11879879543385_cont_main2_343_2_alg».proof.Proof.RefRound
import proofs.«171374_g11879879543385_cont_main2_343_2_alg».proof.Proof.Bridge
import proofs.«171374_g11879879543385_cont_main2_343_2_alg».proof.Proof.PreDecode
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame: its run with the result array dropped. -/
theorem frame_referenceIdeal : Cert.frame_ReferenceIdeal := fun m ρ _ =>
  (θ_run Cert.ReferenceIdeal.defs _ _).mono (fun _ h c => (h c).2) (Cert.ReferenceIdeal.RefRun.run m ρ)

/-- The idealization rewrote no operation. -/
theorem preserves : Cert.preserves_Kernel_KernelIdeal := trivial

/-- From memories that agree on the arguments and satisfy the precondition, both programs end with the same result array:
    the product with the fifth power of the mixing matrix is five rounds. -/
theorem algebraic : Cert.algebraic_KernelIdeal_ReferenceIdeal := by
  intro m ρ m' ρ' hpre hagree
  refine ⟨_, Cert.KernelIdeal.KerValue.run m ρ, ?_⟩
  refine (θ_run Cert.ReferenceIdeal.defs _ _).mono (fun _ h c => ⟨(h c).1.trans ?_, (h c).2⟩)
    (Cert.ReferenceIdeal.RefRun.run m' ρ')
  rw [(hagree c).1, (hagree c).2.1, (hagree c).2.2.1, (hagree c).2.2.2]
  obtain ⟨hx, hw, hl, hr⟩ := Cert.PreDecode.decode _ _ _ _ (hpre c)
  rw [Cert.ReferenceIdeal.RefRound.refTerm_eq _ _ _ _ hr]
  exact (Cert.TapMix.kerOut_eq_refOut _ _ _ _ hx hw hl hr).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
